-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S16384x64 : Shape := ⟨2, ![16384, 64]⟩
abbrev S8192x8192 : Shape := ⟨2, ![8192, 8192]⟩
abbrev S8192x16384 : Shape := ⟨2, ![8192, 16384]⟩
abbrev S16384x16384 : Shape := ⟨2, ![16384, 16384]⟩
abbrev S16384x8192 : Shape := ⟨2, ![16384, 8192]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S16384x16384 : S_.BroadcastsInDim S16384x16384 (![] : Fin 0 → Fin S16384x16384.rank)
  reducesTo_S16384x16384_S_d0_1 : S16384x16384.ReducesTo [0, 1] S_
  bcast_S_S16384x8192 : S_.BroadcastsInDim S16384x8192 (![] : Fin 0 → Fin S16384x8192.rank)
  reducesTo_S16384x8192_S_d0_1 : S16384x8192.ReducesTo [0, 1] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64x64 .f32) (main_arg12 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  main_v63

def fn_part2 {F : FTy → Type} [FloatOps F] (main_arg7 : FVec F S8192x8192 .f32) (main_arg8 : FVec F S64x64 .f32) (main_arg9 : FVec F S64x64 .f32) (main_arg10 : FVec F S64x64 .f32) (main_arg11 : FVec F S64x64 .f32) (main_arg12 : FVec F S64x64 .f32) (main_v33 : IVec S_ 1) : IVec S_ 1 :=
  let main_v34 : FVec F S8192x8192 .f32 := Host.absf main_arg7
  let main_cst_12 : FVec F S_ .f32 := constant S_ .f32 0x7F800000#32
  let main_v35 : FVec F S8192x8192 .f32 := broadcastInDim S8192x8192 ![] bcast_S_S8192x8192 main_cst_12
  let main_v36 : IVec S8192x8192 1 := cmpf .olt main_v34 main_v35
  let main_c_13 : IVec S_ 1 := constantI S_ 1 1#1
  let main_v37 : IVec S_ 1 := (fun x v => Host.reduce IntOp.andi x v reducesTo_S8192x8192_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_v48 main_v49 main_v50

def fn_part1 {F : FTy → Type} [FloatOps F] (main_arg4 : FVec F S8192x16384 .f32) (main_arg5 : FVec F S16384x16384 .f32) (main_arg6 : FVec F S16384x8192 .f32) (main_arg7 : FVec F S8192x8192 .f32) (main_arg8 : FVec F S64x64 .f32) (main_arg9 : FVec F S64x64 .f32) (main_arg10 : FVec F S64x64 .f32) (main_arg11 : FVec F S64x64 .f32) (main_arg12 : FVec F S64x64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x16384 .f32 := Host.absf main_arg4
  let main_cst_6 : FVec F S_ .f32 := constant S_ .f32 0x7F800000#32
  let main_v20 : FVec F S8192x16384 .f32 := broadcastInDim S8192x16384 ![] bcast_S_S8192x16384 main_cst_6
  let main_v21 : IVec S8192x16384 1 := cmpf .olt main_v19 main_v20
  let main_c_7 : IVec S_ 1 := constantI S_ 1 1#1
  let main_v22 : IVec S_ 1 := (fun x v => Host.reduce IntOp.andi x v reducesTo_S8192x16384_S_d0_1 h_S_) main_v21 main_c_7
  let main_v23 : IVec S_ 1 := andi main_v18 main_v22
  let main_v24 : FVec F S16384x16384 .f32 := Host.absf main_arg5
  let main_cst_8 : FVec F S_ .f32 := constant S_ .f32 0x7F800000#32
  let main_v25 : FVec F S16384x16384 .f32 := broadcastInDim S16384x16384 ![] bcast_S_S16384x16384 main_cst_8
  let main_v26 : IVec S16384x16384 1 := cmpf .olt main_v24 main_v25
  let main_c_9 : IVec S_ 1 := constantI S_ 1 1#1
  let main_v27 : IVec S_ 1 := (fun x v => Host.reduce IntOp.andi x v reducesTo_S16384x16384_S_d0_1 h_S_) main_v26 main_c_9
  let main_v28 : IVec S_ 1 := andi main_v23 main_v27
  let main_v29 : FVec F S16384x8192 .f32 := Host.absf main_arg6
  let main_cst_10 : FVec F S_ .f32 := constant S_ .f32 0x7F800000#32
  let main_v30 : FVec F S16384x8192 .f32 := broadcastInDim S16384x8192 ![] bcast_S_S16384x8192 main_cst_10
  let main_v31 : IVec S16384x8192 1 := cmpf .olt main_v29 main_v30
  let main_c_11 : IVec S_ 1 := constantI S_ 1 1#1
  let main_v32 : IVec S_ 1 := (fun x v => Host.reduce IntOp.andi x v reducesTo_S16384x8192_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x64 .f32) (main_arg1 : FVec F S16384x64 .f32) (main_arg2 : FVec F S8192x64 .f32) (main_arg3 : FVec F S8192x8192 .f32) (main_arg4 : FVec F S8192x16384 .f32) (main_arg5 : FVec F S16384x16384 .f32) (main_arg6 : FVec F S16384x8192 .f32) (main_arg7 : FVec F S8192x8192 .f32) (main_arg8 : FVec F S64x64 .f32) (main_arg9 : FVec F S64x64 .f32) (main_arg10 : FVec F S64x64 .f32) (main_arg11 : FVec F S64x64 .f32) (main_arg12 : FVec F S64x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_v13 main_v16
-- ==== Kernel.lean ====
abbrev S8192x64 : Shape := ⟨2, ![8192, 64]⟩
abbrev S16384x64 : Shape := ⟨2, ![16384, 64]⟩
abbrev S8192x8192 : Shape := ⟨2, ![8192, 8192]⟩
abbrev S8192x16384 : Shape := ⟨2, ![8192, 16384]⟩
abbrev S16384x16384 : Shape := ⟨2, ![16384, 16384]⟩
abbrev S16384x8192 : Shape := ⟨2, ![16384, 8192]⟩
abbrev S64x64 : Shape := ⟨2, ![64, 64]⟩
abbrev S1024x1024 : Shape := ⟨2, ![1024, 1024]⟩
abbrev S1024x2048 : Shape := ⟨2, ![1024, 2048]⟩
abbrev S1024x64 : Shape := ⟨2, ![1024, 64]⟩
abbrev S2048x64 : Shape := ⟨2, ![2048, 64]⟩

abbrev nBuf : Space → Nat
  | .hbm => 21
  | .vmem => 24
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x64, .f32⟩
  | .hbm, ⟨3, _⟩ => ⟨S8192x8192, .f32⟩
  | .hbm, ⟨4, _⟩ => ⟨S8192x16384, .f32⟩
  | .hbm, ⟨5, _⟩ => ⟨S16384x16384, .f32⟩
  | .hbm, ⟨6, _⟩ => ⟨S16384x8192, .f32⟩
  | .hbm, ⟨7, _⟩ => ⟨S8192x8192, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S8192x64, .f32⟩
  | .hbm, ⟨14, _⟩ => ⟨S16384x64, .f32⟩
  | .hbm, ⟨15, _⟩ => ⟨S16384x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S16384x64, .f32⟩
  | .hbm, ⟨20, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S8192x64, .f32⟩
  | .local _ .vmem, ⟨3, _⟩ => ⟨S1024x2048, .f32⟩
  | .local _ .vmem, ⟨4, _⟩ => ⟨S1024x2048, .f32⟩
  | .local _ .vmem, ⟨5, _⟩ => ⟨S16384x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x2048, .f32⟩
  | .local _ .vmem, ⟨10, _⟩ => ⟨S1024x2048, .f32⟩
  | .local _ .vmem, ⟨11, _⟩ => ⟨S16384x64, .f32⟩
  | .local _ .vmem, ⟨12, _⟩ => ⟨S1024x1024, .f32⟩
  | .local _ .vmem, ⟨13, _⟩ => ⟨S1024x1024, .f32⟩
  | .local _ .vmem, ⟨14, _⟩ => ⟨S8192x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x2048, .f32⟩
  | .local _ .vmem, ⟨19, _⟩ => ⟨S1024x2048, .f32⟩
  | .local _ .vmem, ⟨20, _⟩ => ⟨S8192x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_mult2 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0 : Index := 0#32
  ![v7.toNat, 0]
def k0_off2 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v10 : Index := Scalar.indexCast v6
  let c0_1 : Index := 0#32
  ![v10.toNat, 0]
def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_mult2 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0 : Index := 0#32
  ![v7.toNat, 0]
def k1_off2 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v10 : Index := Scalar.indexCast v6
  let c0_1 : Index := 0#32
  ![v10.toNat, 0]
def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_11 : BitVec 32 := 0#32
  let v25 : BitVec 1 := Scalar.cmpi .ne v24 c0_i32_11
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S8192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  h_S2048x64 : 0 < S2048x64.numel
  shapeCasts_S2048x64_S2048x64 : S2048x64.ShapeCasts S2048x64
  inb_S1024x1024_S1024x1024_0_0 : ∀ a, (![0, 0] : Fin 2 → Nat) a + S1024x1024.size a ≤ S1024x1024.size a
  h_S1024x1024 : 0 < S1024x1024.numel
  inb_S1024x2048_S1024x2048_0_0 : ∀ a, (![0, 0] : Fin 2 → Nat) a + S1024x2048.size a ≤ S1024x2048.size a
  h_S1024x2048 : 0 < S1024x2048.numel
  dot_S8192x64_S64x64_S8192x64_1_0_0_1_n_n_wf : DotDims.WF S8192x64 S64x64 S8192x64 [1] [0] [0] [1] [] []
  dot_S16384x64_S64x64_S16384x64_1_0_0_1_n_n_wf : DotDims.WF S16384x64 S64x64 S16384x64 [1] [0] [0] [1] [] []
  dot_S1024x1024_S1024x64_S1024x64_1_0_0_1_n_n_wf : DotDims.WF S1024x1024 S1024x64 S1024x64 [1] [0] [0] [1] [] []
  dot_S1024x2048_S2048x64_S1024x64_1_0_0_1_n_n_wf : DotDims.WF S1024x2048 S2048x64 S1024x64 [1] [0] [0] [1] [] []
  hrank0 : 0 < grid0.rank
  k0_mult1_dvd : ∀ i : grid0.Coords, 1024 ∣ (k0_mult1 i).toNat
  k0_mult2_dvd : ∀ i : grid0.Coords, 2048 ∣ (k0_mult2 i).toNat
  k0_off1_inb : ∀ i : grid0.Coords, ∀ a, (k0_off1 i) a + S1024x64.size a ≤ S8192x64.size a
  k0_off2_inb : ∀ i : grid0.Coords, ∀ a, (k0_off2 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x16384.size a
  hwx0_2 : ∀ i : grid0.Coords, EltTy.bits .f32 = 32 ∨ (Rect.block (s := S8192x16384) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S16384x64.size a
  hwx0_3 : ∀ i : grid0.Coords, EltTy.bits .f32 = 32 ∨ (Rect.block (s := S16384x64) S16384x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hrank1 : 0 < grid1.rank
  k1_mult1_dvd : ∀ i : grid1.Coords, 2048 ∣ (k1_mult1 i).toNat
  k1_mult2_dvd : ∀ i : grid1.Coords, 1024 ∣ (k1_mult2 i).toNat
  k1_off1_inb : ∀ i : grid1.Coords, ∀ a, (k1_off1 i) a + S2048x64.size a ≤ S16384x64.size a
  k1_off2_inb : ∀ i : grid1.Coords, ∀ a, (k1_off2 i) a + S1024x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x8192.size a
  hwx1_2 : ∀ i : grid1.Coords, EltTy.bits .f32 = 32 ∨ (Rect.block (s := S16384x8192) S1024x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S8192x64.size a
  hwx1_3 : ∀ i : grid1.Coords, EltTy.bits .f32 = 32 ∨ (Rect.block (s := S8192x64) S8192x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg5) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg7) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S16384x64 : Shape := ⟨2, ![16384, 64]⟩
abbrev S8192x8192 : Shape := ⟨2, ![8192, 8192]⟩
abbrev S8192x16384 : Shape := ⟨2, ![8192, 16384]⟩
abbrev S16384x16384 : Shape := ⟨2, ![16384, 16384]⟩
abbrev S16384x8192 : Shape := ⟨2, ![16384, 8192]⟩
abbrev S64x64 : Shape := ⟨2, ![64, 64]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S16384x64, .f32⟩
  | .hbm, ⟨2, _⟩ => ⟨S8192x64, .f32⟩
  | .hbm, ⟨3, _⟩ => ⟨S8192x8192, .f32⟩
  | .hbm, ⟨4, _⟩ => ⟨S8192x16384, .f32⟩
  | .hbm, ⟨5, _⟩ => ⟨S16384x16384, .f32⟩
  | .hbm, ⟨6, _⟩ => ⟨S16384x8192, .f32⟩
  | .hbm, ⟨7, _⟩ => ⟨S8192x8192, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S8192x64, .f32⟩
  | .hbm, ⟨14, _⟩ => ⟨S8192x64, .f32⟩
  | .hbm, ⟨15, _⟩ => ⟨S16384x64, .f32⟩
  | .hbm, ⟨16, _⟩ => ⟨S8192x64, .f32⟩
  | .hbm, ⟨17, _⟩ => ⟨S8192x64, .f32⟩
  | .hbm, ⟨18, _⟩ => ⟨S16384x64, .f32⟩
  | .hbm, ⟨19, _⟩ => ⟨S16384x64, .f32⟩
  | .hbm, ⟨20, _⟩ => ⟨S8192x64, .f32⟩
  | .hbm, ⟨21, _⟩ => ⟨S16384x64, .f32⟩
  | .hbm, ⟨22, _⟩ => ⟨S16384x64, .f32⟩
  | .hbm, ⟨23, _⟩ => ⟨S8192x64, .f32⟩
  | .hbm, ⟨24, _⟩ => ⟨S8192x64, .f32⟩
  | .hbm, ⟨25, _⟩ => ⟨S_, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S_, .f32⟩
  | .hbm, ⟨32, _⟩ => ⟨S8192x64, .f32⟩
  | .hbm, ⟨33, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_call2_cst : Ref sig .tc := ⟨.hbm, 31, rfl⟩
abbrev main_call2_v0 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S_S16384x64 : S_.BroadcastsInDim S16384x64 (![] : Fin 0 → Fin S16384x64.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S16384x64_S64x64_S16384x64_1_0_0_1_n_n_wf : DotDims.WF S16384x64 S64x64 S16384x64 [1] [0] [0] [1] [] []
  dot_S8192x16384_S16384x64_S8192x64_1_0_0_1_n_n_wf : DotDims.WF S8192x16384 S16384x64 S8192x64 [1] [0] [0] [1] [] []
  dot_S16384x16384_S16384x64_S16384x64_1_0_0_1_n_n_wf : DotDims.WF S16384x16384 S16384x64 S16384x64 [1] [0] [0] [1] [] []
  dot_S16384x8192_S8192x64_S16384x64_1_0_0_1_n_n_wf : DotDims.WF S16384x8192 S8192x64 S16384x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S8192x16384_S16384x64_S8192x64_1_0_0_1_n_n : DotDims S8192x16384 S16384x64 S8192x64 where
  lhsContracting := [1]
  rhsContracting := [0]
  lhsNonContracting := [0]
  rhsNonContracting := [1]
  lhsBatch := []
  rhsBatch := []
  wf := dot_S8192x16384_S16384x64_S8192x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x8192_S8192x64_S16384x64_1_0_0_1_n_n : DotDims S16384x8192 S8192x64 S16384x64 where
  lhsContracting := [1]
  rhsContracting := [0]
  lhsNonContracting := [0]
  rhsNonContracting := [1]
  lhsBatch := []
  rhsBatch := []
  wf := dot_S16384x8192_S8192x64_S16384x64_1_0_0_1_n_n_wf

class Facts : Prop extends Facts₀ where

variable [Facts]
-- ==== Proof.KbRuns0.lean ====
/-
  Region 0 (the first fused merge kernel, grid 8 x 8: row block i, reduction step k).
  The body branches on the reduction coordinate only: at k = 0 it first zeroes the accumulator, at every k it adds
  the two block products to it, and at k = 7 it also stores max(accumulator, 0) into the output block.
  This module states the two conditions in closed form over the linear point index t (k = t mod 8), says where the
  output window is idle, and runs the body once per case: A (k = 0), B (0 < k < 7), C (k = 7).
-/
import proofs.«176943_j19696720019794_2_alg».proof.Proof.Gen.Kernel.Launch
import proofs.«176943_j19696720019794_2_alg».proof.Proof.Gen.Kernel.Skeleton
import proofs.«176943_j19696720019794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, over the grid -/

/-- The first conditional: the reduction coordinate is zero. -/
abbrev cond0_0 (i : grid0.Coords) : Prop :=
  (Scalar.cmpi .ne (Scalar.extui (Scalar.cmpi .eq (BitVec.ofNat 32 (i 1).val) 0#32)) 0#32) = 1#1
/-- It holds exactly at the points t with t mod 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the reduction coordinate is the last one. -/
abbrev cond0_1 (i : grid0.Coords) : Prop := k0_cond2 i = 1#1
/-- It holds exactly at the points t with t mod 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction step it is live. -/
theorem liveAt0_4 : ∀ t : Fin cfg0.N, cond0_1 (grid0.coords t) → cfg0.idle 4 (grid0.coords t) = false := by decide +kernel

/-! ## The memrefs the body is called with -/

abbrev VO0_4 : View sig .tc .vmem S1024x64 .f32 := (Memref.whole cc0_stg4_0 : Memref sig .tc .vmem S1024x64 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x64 .f32 := Memref.whole cc0_scratch0
abbrev VS0_0 : View sig .tc .vmem S1024x64 .f32 := scM0_0.view

/-! ## Case A: the first reduction step -/

set_option maxHeartbeats 4000000 in
/-- At k = 0 the body, on whole memrefs holding the four input blocks, the output block at contents it hands back
    untouched and the accumulator at anything, runs to the end with the inputs as they were and the accumulator
    holding the pieces the run finds. -/
noncomputable def kernelRun0_A (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i)
    (x0 : Vec F S1024x1024 .f32) (x1 : Vec F S8192x64 .f32) (x2 : Vec F S1024x2048 .f32) (x3 : Vec F S16384x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨[], ?_, fun xi4 E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case B: a middle reduction step -/

set_option maxHeartbeats 4000000 in
/-- At 0 < k < 7 the body, with the accumulator at the contents `xs0` the step before left, runs to the end with the
    inputs and the output block as they were and the accumulator holding the pieces the run finds. -/
noncomputable def kernelRun0_B (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i)
    (x0 : Vec F S1024x1024 .f32) (x1 : Vec F S8192x64 .f32) (x2 : Vec F S1024x2048 .f32) (x3 : Vec F S16384x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨[], ?_, fun xi4 E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case C: the last reduction step -/

set_option maxHeartbeats 4000000 in
/-- At k = 7 the body, with the accumulator at `xs0` and the output block at anything, runs to the end with the
    inputs as they were and the output block and the accumulator holding the pieces the run finds. -/
noncomputable def kernelRun0_C (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i)
    (x0 : Vec F S1024x1024 .f32) (x1 : Vec F S8192x64 .f32) (x2 : Vec F S1024x2048 .f32) (x3 : Vec F S16384x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨?_, ?_, fun E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The class invariant with the accumulator as a memref -/

/-- The scoped buffers no window of this kernel stages, other than its accumulator: the other two kernels' staging
    buffers and accumulators, each whole at some contents. This kernel never touches them. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The pipeline's class invariant: the accumulator at some contents, the other scoped buffers, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.KbFrame0.lean ====
/-
  Region 0, continued: what each case of the body leaves in the accumulator and in the output block, the contents
  point by point (a recursion on the linear point index: the accumulator after point t is the case's result over
  the accumulator after point t - 1), the pipeline's proof data over them, and the body obligation at every point.
  Everything is stated at a parameter V, the contents of the core's buffers when the region is entered.
-/
import proofs.«176943_j19696720019794_2_alg».proof.Proof.KbRuns0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- A placeholder for the output block where the body stores nothing into it: nothing consults it. -/
def junk0_4 : Vec F S1024x64 .f32 := VO0_4.read (Elt F) VO0_4.junk

theorem scover0_A_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i) (x0 : Vec F S1024x1024 .f32) (x1 : Vec F S8192x64 .f32) (x2 : Vec F S1024x2048 .f32) (x3 : Vec F S16384x64 .f32) (y : S1024x64.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x64.size (by sl_kernel_rfl) y
/-- The accumulator after the first reduction step. -/
def sout0_A_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i) (x0 : Vec F S1024x1024 .f32) (x1 : Vec F S8192x64 .f32) (x2 : Vec F S1024x2048 .f32) (x3 : Vec F S16384x64 .f32) : Vec F S1024x64 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x64.size (by sl_kernel_rfl) y
/-- The accumulator after a middle reduction step, over what the step before left. -/
def sout0_B_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x64.size (by sl_kernel_rfl) y
/-- The output block after the last reduction step. -/
def out0_C_4 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x64.size (by sl_kernel_rfl) y
/-- The accumulator after the last reduction step. -/
def sout0_C_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The contents point by point -/

/-- What the output block's staging buffer and the accumulator hold after the body at position n: the case the
    closed forms select at n, over the accumulator that position n - 1 left. -/
def outsAt0 (c : Dev nD) : (n : ℕ) → n < cfg0.N → Vec F S1024x64 .f32 × Vec F S1024x64 .f32
  | 0, hn => (junk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (junk0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (junk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (junk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (junk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

/-- The proof data of pipeline 0 on core c: the arrays as the region finds them; after the body at point t each
    input's buffer at its block and the output's at what the recursion says; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.Kernel.Hand

end
-- ==== Proof.KbBody0.lean ====
/-
  Region 0, continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KbFrame0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]; · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.KbRuns1.lean ====
/-
  Region 1 (the second fused merge kernel, grid 16 x 8: row block i, reduction step k).
  The body branches on the reduction coordinate only: at k = 0 it first zeroes the accumulator, at every k it adds
  the two block products to it, and at k = 7 it also stores max(accumulator, 0) into the output block.
  This module states the two conditions in closed form over the linear point index t (k = t mod 8), says where the
  output window is idle, and runs the body once per case: A (k = 0), B (0 < k < 7), C (k = 7).
-/
import proofs.«176943_j19696720019794_2_alg».proof.Proof.Gen.Kernel.Launch
import proofs.«176943_j19696720019794_2_alg».proof.Proof.Gen.Kernel.Skeleton
import proofs.«176943_j19696720019794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, over the grid -/

/-- The first conditional: the reduction coordinate is zero. -/
abbrev cond1_0 (i : grid1.Coords) : Prop :=
  (Scalar.cmpi .ne (Scalar.extui (Scalar.cmpi .eq (BitVec.ofNat 32 (i 1).val) 0#32)) 0#32) = 1#1
/-- It holds exactly at the points t with t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the reduction coordinate is the last one. -/
abbrev cond1_1 (i : grid1.Coords) : Prop := k1_cond2 i = 1#1
/-- It holds exactly at the points t with t mod 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last reduction step the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last reduction step it is live. -/
theorem liveAt1_4 : ∀ t : Fin cfg1.N, cond1_1 (grid1.coords t) → cfg1.idle 4 (grid1.coords t) = false := by decide +kernel

/-! ## The memrefs the body is called with -/

abbrev VO1_4 : View sig .tc .vmem S1024x64 .f32 := (Memref.whole cc1_stg4_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## Case A: the first reduction step -/

set_option maxHeartbeats 4000000 in
/-- At k = 0 the body, on whole memrefs holding the four input blocks, the output block at contents it hands back
    untouched and the accumulator at anything, runs to the end with the inputs as they were and the accumulator
    holding the pieces the run finds. -/
noncomputable def kernelRun1_A (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i)
    (x0 : Vec F S1024x2048 .f32) (x1 : Vec F S16384x64 .f32) (x2 : Vec F S1024x1024 .f32) (x3 : Vec F S8192x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨[], ?_, fun xi4 E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case B: a middle reduction step -/

set_option maxHeartbeats 4000000 in
/-- At 0 < k < 7 the body, with the accumulator at the contents `xs0` the step before left, runs to the end with the
    inputs and the output block as they were and the accumulator holding the pieces the run finds. -/
noncomputable def kernelRun1_B (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i)
    (x0 : Vec F S1024x2048 .f32) (x1 : Vec F S16384x64 .f32) (x2 : Vec F S1024x1024 .f32) (x3 : Vec F S8192x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨[], ?_, fun xi4 E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case C: the last reduction step -/

set_option maxHeartbeats 4000000 in
/-- At k = 7 the body, with the accumulator at `xs0` and the output block at anything, runs to the end with the
    inputs as they were and the output block and the accumulator holding the pieces the run finds. -/
noncomputable def kernelRun1_C (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i)
    (x0 : Vec F S1024x2048 .f32) (x1 : Vec F S16384x64 .f32) (x2 : Vec F S1024x1024 .f32) (x3 : Vec F S8192x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨?_, ?_, fun E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The class invariant with the accumulator as a memref -/

/-- The scoped buffers no window of this kernel stages, other than its accumulator: the other two kernels' staging
    buffers and accumulators, each whole at some contents. This kernel never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The accumulator moved to the front of the scoped buffers: one way, -/
theorem PhiA1_fwd (c : Dev nD) :
    (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop(iprop((∃ d : Buf (Elt F) ((c : Thread nD τ).loc cc1_scratch0), ((c : Thread nD τ).loc cc1_scratch0) ↦{fullShare} d) ∗ Rest1 c) ∗ (∃ r, prngReg c r)) := by
  unfold Rest1
  iintro ⟨⟨H0, H1, H2, H3, H4, H5, H6, H7, H8, H9, H10, H11, H12, H13, H14, H15⟩, Hg⟩
  isplitl [H0 H1 H2 H3 H4 H5 H6 H7 H8 H9 H10 H11 H12 H13 H14 H15]
  · isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    iexact H15
  · iexact Hg

/-- and back. -/
theorem PhiA1_bwd (c : Dev nD) :
    (iprop(iprop((∃ d : Buf (Elt F) ((c : Thread nD τ).loc cc1_scratch0), ((c : Thread nD τ).loc cc1_scratch0) ↦{fullShare} d) ∗ Rest1 c) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  unfold Rest1
  iintro ⟨⟨H9, H0, H1, H2, H3, H4, H5, H6, H7, H8, H10, H11, H12, H13, H14, H15⟩, Hg⟩
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact Hg

/-- The pipeline's class invariant: the accumulator at some contents, the other scoped buffers, the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_eq]; simp only [scM1_0, owns_whole]
  exact BI.Entails.antisymm (PhiA1_fwd c) (PhiA1_bwd c)

end Cert.Kernel.Hand

end
-- ==== Proof.KbFrame1.lean ====
/-
  Region 1, continued: what each case of the body leaves in the accumulator and in the output block, the contents
  point by point (a recursion on the linear point index: the accumulator after point t is the case's result over
  the accumulator after point t - 1), the pipeline's proof data over them, and the body obligation at every point.
  Everything is stated at a parameter V, the contents of the core's buffers when the region is entered.
-/
import proofs.«176943_j19696720019794_2_alg».proof.Proof.KbRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- A placeholder for the output block where the body stores nothing into it: nothing consults it. -/
def junk1_4 : Vec F S1024x64 .f32 := VO1_4.read (Elt F) VO1_4.junk

theorem scover1_A_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i) (x0 : Vec F S1024x2048 .f32) (x1 : Vec F S16384x64 .f32) (x2 : Vec F S1024x1024 .f32) (x3 : Vec F S8192x64 .f32) (y : S1024x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x64.size (by sl_kernel_rfl) y
/-- The accumulator after the first reduction step. -/
def sout1_A_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i) (x0 : Vec F S1024x2048 .f32) (x1 : Vec F S16384x64 .f32) (x2 : Vec F S1024x1024 .f32) (x3 : Vec F S8192x64 .f32) : Vec F S1024x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

theorem scover1_B_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x64.size (by sl_kernel_rfl) y
/-- The accumulator after a middle reduction step, over what the step before left. -/
def sout1_B_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y
/-- The output block after the last reduction step. -/
def out1_C_4 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
theorem scover1_C_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x64.size (by sl_kernel_rfl) y
/-- The accumulator after the last reduction step. -/
def sout1_C_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## The contents point by point -/

/-- What the output block's staging buffer and the accumulator hold after the body at position n: the case the
    closed forms select at n, over the accumulator that position n - 1 left. -/
def outsAt1 (c : Dev nD) : (n : ℕ) → n < cfg1.N → Vec F S1024x64 .f32 × Vec F S1024x64 .f32
  | 0, hn => (junk1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (junk1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (junk1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (junk1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (junk1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The pipeline's proof data -/

/-- The proof data of pipeline 1 on core c: the arrays as the region finds them; after the body at point t each
    input's buffer at its block and the output's at what the recursion says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.KbBody1.lean ====
/-
  Region 1, continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KbFrame1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]; · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.KbRuns2.lean ====
/-
  Region 2 (the single-operand kernel) (grid 8 x 4: row block i, reduction step k).
  The body branches on the reduction coordinate only: at k = 0 it first zeroes the accumulator, at every k it adds
  the block product to it, and at k = 3 it also stores max(accumulator, 0) into the output block.
  This module states the two conditions in closed form over the linear point index t (k = t mod 4), says where
  the output window is idle, and runs the body once per case: A (k = 0), B (0 < k < 3), C (k = 3).
-/
import proofs.«176943_j19696720019794_2_alg».proof.Proof.Gen.Kernel.Launch
import proofs.«176943_j19696720019794_2_alg».proof.Proof.Gen.Kernel.Skeleton
import proofs.«176943_j19696720019794_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, over the grid -/

/-- The first conditional: the reduction coordinate is zero. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the reduction coordinate is the last one. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last reduction step the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last reduction step it is live. -/
theorem liveAt2_2 : ∀ t : Fin cfg2.N, cond2_1 (grid2.coords t) → cfg2.idle 2 (grid2.coords t) = false := by decide +kernel

/-! ## The memrefs the body is called with -/

abbrev VO2_2 : View sig .tc .vmem S1024x64 .f32 := (Memref.whole cc2_stg2_0 : Memref sig .tc .vmem S1024x64 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x64 .f32 := Memref.whole cc2_scratch0
abbrev VS2_0 : View sig .tc .vmem S1024x64 .f32 := scM2_0.view

/-! ## The body, case by case -/

set_option maxHeartbeats 4000000 in
/-- At k = 0 the body, on whole memrefs holding the input blocks, the output block at contents it hands back untouched and the accumulator at anything, runs to the end with the inputs as they were and the accumulator holding the pieces the run finds. -/
noncomputable def kernelRun2_A (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨[], ?_, fun xi2 E K => ?run⟩
  case run =>
    simp only [cc2__single_g_kernel_eq_skeleton]; unfold cc2__single_g_kernel_skel
    unfold owns
    iintro ⟨⟨%f0, %hf0, H0⟩, ⟨%f1, %hf1, H1⟩, ⟨%fo, %hfo, HO⟩, ⟨%ds0, %fs0, -, HS0⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS0

set_option maxHeartbeats 4000000 in
/-- At a middle step the body, with the accumulator at the contents `xs0` the step before left, runs to the end with the inputs and the output block as they were and the accumulator holding the pieces the run finds. -/
noncomputable def kernelRun2_B (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨[], ?_, fun xi2 E K => ?run⟩
  case run =>
    simp only [cc2__single_g_kernel_eq_skeleton]; unfold cc2__single_g_kernel_skel
    unfold owns
    iintro ⟨⟨%f0, %hf0, H0⟩, ⟨%f1, %hf1, H1⟩, ⟨%fo, %hfo, HO⟩, ⟨%fs0, %hfs0, HS0⟩, Hk⟩
    obtain rfl := harg2.eq_unread hf0; obtain rfl := harg3.eq_unread hf1; obtain rfl := harg4.eq_unread hfo; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS0

set_option maxHeartbeats 4000000 in
/-- At the last step the body, with the accumulator at `xs0` and the output block at anything, runs to the end with the inputs as they were and the output block and the accumulator holding the pieces the run finds. -/
noncomputable def kernelRun2_C (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨?_, ?_, fun E K => ?run⟩
  case run =>
    simp only [cc2__single_g_kernel_eq_skeleton]; unfold cc2__single_g_kernel_skel
    unfold owns
    iintro ⟨⟨%f0, %hf0, H0⟩, ⟨%f1, %hf1, H1⟩, ⟨%dO, %fo, -, HO⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS0

/-! ## The class invariant with the accumulator as a memref -/

/-- The scoped buffers no window of this kernel stages, other than its accumulator: the other two kernels' staging
    buffers and accumulators, each whole at some contents. This kernel never touches them. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The accumulator moved to the front of the scoped buffers: one way, -/
theorem PhiA2_fwd (c : Dev nD) :
    (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop(iprop((∃ d : Buf (Elt F) ((c : Thread nD τ).loc cc2_scratch0), ((c : Thread nD τ).loc cc2_scratch0) ↦{fullShare} d) ∗ Rest2 c) ∗ (∃ r, prngReg c r)) := by
  unfold Rest2
  iintro ⟨⟨H0, H1, H2, H3, H4, H5, H6, H7, H8, H9, H10, H11, H12, H13, H14, H15, H16, H17, H18⟩, Hg⟩
  isplitl [H0 H1 H2 H3 H4 H5 H6 H7 H8 H9 H10 H11 H12 H13 H14 H15 H16 H17 H18]
  · isplitl [H18]; · iexact H18
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iexact Hg

/-- and back. -/
theorem PhiA2_bwd (c : Dev nD) :
    (iprop(iprop((∃ d : Buf (Elt F) ((c : Thread nD τ).loc cc2_scratch0), ((c : Thread nD τ).loc cc2_scratch0) ↦{fullShare} d) ∗ Rest2 c) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) ∗ (∃ r, prngReg c r)) := by
  unfold Rest2
  iintro ⟨⟨H18, H0, H1, H2, H3, H4, H5, H6, H7, H8, H9, H10, H11, H12, H13, H14, H15, H16, H17⟩, Hg⟩
  isplitl [H0 H1 H2 H3 H4 H5 H6 H7 H8 H9 H10 H11 H12 H13 H14 H15 H16 H17 H18]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iexact Hg

/-- The pipeline's class invariant: the accumulator at some contents, the other scoped buffers, the generator register. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_eq]; simp only [scM2_0, owns_whole]
  exact BI.Entails.antisymm (PhiA2_fwd c) (PhiA2_bwd c)

end Cert.Kernel.Hand

end
-- ==== Proof.KbFrame2.lean ====
/-
  Region 2 (the single-operand kernel), continued: what each case of the body leaves in the accumulator and in the output block, the contents
  point by point (a recursion on the linear point index: the accumulator after point t is the case's result over
  the accumulator after point t - 1), the pipeline's proof data over them.
  Everything is stated at a parameter V, the contents of the core's buffers when the region is entered.
-/
import proofs.«176943_j19696720019794_2_alg».proof.Proof.KbRuns2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A placeholder for the output block where the body stores nothing into it: nothing consults it. -/
def junk2_2 : Vec F S1024x64 .f32 := VO2_2.read (Elt F) VO2_2.junk

theorem scover2_A_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y
/-- The accumulator after this case of the body. -/
def sout2_A_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) : Vec F S1024x64 .f32 :=
  VS2_0.read (Elt F) (VS2_0.writes (Elt F) VS2_0.junk (kernelRun2_A c i arg2 harg2 arg3 harg3 arg4 harg4 arg5 harg5 hc0 hc1 x0 x1).2.1)

theorem scover2_B_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y
/-- The accumulator after this case of the body. -/
def sout2_B_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

theorem cover2_C_2 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y
/-- The output block after the last reduction step. -/
def out2_C_2 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y
/-- The accumulator after this case of the body. -/
def sout2_C_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

/-! ## The contents point by point -/

/-- What the output block's staging buffer and the accumulator hold after the body at position n: the case the
    closed forms select at n, over the accumulator that position n - 1 left. -/
def outsAt2 (c : Dev nD) : (n : ℕ) → n < cfg2.N → Vec F S1024x64 .f32 × Vec F S1024x64 .f32
  | 0, hn => (junk2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (junk2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (junk2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (junk2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (junk2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 c) ∗ (∃ r, prngReg c r)) := by
  cases n with
  | zero => exact absurd rfl hz
  | succ n => rfl

/-! ## The pipeline's proof data -/

/-- The proof data of pipeline 2 on core c: the arrays as the region finds them; after the body at point t each
    input's buffer at its block and the output's at what the recursion says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.Kernel.Hand

end
-- ==== Proof.KbBody2.lean ====
/-
  Region 2 (the single-operand kernel), continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KbFrame2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.KbRun.lean ====
/-
  The whole run of @main: five host products, then the three kernel regions one after the other.
  The contents of the core's unscoped buffers are followed from segment to segment: X1 after the host products,
  X2, X3, X4 after regions 0, 1, 2 (each region changes only its own output array, to what its pipeline's
  write-backs leave). Every weakly fair execution terminates without a fault, and at the end every unscoped buffer
  holds X4's contents: the arguments (never written) and the three results.
-/
import proofs.«176943_j19696720019794_2_alg».proof.Proof.KbBody0
import proofs.«176943_j19696720019794_2_alg».proof.Proof.KbBody1
import proofs.«176943_j19696720019794_2_alg».proof.Proof.KbBody2
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Two rearrangements -/

/-- The middle of three may be dropped and the outer two swapped. -/
theorem sep_drop_mid (A B C : sProp 𝕄) : (iprop(A ∗ B ∗ C) : sProp 𝕄) ⊢ iprop(C ∗ A) := by
  iintro ⟨Ha, -, Hc⟩
  isplitl [Hc]; · iexact Hc
  iexact Ha

/-- Two swapped, with nothing put between them. -/
theorem sep_swap_emp (A C : sProp 𝕄) : (iprop(C ∗ A) : sProp 𝕄) ⊢ iprop(A ∗ emp ∗ C) := by
  iintro ⟨Hc, Ha⟩
  isplitl [Ha]; · iexact Ha
  isplitr; · iempintro
  iexact Hc

/-! ## The buffer contents at each segment boundary -/

/-- Core c's buffers at launch. -/
abbrev X0 : Dev nD → Valuation τ sig (Elt F) := fun c b => m (c, b)
/-- After the five host products (region 0's entry). -/
abbrev X1 : Dev nD → Valuation τ sig (Elt F) := fun c => StableHlo.after hostOps0 (X0 m c)
abbrev T1 : (c : Dev nD) → (b : Ref sig .tc) → Buf (Elt F) ((c : Thread nD τ).loc b) := fun c b => X1 m c b

/-- At region 0's exit: its arrays at what the pipeline leaves (the inputs as entered, the output's write-backs
    folded in), every other buffer as entered. -/
def X2 (c : Dev nD) : Valuation τ sig (Elt F) :=
  Pipeline.withArrays spec0 c (X1 m c) fun w => (dat0 (T1 m) c).arrAt w cfg0.N
theorem X2_arr (c : Dev nD) (w : Fin cfg0.W) :
    X2 m c (Proc.devRef .tc (Pipeline.arrRef spec0 w)) = (dat0 (T1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references. -/
abbrev T2 : (c : Dev nD) → (b : Ref sig .tc) → Buf (Elt F) ((c : Thread nD τ).loc b) := fun c b => X2 m c b
theorem hF0 (c : Dev nD) (w : Fin cfg0.W) : (dat0 (T1 m) c).arrAt w cfg0.N = T2 m c (Pipeline.arrRef spec0 w) :=
  (X2_arr m c w).symm
theorem hrest0 (c : Dev nD) : ∀ b, b ∉ Finset.univ.image (Pipeline.arrRef spec0) → T2 m c b = T1 m c b :=
  fun b hb => X2_of_ne m c b fun w e => hb (Finset.mem_image.mpr ⟨w, Finset.mem_univ _, e⟩)

/-- At region 1's exit: its arrays at what the pipeline leaves (the inputs as entered, the output's write-backs
    folded in), every other buffer as entered. -/
def X3 (c : Dev nD) : Valuation τ sig (Elt F) :=
  Pipeline.withArrays spec1 c (X2 m c) fun w => (dat1 (T2 m) c).arrAt w cfg1.N
theorem X3_arr (c : Dev nD) (w : Fin cfg1.W) :
    X3 m c (Proc.devRef .tc (Pipeline.arrRef spec1 w)) = (dat1 (T2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
/-- The same read at the TensorCore's references. -/
abbrev T3 : (c : Dev nD) → (b : Ref sig .tc) → Buf (Elt F) ((c : Thread nD τ).loc b) := fun c b => X3 m c b
theorem hF1 (c : Dev nD) (w : Fin cfg1.W) : (dat1 (T2 m) c).arrAt w cfg1.N = T3 m c (Pipeline.arrRef spec1 w) :=
  (X3_arr m c w).symm
theorem hrest1 (c : Dev nD) : ∀ b, b ∉ Finset.univ.image (Pipeline.arrRef spec1) → T3 m c b = T2 m c b :=
  fun b hb => X3_of_ne m c b fun w e => hb (Finset.mem_image.mpr ⟨w, Finset.mem_univ _, e⟩)

/-- At region 2's exit: its arrays at what the pipeline leaves (the inputs as entered, the output's write-backs
    folded in), every other buffer as entered. -/
def X4 (c : Dev nD) : Valuation τ sig (Elt F) :=
  Pipeline.withArrays spec2 c (X3 m c) fun w => (dat2 (T3 m) c).arrAt w cfg2.N
theorem X4_arr (c : Dev nD) (w : Fin cfg2.W) :
    X4 m c (Proc.devRef .tc (Pipeline.arrRef spec2 w)) = (dat2 (T3 m) c).arrAt w cfg2.N := by
  unfold X4; exact Pipeline.withArrays_arr spec2 launch2.win.arr_inj c _ _ w
theorem X4_of_ne (c : Dev nD) (b : Ref sig .tc) (hb : ∀ w, Pipeline.arrRef spec2 w ≠ b) :
    X4 m c (Proc.devRef .tc b) = X3 m c (Proc.devRef .tc b) := by
  unfold X4; exact Pipeline.withArrays_of_ne spec2 c _ _ b hb
/-- The same read at the TensorCore's references. -/
abbrev T4 : (c : Dev nD) → (b : Ref sig .tc) → Buf (Elt F) ((c : Thread nD τ).loc b) := fun c b => X4 m c b
theorem hF2 (c : Dev nD) (w : Fin cfg2.W) : (dat2 (T3 m) c).arrAt w cfg2.N = T4 m c (Pipeline.arrRef spec2 w) :=
  (X4_arr m c w).symm
theorem hrest2 (c : Dev nD) : ∀ b, b ∉ Finset.univ.image (Pipeline.arrRef spec2) → T4 m c b = T3 m c b :=
  fun b hb => X4_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor

/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (X0 m) R

/-- The last thread state without the dues: every unscoped buffer at the last boundary's contents, the generator register. -/
abbrev Tₙ (c : Dev nD) : sProp 𝕄 := iprop(StableHlo.held (c : Thread nD τ) (Pipeline.ucRefs τ sig) (X4 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator
    register and the scoped buffers go into the invariant and come out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin0 (T1 m) c)
  hout c := by
    rw [Pipeline.ownSems0_none]
    exact BI.Entails.trans (hout0 (T1 m) c) (sep_swap_emp _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator
    register and the scoped buffers go into the invariant and come out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin1 (T2 m) c)
  hout c := by
    rw [Pipeline.ownSems0_none]
    exact BI.Entails.trans (hout1 (T2 m) c) (sep_swap_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator
    register and the scoped buffers go into the invariant and come out; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (X3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin2 (T3 m) c)
  hout c := by
    rw [Pipeline.ownSems0_none]
    exact BI.Entails.trans (hout2 (T3 m) c) (sep_swap_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KbHost.lean ====
/- The host prefix read back: after the five host dot_generals that open the program, each of their result buffers
   holds the dot_general of the launch contents of its two argument buffers, and every buffer they do not write holds
   its launch contents. Generic in the float values. -/
import proofs.«176943_j19696720019794_2_alg».proof.Proof.Gen.Kernel.Regions
import Idealize.ShloMosaic.Lib.StableHlo.Run
import Idealize.ShloMosaic.PureOps.Ideal

noncomputable section

namespace Cert.Kernel.HostPre

open Cert.Kernel Cert.Kernel.Gen Idealize.ShloMosaic Idealize.ShloMosaic.TcCoe Idealize.SL.Sem Idealize.ShloMosaic.StableHlo

variable {F : FTy → Type} [FloatOps F]

/-! ## The five results of the host prefix -/

/-- After the host prefix, `main_v0` holds the 8192x64 by 64x64 dot_general of the launch contents of `main_arg0` and `main_arg8`. -/
theorem V1_main_v0 (m : (ℓ : Loc nD τ sig) → Buf (Elt F) ℓ) (c : Dev nD) :
    Gen.V1 m c main_v0 = Host.dotGeneral dot_S8192x64_S64x64_S8192x64_1_0_0_1_n_n none (m ((c : Thread nD τ).loc main_arg0)) (m ((c : Thread nD τ).loc main_arg8)) := by
  dsimp only [Gen.V1, Gen.V0, Gen.hostOps0]
  after_results

/-- After the host prefix, `main_v1` holds the 16384x64 by 64x64 dot_general of the launch contents of `main_arg1` and `main_arg9`. -/
theorem V1_main_v1 (m : (ℓ : Loc nD τ sig) → Buf (Elt F) ℓ) (c : Dev nD) :
    Gen.V1 m c main_v1 = Host.dotGeneral dot_S16384x64_S64x64_S16384x64_1_0_0_1_n_n none (m ((c : Thread nD τ).loc main_arg1)) (m ((c : Thread nD τ).loc main_arg9)) := by
  dsimp only [Gen.V1, Gen.V0, Gen.hostOps0]
  after_results

/-- After the host prefix, `main_v2` holds the 16384x64 by 64x64 dot_general of the launch contents of `main_arg1` and `main_arg10`. -/
theorem V1_main_v2 (m : (ℓ : Loc nD τ sig) → Buf (Elt F) ℓ) (c : Dev nD) :
    Gen.V1 m c main_v2 = Host.dotGeneral dot_S16384x64_S64x64_S16384x64_1_0_0_1_n_n none (m ((c : Thread nD τ).loc main_arg1)) (m ((c : Thread nD τ).loc main_arg10)) := by
  dsimp only [Gen.V1, Gen.V0, Gen.hostOps0]
  after_results

/-- After the host prefix, `main_v3` holds the 8192x64 by 64x64 dot_general of the launch contents of `main_arg2` and `main_arg11`. -/
theorem V1_main_v3 (m : (ℓ : Loc nD τ sig) → Buf (Elt F) ℓ) (c : Dev nD) :
    Gen.V1 m c main_v3 = Host.dotGeneral dot_S8192x64_S64x64_S8192x64_1_0_0_1_n_n none (m ((c : Thread nD τ).loc main_arg2)) (m ((c : Thread nD τ).loc main_arg11)) := by
  dsimp only [Gen.V1, Gen.V0, Gen.hostOps0]
  after_results

/-- After the host prefix, `main_v4` holds the 8192x64 by 64x64 dot_general of the launch contents of `main_arg2` and `main_arg12`. -/
theorem V1_main_v4 (m : (ℓ : Loc nD τ sig) → Buf (Elt F) ℓ) (c : Dev nD) :
    Gen.V1 m c main_v4 = Host.dotGeneral dot_S8192x64_S64x64_S8192x64_1_0_0_1_n_n none (m ((c : Thread nD τ).loc main_arg2)) (m ((c : Thread nD τ).loc main_arg12)) := by
  dsimp only [Gen.V1, Gen.V0, Gen.hostOps0]
  after_results

/-! ## The buffers the host prefix does not write -/

/-- The host prefix leaves `main_arg0` at its launch contents. -/
theorem V1_main_arg0 (m : (ℓ : Loc nD τ sig) → Buf (Elt F) ℓ) (c : Dev nD) :
    Gen.V1 m c main_arg0 = m ((c : Thread nD τ).loc main_arg0) :=
  (Gen.V1_of m c main_arg0 (by decide)).trans rfl

/-- The host prefix leaves `main_arg1` at its launch contents. -/
theorem V1_main_arg1 (m : (ℓ : Loc nD τ sig) → Buf (Elt F) ℓ) (c : Dev nD) :
    Gen.V1 m c main_arg1 = m ((c : Thread nD τ).loc main_arg1) :=
  (Gen.V1_of m c main_arg1 (by decide)).trans rfl

/-- The host prefix leaves `main_arg2` at its launch contents. -/
theorem V1_main_arg2 (m : (ℓ : Loc nD τ sig) → Buf (Elt F) ℓ) (c : Dev nD) :
    Gen.V1 m c main_arg2 = m ((c : Thread nD τ).loc main_arg2) :=
  (Gen.V1_of m c main_arg2 (by decide)).trans rfl

/-- The host prefix leaves `main_arg3` at its launch contents. -/
theorem V1_main_arg3 (m : (ℓ : Loc nD τ sig) → Buf (Elt F) ℓ) (c : Dev nD) :
    Gen.V1 m c main_arg3 = m ((c : Thread nD τ).loc main_arg3) :=
  (Gen.V1_of m c main_arg3 (by decide)).trans rfl

/-- The host prefix leaves `main_arg4` at its launch contents. -/
theorem V1_main_arg4 (m : (ℓ : Loc nD τ sig) → Buf (Elt F) ℓ) (c : Dev nD) :
    Gen.V1 m c main_arg4 = m ((c : Thread nD τ).loc main_arg4) :=
  (Gen.V1_of m c main_arg4 (by decide)).trans rfl

/-- The host prefix leaves `main_arg5` at its launch contents. -/
theorem V1_main_arg5 (m : (ℓ : Loc nD τ sig) → Buf (Elt F) ℓ) (c : Dev nD) :
    Gen.V1 m c main_arg5 = m ((c : Thread nD τ).loc main_arg5) :=
  (Gen.V1_of m c main_arg5 (by decide)).trans rfl

/-- The host prefix leaves `main_arg6` at its launch contents. -/
theorem V1_main_arg6 (m : (ℓ : Loc nD τ sig) → Buf (Elt F) ℓ) (c : Dev nD) :
    Gen.V1 m c main_arg6 = m ((c : Thread nD τ).loc main_arg6) :=
  (Gen.V1_of m c main_arg6 (by decide)).trans rfl

/-- The host prefix leaves `main_arg7` at its launch contents. -/
theorem V1_main_arg7 (m : (ℓ : Loc nD τ sig) → Buf (Elt F) ℓ) (c : Dev nD) :
    Gen.V1 m c main_arg7 = m ((c : Thread nD τ).loc main_arg7) :=
  (Gen.V1_of m c main_arg7 (by decide)).trans rfl

/-- The host prefix leaves `main_arg8` at its launch contents. -/
theorem V1_main_arg8 (m : (ℓ : Loc nD τ sig) → Buf (Elt F) ℓ) (c : Dev nD) :
    Gen.V1 m c main_arg8 = m ((c : Thread nD τ).loc main_arg8) :=
  (Gen.V1_of m c main_arg8 (by decide)).trans rfl

/-- The host prefix leaves `main_arg9` at its launch contents. -/
theorem V1_main_arg9 (m : (ℓ : Loc nD τ sig) → Buf (Elt F) ℓ) (c : Dev nD) :
    Gen.V1 m c main_arg9 = m ((c : Thread nD τ).loc main_arg9) :=
  (Gen.V1_of m c main_arg9 (by decide)).trans rfl

/-- The host prefix leaves `main_arg10` at its launch contents. -/
theorem V1_main_arg10 (m : (ℓ : Loc nD τ sig) → Buf (Elt F) ℓ) (c : Dev nD) :
    Gen.V1 m c main_arg10 = m ((c : Thread nD τ).loc main_arg10) :=
  (Gen.V1_of m c main_arg10 (by decide)).trans rfl

/-- The host prefix leaves `main_arg11` at its launch contents. -/
theorem V1_main_arg11 (m : (ℓ : Loc nD τ sig) → Buf (Elt F) ℓ) (c : Dev nD) :
    Gen.V1 m c main_arg11 = m ((c : Thread nD τ).loc main_arg11) :=
  (Gen.V1_of m c main_arg11 (by decide)).trans rfl

/-- The host prefix leaves `main_arg12` at its launch contents. -/
theorem V1_main_arg12 (m : (ℓ : Loc nD τ sig) → Buf (Elt F) ℓ) (c : Dev nD) :
    Gen.V1 m c main_arg12 = m ((c : Thread nD τ).loc main_arg12) :=
  (Gen.V1_of m c main_arg12 (by decide)).trans rfl

/-! ## The same five at the ideal values, typed as arrays of extended reals -/

/-- `V1_main_v0` at the ideal values. -/
theorem V1_main_v0_ideal (m : (ℓ : Loc nD τ sig) → Buf (Elt Ideal) ℓ) (c : Dev nD) :
    (Gen.V1 m c main_v0 : FVec Ideal S8192x64 .f32)
      = Host.dotGeneral (F := Ideal) (φ₁ := .f32) (φ₂ := .f32) dot_S8192x64_S64x64_S8192x64_1_0_0_1_n_n none (m ((c : Thread nD τ).loc main_arg0)) (m ((c : Thread nD τ).loc main_arg8)) :=
  V1_main_v0 m c

/-- `V1_main_v1` at the ideal values. -/
theorem V1_main_v1_ideal (m : (ℓ : Loc nD τ sig) → Buf (Elt Ideal) ℓ) (c : Dev nD) :
    (Gen.V1 m c main_v1 : FVec Ideal S16384x64 .f32)
      = Host.dotGeneral (F := Ideal) (φ₁ := .f32) (φ₂ := .f32) dot_S16384x64_S64x64_S16384x64_1_0_0_1_n_n none (m ((c : Thread nD τ).loc main_arg1)) (m ((c : Thread nD τ).loc main_arg9)) :=
  V1_main_v1 m c

/-- `V1_main_v2` at the ideal values. -/
theorem V1_main_v2_ideal (m : (ℓ : Loc nD τ sig) → Buf (Elt Ideal) ℓ) (c : Dev nD) :
    (Gen.V1 m c main_v2 : FVec Ideal S16384x64 .f32)
      = Host.dotGeneral (F := Ideal) (φ₁ := .f32) (φ₂ := .f32) dot_S16384x64_S64x64_S16384x64_1_0_0_1_n_n none (m ((c : Thread nD τ).loc main_arg1)) (m ((c : Thread nD τ).loc main_arg10)) :=
  V1_main_v2 m c

/-- `V1_main_v3` at the ideal values. -/
theorem V1_main_v3_ideal (m : (ℓ : Loc nD τ sig) → Buf (Elt Ideal) ℓ) (c : Dev nD) :
    (Gen.V1 m c main_v3 : FVec Ideal S8192x64 .f32)
      = Host.dotGeneral (F := Ideal) (φ₁ := .f32) (φ₂ := .f32) dot_S8192x64_S64x64_S8192x64_1_0_0_1_n_n none (m ((c : Thread nD τ).loc main_arg2)) (m ((c : Thread nD τ).loc main_arg11)) :=
  V1_main_v3 m c

/-- `V1_main_v4` at the ideal values. -/
theorem V1_main_v4_ideal (m : (ℓ : Loc nD τ sig) → Buf (Elt Ideal) ℓ) (c : Dev nD) :
    (Gen.V1 m c main_v4 : FVec Ideal S8192x64 .f32)
      = Host.dotGeneral (F := Ideal) (φ₁ := .f32) (φ₂ := .f32) dot_S8192x64_S64x64_S8192x64_1_0_0_1_n_n none (m ((c : Thread nD τ).loc main_arg2)) (m ((c : Thread nD τ).loc main_arg12)) :=
  V1_main_v4 m c

end Cert.Kernel.HostPre

end
-- ==== Proof.KbEnd.lean ====
/-
  Reading the last boundary's contents: each argument array reaches the end as launched (no host product and no
  region writes one: a region reads it through an input window, whose array ends as it was entered, or bypasses
  it), and each result array holds what its region's pipeline leaves. Also what regions 1 and 2 find on entry:
  the buffers region 0 (resp. 0 and 1) did not write, as the host products left them.
-/
import proofs.«176943_j19696720019794_2_alg».proof.Proof.KbRun
import proofs.«176943_j19696720019794_2_alg».proof.Proof.KbHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem X4_main_arg0 (c : Dev nD) : X4 m c (Proc.devRef .tc main_arg0) = m ((c : Thread nD τ).loc main_arg0) :=
  (X4_of_ne m c main_arg0 (by decide)).trans <| (X3_of_ne m c main_arg0 (by decide)).trans <| (X2_of_ne m c main_arg0 (by decide)).trans <| HostPre.V1_main_arg0 m c
theorem X4_main_arg1 (c : Dev nD) : X4 m c (Proc.devRef .tc main_arg1) = m ((c : Thread nD τ).loc main_arg1) :=
  (X4_of_ne m c main_arg1 (by decide)).trans <| (X3_of_ne m c main_arg1 (by decide)).trans <| (X2_of_ne m c main_arg1 (by decide)).trans <| HostPre.V1_main_arg1 m c
theorem X4_main_arg2 (c : Dev nD) : X4 m c (Proc.devRef .tc main_arg2) = m ((c : Thread nD τ).loc main_arg2) :=
  (X4_of_ne m c main_arg2 (by decide)).trans <| (X3_of_ne m c main_arg2 (by decide)).trans <| (X2_of_ne m c main_arg2 (by decide)).trans <| HostPre.V1_main_arg2 m c
theorem X4_main_arg3 (c : Dev nD) : X4 m c (Proc.devRef .tc main_arg3) = m ((c : Thread nD τ).loc main_arg3) :=
  (X4_of_ne m c main_arg3 (by decide)).trans <| (X3_of_ne m c main_arg3 (by decide)).trans <| ((X2_arr m c 0).trans (((dat0 (T1 m) c).arrAt_in 0 rfl _).trans (A_eq0 (T1 m) c 0))).trans <| HostPre.V1_main_arg3 m c
theorem X4_main_arg4 (c : Dev nD) : X4 m c (Proc.devRef .tc main_arg4) = m ((c : Thread nD τ).loc main_arg4) :=
  (X4_of_ne m c main_arg4 (by decide)).trans <| (X3_of_ne m c main_arg4 (by decide)).trans <| ((X2_arr m c 2).trans (((dat0 (T1 m) c).arrAt_in 2 rfl _).trans (A_eq0 (T1 m) c 2))).trans <| HostPre.V1_main_arg4 m c
theorem X4_main_arg5 (c : Dev nD) : X4 m c (Proc.devRef .tc main_arg5) = m ((c : Thread nD τ).loc main_arg5) :=
  (X4_of_ne m c main_arg5 (by decide)).trans <| ((X3_arr m c 0).trans (((dat1 (T2 m) c).arrAt_in 0 rfl _).trans (A_eq1 (T2 m) c 0))).trans <| (X2_of_ne m c main_arg5 (by decide)).trans <| HostPre.V1_main_arg5 m c
theorem X4_main_arg6 (c : Dev nD) : X4 m c (Proc.devRef .tc main_arg6) = m ((c : Thread nD τ).loc main_arg6) :=
  (X4_of_ne m c main_arg6 (by decide)).trans <| ((X3_arr m c 2).trans (((dat1 (T2 m) c).arrAt_in 2 rfl _).trans (A_eq1 (T2 m) c 2))).trans <| (X2_of_ne m c main_arg6 (by decide)).trans <| HostPre.V1_main_arg6 m c
theorem X4_main_arg7 (c : Dev nD) : X4 m c (Proc.devRef .tc main_arg7) = m ((c : Thread nD τ).loc main_arg7) :=
  ((X4_arr m c 0).trans (((dat2 (T3 m) c).arrAt_in 0 rfl _).trans (A_eq2 (T3 m) c 0))).trans <| (X3_of_ne m c main_arg7 (by decide)).trans <| (X2_of_ne m c main_arg7 (by decide)).trans <| HostPre.V1_main_arg7 m c
theorem X4_main_arg8 (c : Dev nD) : X4 m c (Proc.devRef .tc main_arg8) = m ((c : Thread nD τ).loc main_arg8) :=
  (X4_of_ne m c main_arg8 (by decide)).trans <| (X3_of_ne m c main_arg8 (by decide)).trans <| (X2_of_ne m c main_arg8 (by decide)).trans <| HostPre.V1_main_arg8 m c
theorem X4_main_arg9 (c : Dev nD) : X4 m c (Proc.devRef .tc main_arg9) = m ((c : Thread nD τ).loc main_arg9) :=
  (X4_of_ne m c main_arg9 (by decide)).trans <| (X3_of_ne m c main_arg9 (by decide)).trans <| (X2_of_ne m c main_arg9 (by decide)).trans <| HostPre.V1_main_arg9 m c
theorem X4_main_arg10 (c : Dev nD) : X4 m c (Proc.devRef .tc main_arg10) = m ((c : Thread nD τ).loc main_arg10) :=
  (X4_of_ne m c main_arg10 (by decide)).trans <| (X3_of_ne m c main_arg10 (by decide)).trans <| (X2_of_ne m c main_arg10 (by decide)).trans <| HostPre.V1_main_arg10 m c
theorem X4_main_arg11 (c : Dev nD) : X4 m c (Proc.devRef .tc main_arg11) = m ((c : Thread nD τ).loc main_arg11) :=
  (X4_of_ne m c main_arg11 (by decide)).trans <| (X3_of_ne m c main_arg11 (by decide)).trans <| (X2_of_ne m c main_arg11 (by decide)).trans <| HostPre.V1_main_arg11 m c
theorem X4_main_arg12 (c : Dev nD) : X4 m c (Proc.devRef .tc main_arg12) = m ((c : Thread nD τ).loc main_arg12) :=
  (X4_of_ne m c main_arg12 (by decide)).trans <| (X3_of_ne m c main_arg12 (by decide)).trans <| (X2_of_ne m c main_arg12 (by decide)).trans <| HostPre.V1_main_arg12 m c

/-! ## The results are what the pipelines leave -/

theorem X4_main_v5 (c : Dev nD) : X4 m c (Proc.devRef .tc main_v5) = (dat0 (T1 m) c).arrAt 4 cfg0.N :=
  (X4_of_ne m c main_v5 (by decide)).trans <| (X3_of_ne m c main_v5 (by decide)).trans <| X2_arr m c 4
theorem X4_main_v6 (c : Dev nD) : X4 m c (Proc.devRef .tc main_v6) = (dat1 (T2 m) c).arrAt 4 cfg1.N :=
  (X4_of_ne m c main_v6 (by decide)).trans <| X3_arr m c 4
theorem X4_main_v7 (c : Dev nD) : X4 m c (Proc.devRef .tc main_v7) = (dat2 (T3 m) c).arrAt 2 cfg2.N :=
  X4_arr m c 2

/-! ## What regions 1 and 2 find on entry -/

theorem T2_main_arg5 (c : Dev nD) : T2 m c main_arg5 = m ((c : Thread nD τ).loc main_arg5) :=
  (X2_of_ne m c main_arg5 (by decide)).trans (HostPre.V1_main_arg5 m c)
theorem T2_main_arg6 (c : Dev nD) : T2 m c main_arg6 = m ((c : Thread nD τ).loc main_arg6) :=
  (X2_of_ne m c main_arg6 (by decide)).trans (HostPre.V1_main_arg6 m c)
theorem T2_main_v2 (c : Dev nD) : T2 m c main_v2 = X1 m c main_v2 := X2_of_ne m c main_v2 (by decide)
theorem T2_main_v3 (c : Dev nD) : T2 m c main_v3 = X1 m c main_v3 := X2_of_ne m c main_v3 (by decide)
theorem T3_main_arg7 (c : Dev nD) : T3 m c main_arg7 = m ((c : Thread nD τ).loc main_arg7) :=
  (X3_of_ne m c main_arg7 (by decide)).trans <| (X2_of_ne m c main_arg7 (by decide)).trans (HostPre.V1_main_arg7 m c)
theorem T3_main_v4 (c : Dev nD) : T3 m c main_v4 = X1 m c main_v4 :=
  (X3_of_ne m c main_v4 (by decide)).trans (X2_of_ne m c main_v4 (by decide))

/-! ## The frame, and the run with the results named -/

variable (ρ : Dev nD → PrngReg)

/-- Every weakly fair execution of @main terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (X4_main_arg0 m c),
      (h c _ (mem_uc main_arg1 (by decide))).trans (X4_main_arg1 m c),
      (h c _ (mem_uc main_arg2 (by decide))).trans (X4_main_arg2 m c),
      (h c _ (mem_uc main_arg3 (by decide))).trans (X4_main_arg3 m c),
      (h c _ (mem_uc main_arg4 (by decide))).trans (X4_main_arg4 m c),
      (h c _ (mem_uc main_arg5 (by decide))).trans (X4_main_arg5 m c),
      (h c _ (mem_uc main_arg6 (by decide))).trans (X4_main_arg6 m c),
      (h c _ (mem_uc main_arg7 (by decide))).trans (X4_main_arg7 m c),
      (h c _ (mem_uc main_arg8 (by decide))).trans (X4_main_arg8 m c),
      (h c _ (mem_uc main_arg9 (by decide))).trans (X4_main_arg9 m c),
      (h c _ (mem_uc main_arg10 (by decide))).trans (X4_main_arg10 m c),
      (h c _ (mem_uc main_arg11 (by decide))).trans (X4_main_arg11 m c),
      (h c _ (mem_uc main_arg12 (by decide))).trans (X4_main_arg12 m c)⟩) (run_all m ρ)

/-- The same run with the three results named: each is what its region's pipeline leaves. -/
theorem run_values : θ_run defs (onTc (τ := τ) (main (F := F))) ⟨m, fun _ => 0, ρ⟩ (fun r => ∀ c : Dev nD,
      r.2.mem ((c.tc : Thread nD τ).loc main_v5) = (dat0 (T1 m) c).arrAt 4 cfg0.N
      ∧ r.2.mem ((c.tc : Thread nD τ).loc main_v6) = (dat1 (T2 m) c).arrAt 4 cfg1.N
      ∧ r.2.mem ((c.tc : Thread nD τ).loc main_v7) = (dat2 (T3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v5 (by decide))).trans (X4_main_v5 m c),
      (h c _ (mem_uc main_v6 (by decide))).trans (X4_main_v6 m c),
      (h c _ (mem_uc main_v7 (by decide))).trans (X4_main_v7 m c),
      (h c _ (mem_uc main_arg0 (by decide))).trans (X4_main_arg0 m c),
      (h c _ (mem_uc main_arg1 (by decide))).trans (X4_main_arg1 m c),
      (h c _ (mem_uc main_arg2 (by decide))).trans (X4_main_arg2 m c),
      (h c _ (mem_uc main_arg3 (by decide))).trans (X4_main_arg3 m c),
      (h c _ (mem_uc main_arg4 (by decide))).trans (X4_main_arg4 m c),
      (h c _ (mem_uc main_arg5 (by decide))).trans (X4_main_arg5 m c),
      (h c _ (mem_uc main_arg6 (by decide))).trans (X4_main_arg6 m c),
      (h c _ (mem_uc main_arg7 (by decide))).trans (X4_main_arg7 m c),
      (h c _ (mem_uc main_arg8 (by decide))).trans (X4_main_arg8 m c),
      (h c _ (mem_uc main_arg9 (by decide))).trans (X4_main_arg9 m c),
      (h c _ (mem_uc main_arg10 (by decide))).trans (X4_main_arg10 m c),
      (h c _ (mem_uc main_arg11 (by decide))).trans (X4_main_arg11 m c),
      (h c _ (mem_uc main_arg12 (by decide))).trans (X4_main_arg12 m c)⟩) (run_all m ρ)

end Cert.Kernel.Hand

end
-- ==== Proof.KiRuns0.lean ====
/-
  Region 0 (the first fused merge kernel, grid 8 x 8: row block i, reduction step k).
  The body branches on the reduction coordinate only: at k = 0 it first zeroes the accumulator, at every k it adds
  the two block products to it, and at k = 7 it also stores max(accumulator, 0) into the output block.
  This module states the two conditions in closed form over the linear point index t (k = t mod 8), says where the
  output window is idle, and runs the body once per case: A (k = 0), B (0 < k < 7), C (k = 7).
-/
import proofs.«176943_j19696720019794_2_alg».proof.Proof.Gen.KernelIdeal.Launch
import proofs.«176943_j19696720019794_2_alg».proof.Proof.Gen.KernelIdeal.Skeleton
import proofs.«176943_j19696720019794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, over the grid -/

/-- The first conditional: the reduction coordinate is zero. -/
abbrev cond0_0 (i : grid0.Coords) : Prop :=
  (Scalar.cmpi .ne (Scalar.extui (Scalar.cmpi .eq (BitVec.ofNat 32 (i 1).val) 0#32)) 0#32) = 1#1
/-- It holds exactly at the points t with t mod 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional: the reduction coordinate is the last one. -/
abbrev cond0_1 (i : grid0.Coords) : Prop := k0_cond2 i = 1#1
/-- It holds exactly at the points t with t mod 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the output window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last reduction step it is live. -/
theorem liveAt0_4 : ∀ t : Fin cfg0.N, cond0_1 (grid0.coords t) → cfg0.idle 4 (grid0.coords t) = false := by decide +kernel

/-! ## The memrefs the body is called with -/

abbrev VO0_4 : View sig .tc .vmem S1024x64 .f32 := (Memref.whole cc0_stg4_0 : Memref sig .tc .vmem S1024x64 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16384x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1024x64 .f32 := Memref.whole cc0_scratch0
abbrev VS0_0 : View sig .tc .vmem S1024x64 .f32 := scM0_0.view

/-! ## Case A: the first reduction step -/

set_option maxHeartbeats 4000000 in
/-- At k = 0 the body, on whole memrefs holding the four input blocks, the output block at contents it hands back
    untouched and the accumulator at anything, runs to the end with the inputs as they were and the accumulator
    holding the pieces the run finds. -/
noncomputable def kernelRun0_A (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i)
    (x0 : Vec F S1024x1024 .f32) (x1 : Vec F S8192x64 .f32) (x2 : Vec F S1024x2048 .f32) (x3 : Vec F S16384x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨[], ?_, fun xi4 E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case B: a middle reduction step -/

set_option maxHeartbeats 4000000 in
/-- At 0 < k < 7 the body, with the accumulator at the contents `xs0` the step before left, runs to the end with the
    inputs and the output block as they were and the accumulator holding the pieces the run finds. -/
noncomputable def kernelRun0_B (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i)
    (x0 : Vec F S1024x1024 .f32) (x1 : Vec F S8192x64 .f32) (x2 : Vec F S1024x2048 .f32) (x3 : Vec F S16384x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨[], ?_, fun xi4 E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case C: the last reduction step -/

set_option maxHeartbeats 4000000 in
/-- At k = 7 the body, with the accumulator at `xs0` and the output block at anything, runs to the end with the
    inputs as they were and the output block and the accumulator holding the pieces the run finds. -/
noncomputable def kernelRun0_C (c : Dev nD) (i : grid0.Coords)
    (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i)
    (x0 : Vec F S1024x1024 .f32) (x1 : Vec F S8192x64 .f32) (x2 : Vec F S1024x2048 .f32) (x3 : Vec F S16384x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc0__fused_merge_kernel i arg2 harg2 arg3 harg3 arg4 harg4 arg5 harg5 arg6 harg6 arg7 harg7) K } := by
  refine ⟨?_, ?_, fun E K => ?run⟩
  case run =>
    simp only [cc0__fused_merge_kernel_eq_skeleton]; unfold cc0__fused_merge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The class invariant with the accumulator as a memref -/

/-- The scoped buffers no window of this kernel stages, other than its accumulator: the other two kernels' staging
    buffers and accumulators, each whole at some contents. This kernel never touches them. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The pipeline's class invariant: the accumulator at some contents, the other scoped buffers, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KiFrame0.lean ====
/-
  Region 0, continued: what each case of the body leaves in the accumulator and in the output block, the contents
  point by point (a recursion on the linear point index: the accumulator after point t is the case's result over
  the accumulator after point t - 1), the pipeline's proof data over them, and the body obligation at every point.
  Everything is stated at a parameter V, the contents of the core's buffers when the region is entered.
-/
import proofs.«176943_j19696720019794_2_alg».proof.Proof.KiRuns0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- A placeholder for the output block where the body stores nothing into it: nothing consults it. -/
def junk0_4 : Vec F S1024x64 .f32 := VO0_4.read (Elt F) VO0_4.junk

theorem scover0_A_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i) (x0 : Vec F S1024x1024 .f32) (x1 : Vec F S8192x64 .f32) (x2 : Vec F S1024x2048 .f32) (x3 : Vec F S16384x64 .f32) (y : S1024x64.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x64.size (by sl_kernel_rfl) y
/-- The accumulator after the first reduction step. -/
def sout0_A_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i) (x0 : Vec F S1024x1024 .f32) (x1 : Vec F S8192x64 .f32) (x2 : Vec F S1024x2048 .f32) (x3 : Vec F S16384x64 .f32) : Vec F S1024x64 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

theorem scover0_B_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x64.size (by sl_kernel_rfl) y
/-- The accumulator after a middle reduction step, over what the step before left. -/
def sout0_B_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

theorem cover0_C_4 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x64.size (by sl_kernel_rfl) y
/-- The output block after the last reduction step. -/
def out0_C_4 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)
theorem scover0_C_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) (y : S1024x64.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x64.size (by sl_kernel_rfl) y
/-- The accumulator after the last reduction step. -/
def sout0_C_0 (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) : Vec F S1024x64 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## The contents point by point -/

/-- What the output block's staging buffer and the accumulator hold after the body at position n: the case the
    closed forms select at n, over the accumulator that position n - 1 left. -/
def outsAt0 (c : Dev nD) : (n : ℕ) → n < cfg0.N → Vec F S1024x64 .f32 × Vec F S1024x64 .f32
  | 0, hn => (junk0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (junk0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (junk0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (junk0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (junk0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

/-- The proof data of pipeline 0 on core c: the arrays as the region finds them; after the body at point t each
    input's buffer at its block and the output's at what the recursion says; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end Cert.KernelIdeal.Hand

end
-- ==== Proof.KiBody0.lean ====
/-
  Region 0, continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KiFrame0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 8 = 0
  · have h1 : ¬t.val % 8 = 7 := by omega
    rw [Dat.leavesExact_idle (dat0 V c) 4 t (idleAt0_4 t (fun h => h1 ((hcond0_1 t).mp h))) (noFlush0_4 t (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]; · iexists _; iexact HS0
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KiRuns1.lean ====
/-
  Region 1 (the second fused merge kernel, grid 16 x 8: row block i, reduction step k).
  The body branches on the reduction coordinate only: at k = 0 it first zeroes the accumulator, at every k it adds
  the two block products to it, and at k = 7 it also stores max(accumulator, 0) into the output block.
  This module states the two conditions in closed form over the linear point index t (k = t mod 8), says where the
  output window is idle, and runs the body once per case: A (k = 0), B (0 < k < 7), C (k = 7).
-/
import proofs.«176943_j19696720019794_2_alg».proof.Proof.Gen.KernelIdeal.Launch
import proofs.«176943_j19696720019794_2_alg».proof.Proof.Gen.KernelIdeal.Skeleton
import proofs.«176943_j19696720019794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, over the grid -/

/-- The first conditional: the reduction coordinate is zero. -/
abbrev cond1_0 (i : grid1.Coords) : Prop :=
  (Scalar.cmpi .ne (Scalar.extui (Scalar.cmpi .eq (BitVec.ofNat 32 (i 1).val) 0#32)) 0#32) = 1#1
/-- It holds exactly at the points t with t mod 8 = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional: the reduction coordinate is the last one. -/
abbrev cond1_1 (i : grid1.Coords) : Prop := k1_cond2 i = 1#1
/-- It holds exactly at the points t with t mod 8 = 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last reduction step the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last reduction step it is live. -/
theorem liveAt1_4 : ∀ t : Fin cfg1.N, cond1_1 (grid1.coords t) → cfg1.idle 4 (grid1.coords t) = false := by decide +kernel

/-! ## The memrefs the body is called with -/

abbrev VO1_4 : View sig .tc .vmem S1024x64 .f32 := (Memref.whole cc1_stg4_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## Case A: the first reduction step -/

set_option maxHeartbeats 4000000 in
/-- At k = 0 the body, on whole memrefs holding the four input blocks, the output block at contents it hands back
    untouched and the accumulator at anything, runs to the end with the inputs as they were and the accumulator
    holding the pieces the run finds. -/
noncomputable def kernelRun1_A (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i)
    (x0 : Vec F S1024x2048 .f32) (x1 : Vec F S16384x64 .f32) (x2 : Vec F S1024x1024 .f32) (x3 : Vec F S8192x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨[], ?_, fun xi4 E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case B: a middle reduction step -/

set_option maxHeartbeats 4000000 in
/-- At 0 < k < 7 the body, with the accumulator at the contents `xs0` the step before left, runs to the end with the
    inputs and the output block as they were and the accumulator holding the pieces the run finds. -/
noncomputable def kernelRun1_B (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i)
    (x0 : Vec F S1024x2048 .f32) (x1 : Vec F S16384x64 .f32) (x2 : Vec F S1024x1024 .f32) (x3 : Vec F S8192x64 .f32) (xs0 : Vec F S1024x64 .f32) :
    Σ' (L4 : List (View.Piece (Elt F) S1024x64 .f32)), { LS0 : List (View.Piece (Elt F) S1024x64 .f32) //
      ∀ (xi4 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare xi4
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨[], ?_, fun xi4 E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-! ## Case C: the last reduction step -/

set_option maxHeartbeats 4000000 in
/-- At k = 7 the body, with the accumulator at `xs0` and the output block at anything, runs to the end with the
    inputs as they were and the output block and the accumulator holding the pieces the run finds. -/
noncomputable def kernelRun1_C (c : Dev nD) (i : grid1.Coords)
    (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i)
    (x0 : Vec F S1024x2048 .f32) (x1 : Vec F S16384x64 .f32) (x2 : Vec F S1024x1024 .f32) (x3 : Vec F S8192x64 .f32) (xs0 : Vec F S1024x64 .f32) :
    Σ' (L4 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc1__fused_merge_kernel i arg2 harg2 arg3 harg3 arg4 harg4 arg5 harg5 arg6 harg6 arg7 harg7) K } := by
  refine ⟨?_, ?_, fun E K => ?run⟩
  case run =>
    simp only [cc1__fused_merge_kernel_eq_skeleton]; unfold cc1__fused_merge_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The class invariant with the accumulator as a memref -/

/-- The scoped buffers no window of this kernel stages, other than its accumulator: the other two kernels' staging
    buffers and accumulators, each whole at some contents. This kernel never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f))

/-- The accumulator moved to the front of the scoped buffers: one way, -/
theorem PhiA1_fwd (c : Dev nD) :
    (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop(iprop((∃ d : Buf (Elt F) ((c : Thread nD τ).loc cc1_scratch0), ((c : Thread nD τ).loc cc1_scratch0) ↦{fullShare} d) ∗ Rest1 c) ∗ (∃ r, prngReg c r)) := by
  unfold Rest1
  iintro ⟨⟨H0, H1, H2, H3, H4, H5, H6, H7, H8, H9, H10, H11, H12, H13, H14, H15⟩, Hg⟩
  isplitl [H0 H1 H2 H3 H4 H5 H6 H7 H8 H9 H10 H11 H12 H13 H14 H15]
  · isplitl [H9]; · iexact H9
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    isplitl [H13]; · iexact H13
    isplitl [H14]; · iexact H14
    iexact H15
  · iexact Hg

/-- and back. -/
theorem PhiA1_bwd (c : Dev nD) :
    (iprop(iprop((∃ d : Buf (Elt F) ((c : Thread nD τ).loc cc1_scratch0), ((c : Thread nD τ).loc cc1_scratch0) ↦{fullShare} d) ∗ Rest1 c) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  unfold Rest1
  iintro ⟨⟨H9, H0, H1, H2, H3, H4, H5, H6, H7, H8, H10, H11, H12, H13, H14, H15⟩, Hg⟩
  isplitl [H0 H1 H2 H3 H4 H5 H6 H7 H8 H9 H10 H11 H12 H13 H14 H15]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iexact Hg

/-- The pipeline's class invariant: the accumulator at some contents, the other scoped buffers, the generator register. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA; rw [scopedRest1_eq]; simp only [scM1_0, owns_whole]
  exact BI.Entails.antisymm (PhiA1_fwd c) (PhiA1_bwd c)

end Cert.KernelIdeal.Hand

end
-- ==== Proof.KiFrame1.lean ====
/-
  Region 1, continued: what each case of the body leaves in the accumulator and in the output block, the contents
  point by point (a recursion on the linear point index: the accumulator after point t is the case's result over
  the accumulator after point t - 1), the pipeline's proof data over them, and the body obligation at every point.
  Everything is stated at a parameter V, the contents of the core's buffers when the region is entered.
-/
import proofs.«176943_j19696720019794_2_alg».proof.Proof.KiRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- A placeholder for the output block where the body stores nothing into it: nothing consults it. -/
def junk1_4 : Vec F S1024x64 .f32 := VO1_4.read (Elt F) VO1_4.junk

theorem scover1_A_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i) (x0 : Vec F S1024x2048 .f32) (x1 : Vec F S16384x64 .f32) (x2 : Vec F S1024x1024 .f32) (x3 : Vec F S8192x64 .f32) (y : S1024x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1024x64.size (by sl_kernel_rfl) y
/-- The accumulator after the first reduction step. -/
def sout1_A_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i) (x0 : Vec F S1024x2048 .f32) (x1 : Vec F S16384x64 .f32) (x2 : Vec F S1024x1024 .f32) (x3 : Vec F S8192x64 .f32) : Vec F S1024x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

theorem scover1_B_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1024x64.size (by sl_kernel_rfl) y
/-- The accumulator after a middle reduction step, over what the step before left. -/
def sout1_B_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

theorem cover1_C_4 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x64.size (by sl_kernel_rfl) y
/-- The output block after the last reduction step. -/
def out1_C_4 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)
theorem scover1_C_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) (y : S1024x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x64.size (by sl_kernel_rfl) y
/-- The accumulator after the last reduction step. -/
def sout1_C_0 (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## The contents point by point -/

/-- What the output block's staging buffer and the accumulator hold after the body at position n: the case the
    closed forms select at n, over the accumulator that position n - 1 left. -/
def outsAt1 (c : Dev nD) : (n : ℕ) → n < cfg1.N → Vec F S1024x64 .f32 × Vec F S1024x64 .f32
  | 0, hn => (junk1_4, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      if h1 : (n + 1) % 8 = 7 then
        False.elim (by omega)
      else
        (junk1_4, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 8 = 7 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (junk1_4, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (junk1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (junk1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The pipeline's proof data -/

/-- The proof data of pipeline 1 on core c: the arrays as the region finds them; after the body at point t each
    input's buffer at its block and the output's at what the recursion says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KiBody1.lean ====
/-
  Region 1, continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KiFrame1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 8 = 0
  · have h1 : ¬t.val % 8 = 7 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]; · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.KiRuns2.lean ====
/-
  Region 2 (the single-operand kernel) (grid 8 x 4: row block i, reduction step k).
  The body branches on the reduction coordinate only: at k = 0 it first zeroes the accumulator, at every k it adds
  the block product to it, and at k = 3 it also stores max(accumulator, 0) into the output block.
  This module states the two conditions in closed form over the linear point index t (k = t mod 4), says where
  the output window is idle, and runs the body once per case: A (k = 0), B (0 < k < 3), C (k = 3).
-/
import proofs.«176943_j19696720019794_2_alg».proof.Proof.Gen.KernelIdeal.Launch
import proofs.«176943_j19696720019794_2_alg».proof.Proof.Gen.KernelIdeal.Skeleton
import proofs.«176943_j19696720019794_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, over the grid -/

/-- The first conditional: the reduction coordinate is zero. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the reduction coordinate is the last one. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last reduction step the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last reduction step it is live. -/
theorem liveAt2_2 : ∀ t : Fin cfg2.N, cond2_1 (grid2.coords t) → cfg2.idle 2 (grid2.coords t) = false := by decide +kernel

/-! ## The memrefs the body is called with -/

abbrev VO2_2 : View sig .tc .vmem S1024x64 .f32 := (Memref.whole cc2_stg2_0 : Memref sig .tc .vmem S1024x64 .f32).view
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S1024x64 .f32 := Memref.whole cc2_scratch0
abbrev VS2_0 : View sig .tc .vmem S1024x64 .f32 := scM2_0.view

/-! ## The body, case by case -/

set_option maxHeartbeats 4000000 in
/-- At k = 0 the body, on whole memrefs holding the input blocks, the output block at contents it hands back untouched and the accumulator at anything, runs to the end with the inputs as they were and the accumulator holding the pieces the run finds. -/
noncomputable def kernelRun2_A (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨[], ?_, fun xi2 E K => ?run⟩
  case run =>
    simp only [cc2__single_g_kernel_eq_skeleton]; unfold cc2__single_g_kernel_skel
    unfold owns
    iintro ⟨⟨%f0, %hf0, H0⟩, ⟨%f1, %hf1, H1⟩, ⟨%fo, %hfo, HO⟩, ⟨%ds0, %fs0, -, HS0⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS0

set_option maxHeartbeats 4000000 in
/-- At a middle step the body, with the accumulator at the contents `xs0` the step before left, runs to the end with the inputs and the output block as they were and the accumulator holding the pieces the run finds. -/
noncomputable def kernelRun2_B (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨[], ?_, fun xi2 E K => ?run⟩
  case run =>
    simp only [cc2__single_g_kernel_eq_skeleton]; unfold cc2__single_g_kernel_skel
    unfold owns
    iintro ⟨⟨%f0, %hf0, H0⟩, ⟨%f1, %hf1, H1⟩, ⟨%fo, %hfo, HO⟩, ⟨%fs0, %hfs0, HS0⟩, Hk⟩
    obtain rfl := harg2.eq_unread hf0; obtain rfl := harg3.eq_unread hf1; obtain rfl := harg4.eq_unread hfo; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS0

set_option maxHeartbeats 4000000 in
/-- At the last step the body, with the accumulator at `xs0` and the output block at anything, runs to the end with the inputs as they were and the output block and the accumulator holding the pieces the run finds. -/
noncomputable def kernelRun2_C (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2__single_g_kernel i arg2 harg2 arg3 harg3 arg4 harg4 arg5 harg5) K } := by
  refine ⟨?_, ?_, fun E K => ?run⟩
  case run =>
    simp only [cc2__single_g_kernel_eq_skeleton]; unfold cc2__single_g_kernel_skel
    unfold owns
    iintro ⟨⟨%f0, %hf0, H0⟩, ⟨%f1, %hf1, H1⟩, ⟨%dO, %fo, -, HO⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS0

/-! ## The class invariant with the accumulator as a memref -/

/-- The scoped buffers no window of this kernel stages, other than its accumulator: the other two kernels' staging
    buffers and accumulators, each whole at some contents. This kernel never touches them. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The accumulator moved to the front of the scoped buffers: one way, -/
theorem PhiA2_fwd (c : Dev nD) :
    (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) ∗ (∃ r, prngReg c r)) : sProp 𝕄)
      ⊢ iprop(iprop((∃ d : Buf (Elt F) ((c : Thread nD τ).loc cc2_scratch0), ((c : Thread nD τ).loc cc2_scratch0) ↦{fullShare} d) ∗ Rest2 c) ∗ (∃ r, prngReg c r)) := by
  unfold Rest2
  iintro ⟨⟨H0, H1, H2, H3, H4, H5, H6, H7, H8, H9, H10, H11, H12, H13, H14, H15, H16, H17, H18⟩, Hg⟩
  isplitl [H0 H1 H2 H3 H4 H5 H6 H7 H8 H9 H10 H11 H12 H13 H14 H15 H16 H17 H18]
  · isplitl [H18]; · iexact H18
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iexact Hg

/-- and back. -/
theorem PhiA2_bwd (c : Dev nD) :
    (iprop(iprop((∃ d : Buf (Elt F) ((c : Thread nD τ).loc cc2_scratch0), ((c : Thread nD τ).loc cc2_scratch0) ↦{fullShare} d) ∗ Rest2 c) ∗ (∃ r, prngReg c r)) : sProp 𝕄)
      ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_scratch0), ((c : Thread nD τ).loc cc2_scratch0) ↦{fullShare} f)) ∗ (∃ r, prngReg c r)) := by
  unfold Rest2
  iintro ⟨⟨H18, H0, H1, H2, H3, H4, H5, H6, H7, H8, H9, H10, H11, H12, H13, H14, H15, H16, H17⟩, Hg⟩
  isplitl [H0 H1 H2 H3 H4 H5 H6 H7 H8 H9 H10 H11 H12 H13 H14 H15 H16 H17 H18]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iexact Hg

/-- The pipeline's class invariant: the accumulator at some contents, the other scoped buffers, the generator register. -/
theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_eq]; simp only [scM2_0, owns_whole]
  exact BI.Entails.antisymm (PhiA2_fwd c) (PhiA2_bwd c)

end Cert.KernelIdeal.Hand

end
-- ==== Proof.KiFrame2.lean ====
/-
  Region 2 (the single-operand kernel), continued: what each case of the body leaves in the accumulator and in the output block, the contents
  point by point (a recursion on the linear point index: the accumulator after point t is the case's result over
  the accumulator after point t - 1), the pipeline's proof data over them.
  Everything is stated at a parameter V, the contents of the core's buffers when the region is entered.
-/
import proofs.«176943_j19696720019794_2_alg».proof.Proof.KiRuns2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- A placeholder for the output block where the body stores nothing into it: nothing consults it. -/
def junk2_2 : Vec F S1024x64 .f32 := VO2_2.read (Elt F) VO2_2.junk

theorem scover2_A_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y
/-- The accumulator after this case of the body. -/
def sout2_A_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) : Vec F S1024x64 .f32 :=
  VS2_0.read (Elt F) (VS2_0.writes (Elt F) VS2_0.junk (kernelRun2_A c i arg2 harg2 arg3 harg3 arg4 harg4 arg5 harg5 hc0 hc1 x0 x1).2.1)

theorem scover2_B_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y
/-- The accumulator after this case of the body. -/
def sout2_B_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

theorem cover2_C_2 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y
/-- The output block after the last reduction step. -/
def out2_C_2 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)
theorem scover2_C_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y
/-- The accumulator after this case of the body. -/
def sout2_C_0 (c : Dev nD) (i : grid2.Coords) (arg2 : Memref sig .tc .vmem S1024x2048 .f32) (harg2 : arg2.IsWhole) (arg3 : Memref sig .tc .vmem S8192x64 .f32) (harg3 : arg3.IsWhole) (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

/-! ## The contents point by point -/

/-- What the output block's staging buffer and the accumulator hold after the body at position n: the case the
    closed forms select at n, over the accumulator that position n - 1 left. -/
def outsAt2 (c : Dev nD) : (n : ℕ) → n < cfg2.N → Vec F S1024x64 .f32 × Vec F S1024x64 .f32
  | 0, hn => (junk2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (junk2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (junk2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (junk2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (junk2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: before the first point the class invariant (the accumulator at anything); afterwards the
    accumulator at what the point before left, the other scoped buffers, the generator register. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 c) ∗ (∃ r, prngReg c r)) := by
  cases n with
  | zero => exact absurd rfl hz
  | succ n => rfl

/-! ## The pipeline's proof data -/

/-- The proof data of pipeline 2 on core c: the arrays as the region finds them; after the body at point t each
    input's buffer at its block and the output's at what the recursion says; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Cert.KernelIdeal.Hand

end
-- ==== Proof.KiBody2.lean ====
/-
  Region 2 (the single-operand kernel), continued: the body obligation. At a point t the closed forms say which case the point is in; the
  invariant hands the body the accumulator at what the point before left (at anything at the very first point),
  the case's run applies, and the invariant takes the accumulator back at this point's contents. The other scoped
  buffers, the generator register and the core's dues pass through untouched.
-/
import proofs.«176943_j19696720019794_2_alg».proof.Proof.KiFrame2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 4 = 0
  · have h1 : ¬t.val % 4 = 3 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%eO, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]; · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KiRun.lean ====
/-
  The whole run of @main: five host products, then the three kernel regions one after the other.
  The contents of the core's unscoped buffers are followed from segment to segment: X1 after the host products,
  X2, X3, X4 after regions 0, 1, 2 (each region changes only its own output array, to what its pipeline's
  write-backs leave). Every weakly fair execution terminates without a fault, and at the end every unscoped buffer
  holds X4's contents: the arguments (never written) and the three results.
-/
import proofs.«176943_j19696720019794_2_alg».proof.Proof.KiBody0
import proofs.«176943_j19696720019794_2_alg».proof.Proof.KiBody1
import proofs.«176943_j19696720019794_2_alg».proof.Proof.KiBody2
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Two rearrangements -/

/-- The middle of three may be dropped and the outer two swapped. -/
theorem sep_drop_mid (A B C : sProp 𝕄) : (iprop(A ∗ B ∗ C) : sProp 𝕄) ⊢ iprop(C ∗ A) := by
  iintro ⟨Ha, -, Hc⟩
  isplitl [Hc]; · iexact Hc
  iexact Ha

/-- Two swapped, with nothing put between them. -/
theorem sep_swap_emp (A C : sProp 𝕄) : (iprop(C ∗ A) : sProp 𝕄) ⊢ iprop(A ∗ emp ∗ C) := by
  iintro ⟨Hc, Ha⟩
  isplitl [Ha]; · iexact Ha
  isplitr; · iempintro
  iexact Hc

/-! ## The buffer contents at each segment boundary -/

/-- Core c's buffers at launch. -/
abbrev X0 : Dev nD → Valuation τ sig (Elt F) := fun c b => m (c, b)
/-- After the five host products (region 0's entry). -/
abbrev X1 : Dev nD → Valuation τ sig (Elt F) := fun c => StableHlo.after hostOps0 (X0 m c)
abbrev T1 : (c : Dev nD) → (b : Ref sig .tc) → Buf (Elt F) ((c : Thread nD τ).loc b) := fun c b => X1 m c b

/-- At region 0's exit: its arrays at what the pipeline leaves (the inputs as entered, the output's write-backs
    folded in), every other buffer as entered. -/
def X2 (c : Dev nD) : Valuation τ sig (Elt F) :=
  Pipeline.withArrays spec0 c (X1 m c) fun w => (dat0 (T1 m) c).arrAt w cfg0.N
theorem X2_arr (c : Dev nD) (w : Fin cfg0.W) :
    X2 m c (Proc.devRef .tc (Pipeline.arrRef spec0 w)) = (dat0 (T1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
/-- The same read at the TensorCore's references. -/
abbrev T2 : (c : Dev nD) → (b : Ref sig .tc) → Buf (Elt F) ((c : Thread nD τ).loc b) := fun c b => X2 m c b
theorem hF0 (c : Dev nD) (w : Fin cfg0.W) : (dat0 (T1 m) c).arrAt w cfg0.N = T2 m c (Pipeline.arrRef spec0 w) :=
  (X2_arr m c w).symm
theorem hrest0 (c : Dev nD) : ∀ b, b ∉ Finset.univ.image (Pipeline.arrRef spec0) → T2 m c b = T1 m c b :=
  fun b hb => X2_of_ne m c b fun w e => hb (Finset.mem_image.mpr ⟨w, Finset.mem_univ _, e⟩)

/-- At region 1's exit: its arrays at what the pipeline leaves (the inputs as entered, the output's write-backs
    folded in), every other buffer as entered. -/
def X3 (c : Dev nD) : Valuation τ sig (Elt F) :=
  Pipeline.withArrays spec1 c (X2 m c) fun w => (dat1 (T2 m) c).arrAt w cfg1.N
theorem X3_arr (c : Dev nD) (w : Fin cfg1.W) :
    X3 m c (Proc.devRef .tc (Pipeline.arrRef spec1 w)) = (dat1 (T2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
/-- The same read at the TensorCore's references. -/
abbrev T3 : (c : Dev nD) → (b : Ref sig .tc) → Buf (Elt F) ((c : Thread nD τ).loc b) := fun c b => X3 m c b
theorem hF1 (c : Dev nD) (w : Fin cfg1.W) : (dat1 (T2 m) c).arrAt w cfg1.N = T3 m c (Pipeline.arrRef spec1 w) :=
  (X3_arr m c w).symm
theorem hrest1 (c : Dev nD) : ∀ b, b ∉ Finset.univ.image (Pipeline.arrRef spec1) → T3 m c b = T2 m c b :=
  fun b hb => X3_of_ne m c b fun w e => hb (Finset.mem_image.mpr ⟨w, Finset.mem_univ _, e⟩)

/-- At region 2's exit: its arrays at what the pipeline leaves (the inputs as entered, the output's write-backs
    folded in), every other buffer as entered. -/
def X4 (c : Dev nD) : Valuation τ sig (Elt F) :=
  Pipeline.withArrays spec2 c (X3 m c) fun w => (dat2 (T3 m) c).arrAt w cfg2.N
theorem X4_arr (c : Dev nD) (w : Fin cfg2.W) :
    X4 m c (Proc.devRef .tc (Pipeline.arrRef spec2 w)) = (dat2 (T3 m) c).arrAt w cfg2.N := by
  unfold X4; exact Pipeline.withArrays_arr spec2 launch2.win.arr_inj c _ _ w
theorem X4_of_ne (c : Dev nD) (b : Ref sig .tc) (hb : ∀ w, Pipeline.arrRef spec2 w ≠ b) :
    X4 m c (Proc.devRef .tc b) = X3 m c (Proc.devRef .tc b) := by
  unfold X4; exact Pipeline.withArrays_of_ne spec2 c _ _ b hb
/-- The same read at the TensorCore's references. -/
abbrev T4 : (c : Dev nD) → (b : Ref sig .tc) → Buf (Elt F) ((c : Thread nD τ).loc b) := fun c b => X4 m c b
theorem hF2 (c : Dev nD) (w : Fin cfg2.W) : (dat2 (T3 m) c).arrAt w cfg2.N = T4 m c (Pipeline.arrRef spec2 w) :=
  (X4_arr m c w).symm
theorem hrest2 (c : Dev nD) : ∀ b, b ∉ Finset.univ.image (Pipeline.arrRef spec2) → T4 m c b = T3 m c b :=
  fun b hb => X4_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T2 m) c
  | ⟨2, _⟩ => fun c => dat2 (T3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := by
  simp only [List.Forall]; repeat' constructor

/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (X0 m) R

/-- The last thread state without the dues: every unscoped buffer at the last boundary's contents, the generator register. -/
abbrev Tₙ (c : Dev nD) : sProp 𝕄 := iprop(StableHlo.held (c : Thread nD τ) (Pipeline.ucRefs τ sig) (X4 m c) ∗ ∃ r, prngReg c r)

/-! ## The regions as segments -/

set_option backward.isDefEq.respectTransparency.types false in
/-- Region 0 over the thread state: entered from every unscoped buffer at the boundary's contents, left at the next
    boundary's. Its arrays are split out of the unscoped buffers and put back at the exit contents; the generator
    register and the scoped buffers go into the invariant and come out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin0 (T1 m) c)
  hout c := by
    rw [Pipeline.ownSems0_none]
    exact BI.Entails.trans (hout0 (T1 m) c) (sep_swap_emp _ _)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the exit contents; the generator
    register and the scoped buffers go into the invariant and come out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin1 (T2 m) c)
  hout c := by
    rw [Pipeline.ownSems0_none]
    exact BI.Entails.trans (hout1 (T2 m) c) (sep_swap_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary's contents, left at the next
    boundary's. Its arrays are split out of the unscoped buffers and put back at the exit contents; the generator
    register and the scoped buffers go into the invariant and come out; nothing is owed; the kernel has no semaphore
    of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T3 m) c).loose
  hwaits := Pipeline.hwaits_of_owed_zero _ _ _ _ L lv 2 fun _ _ => rfl
  pre c := iprop(StableHlo.held (c : Thread nD τ) (Pipeline.ucRefs τ sig) (X3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (sep_drop_mid _ _ _) (hin2 (T3 m) c)
  hout c := by
    rw [Pipeline.ownSems0_none]
    exact BI.Entails.trans (hout2 (T3 m) c) (sep_swap_emp _ _)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T3 m c) (T4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m), .region (reg2 m) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X4 m c b)
    (hfin := fun c s' => by
      iintro ⟨⟨Hh, -⟩, HSI⟩
      unfold StableHlo.held
      imodintro
      iapply (pointsTo_read_all (Pipeline.ucRefs τ sig) (fun b => (((c : Thread nD τ)).1, b)) (X4 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KiHost.lean ====
/- The host prefix read back: after the five host dot_generals that open the program, each of their result buffers
   holds the dot_general of the launch contents of its two argument buffers, and every buffer they do not write holds
   its launch contents. Generic in the float values. -/
import proofs.«176943_j19696720019794_2_alg».proof.Proof.Gen.KernelIdeal.Regions
import Idealize.ShloMosaic.Lib.StableHlo.Run
import Idealize.ShloMosaic.PureOps.Ideal

noncomputable section

namespace Cert.KernelIdeal.HostPre

open Cert.KernelIdeal Cert.KernelIdeal.Gen Idealize.ShloMosaic Idealize.ShloMosaic.TcCoe Idealize.SL.Sem Idealize.ShloMosaic.StableHlo

variable {F : FTy → Type} [FloatOps F]

/-! ## The five results of the host prefix -/

/-- After the host prefix, `main_v0` holds the 8192x64 by 64x64 dot_general of the launch contents of `main_arg0` and `main_arg8`. -/
theorem V1_main_v0 (m : (ℓ : Loc nD τ sig) → Buf (Elt F) ℓ) (c : Dev nD) :
    Gen.V1 m c main_v0 = Host.dotGeneral dot_S8192x64_S64x64_S8192x64_1_0_0_1_n_n none (m ((c : Thread nD τ).loc main_arg0)) (m ((c : Thread nD τ).loc main_arg8)) := by
  dsimp only [Gen.V1, Gen.V0, Gen.hostOps0]
  after_results

/-- After the host prefix, `main_v1` holds the 16384x64 by 64x64 dot_general of the launch contents of `main_arg1` and `main_arg9`. -/
theorem V1_main_v1 (m : (ℓ : Loc nD τ sig) → Buf (Elt F) ℓ) (c : Dev nD) :
    Gen.V1 m c main_v1 = Host.dotGeneral dot_S16384x64_S64x64_S16384x64_1_0_0_1_n_n none (m ((c : Thread nD τ).loc main_arg1)) (m ((c : Thread nD τ).loc main_arg9)) := by
  dsimp only [Gen.V1, Gen.V0, Gen.hostOps0]
  after_results

/-- After the host prefix, `main_v2` holds the 16384x64 by 64x64 dot_general of the launch contents of `main_arg1` and `main_arg10`. -/
theorem V1_main_v2 (m : (ℓ : Loc nD τ sig) → Buf (Elt F) ℓ) (c : Dev nD) :
    Gen.V1 m c main_v2 = Host.dotGeneral dot_S16384x64_S64x64_S16384x64_1_0_0_1_n_n none (m ((c : Thread nD τ).loc main_arg1)) (m ((c : Thread nD τ).loc main_arg10)) := by
  dsimp only [Gen.V1, Gen.V0, Gen.hostOps0]
  after_results

/-- After the host prefix, `main_v3` holds the 8192x64 by 64x64 dot_general of the launch contents of `main_arg2` and `main_arg11`. -/
theorem V1_main_v3 (m : (ℓ : Loc nD τ sig) → Buf (Elt F) ℓ) (c : Dev nD) :
    Gen.V1 m c main_v3 = Host.dotGeneral dot_S8192x64_S64x64_S8192x64_1_0_0_1_n_n none (m ((c : Thread nD τ).loc main_arg2)) (m ((c : Thread nD τ).loc main_arg11)) := by
  dsimp only [Gen.V1, Gen.V0, Gen.hostOps0]
  after_results

/-- After the host prefix, `main_v4` holds the 8192x64 by 64x64 dot_general of the launch contents of `main_arg2` and `main_arg12`. -/
theorem V1_main_v4 (m : (ℓ : Loc nD τ sig) → Buf (Elt F) ℓ) (c : Dev nD) :
    Gen.V1 m c main_v4 = Host.dotGeneral dot_S8192x64_S64x64_S8192x64_1_0_0_1_n_n none (m ((c : Thread nD τ).loc main_arg2)) (m ((c : Thread nD τ).loc main_arg12)) := by
  dsimp only [Gen.V1, Gen.V0, Gen.hostOps0]
  after_results

/-! ## The buffers the host prefix does not write -/

/-- The host prefix leaves `main_arg0` at its launch contents. -/
theorem V1_main_arg0 (m : (ℓ : Loc nD τ sig) → Buf (Elt F) ℓ) (c : Dev nD) :
    Gen.V1 m c main_arg0 = m ((c : Thread nD τ).loc main_arg0) :=
  (Gen.V1_of m c main_arg0 (by decide)).trans rfl

/-- The host prefix leaves `main_arg1` at its launch contents. -/
theorem V1_main_arg1 (m : (ℓ : Loc nD τ sig) → Buf (Elt F) ℓ) (c : Dev nD) :
    Gen.V1 m c main_arg1 = m ((c : Thread nD τ).loc main_arg1) :=
  (Gen.V1_of m c main_arg1 (by decide)).trans rfl

/-- The host prefix leaves `main_arg2` at its launch contents. -/
theorem V1_main_arg2 (m : (ℓ : Loc nD τ sig) → Buf (Elt F) ℓ) (c : Dev nD) :
    Gen.V1 m c main_arg2 = m ((c : Thread nD τ).loc main_arg2) :=
  (Gen.V1_of m c main_arg2 (by decide)).trans rfl

/-- The host prefix leaves `main_arg3` at its launch contents. -/
theorem V1_main_arg3 (m : (ℓ : Loc nD τ sig) → Buf (Elt F) ℓ) (c : Dev nD) :
    Gen.V1 m c main_arg3 = m ((c : Thread nD τ).loc main_arg3) :=
  (Gen.V1_of m c main_arg3 (by decide)).trans rfl

/-- The host prefix leaves `main_arg4` at its launch contents. -/
theorem V1_main_arg4 (m : (ℓ : Loc nD τ sig) → Buf (Elt F) ℓ) (c : Dev nD) :
    Gen.V1 m c main_arg4 = m ((c : Thread nD τ).loc main_arg4) :=
  (Gen.V1_of m c main_arg4 (by decide)).trans rfl

/-- The host prefix leaves `main_arg5` at its launch contents. -/
theorem V1_main_arg5 (m : (ℓ : Loc nD τ sig) → Buf (Elt F) ℓ) (c : Dev nD) :
    Gen.V1 m c main_arg5 = m ((c : Thread nD τ).loc main_arg5) :=
  (Gen.V1_of m c main_arg5 (by decide)).trans rfl

/-- The host prefix leaves `main_arg6` at its launch contents. -/
theorem V1_main_arg6 (m : (ℓ : Loc nD τ sig) → Buf (Elt F) ℓ) (c : Dev nD) :
    Gen.V1 m c main_arg6 = m ((c : Thread nD τ).loc main_arg6) :=
  (Gen.V1_of m c main_arg6 (by decide)).trans rfl

/-- The host prefix leaves `main_arg7` at its launch contents. -/
theorem V1_main_arg7 (m : (ℓ : Loc nD τ sig) → Buf (Elt F) ℓ) (c : Dev nD) :
    Gen.V1 m c main_arg7 = m ((c : Thread nD τ).loc main_arg7) :=
  (Gen.V1_of m c main_arg7 (by decide)).trans rfl

/-- The host prefix leaves `main_arg8` at its launch contents. -/
theorem V1_main_arg8 (m : (ℓ : Loc nD τ sig) → Buf (Elt F) ℓ) (c : Dev nD) :
    Gen.V1 m c main_arg8 = m ((c : Thread nD τ).loc main_arg8) :=
  (Gen.V1_of m c main_arg8 (by decide)).trans rfl

/-- The host prefix leaves `main_arg9` at its launch contents. -/
theorem V1_main_arg9 (m : (ℓ : Loc nD τ sig) → Buf (Elt F) ℓ) (c : Dev nD) :
    Gen.V1 m c main_arg9 = m ((c : Thread nD τ).loc main_arg9) :=
  (Gen.V1_of m c main_arg9 (by decide)).trans rfl

/-- The host prefix leaves `main_arg10` at its launch contents. -/
theorem V1_main_arg10 (m : (ℓ : Loc nD τ sig) → Buf (Elt F) ℓ) (c : Dev nD) :
    Gen.V1 m c main_arg10 = m ((c : Thread nD τ).loc main_arg10) :=
  (Gen.V1_of m c main_arg10 (by decide)).trans rfl

/-- The host prefix leaves `main_arg11` at its launch contents. -/
theorem V1_main_arg11 (m : (ℓ : Loc nD τ sig) → Buf (Elt F) ℓ) (c : Dev nD) :
    Gen.V1 m c main_arg11 = m ((c : Thread nD τ).loc main_arg11) :=
  (Gen.V1_of m c main_arg11 (by decide)).trans rfl

/-- The host prefix leaves `main_arg12` at its launch contents. -/
theorem V1_main_arg12 (m : (ℓ : Loc nD τ sig) → Buf (Elt F) ℓ) (c : Dev nD) :
    Gen.V1 m c main_arg12 = m ((c : Thread nD τ).loc main_arg12) :=
  (Gen.V1_of m c main_arg12 (by decide)).trans rfl

/-! ## The same five at the ideal values, typed as arrays of extended reals -/

/-- `V1_main_v0` at the ideal values. -/
theorem V1_main_v0_ideal (m : (ℓ : Loc nD τ sig) → Buf (Elt Ideal) ℓ) (c : Dev nD) :
    (Gen.V1 m c main_v0 : FVec Ideal S8192x64 .f32)
      = Host.dotGeneral (F := Ideal) (φ₁ := .f32) (φ₂ := .f32) dot_S8192x64_S64x64_S8192x64_1_0_0_1_n_n none (m ((c : Thread nD τ).loc main_arg0)) (m ((c : Thread nD τ).loc main_arg8)) :=
  V1_main_v0 m c

/-- `V1_main_v1` at the ideal values. -/
theorem V1_main_v1_ideal (m : (ℓ : Loc nD τ sig) → Buf (Elt Ideal) ℓ) (c : Dev nD) :
    (Gen.V1 m c main_v1 : FVec Ideal S16384x64 .f32)
      = Host.dotGeneral (F := Ideal) (φ₁ := .f32) (φ₂ := .f32) dot_S16384x64_S64x64_S16384x64_1_0_0_1_n_n none (m ((c : Thread nD τ).loc main_arg1)) (m ((c : Thread nD τ).loc main_arg9)) :=
  V1_main_v1 m c

/-- `V1_main_v2` at the ideal values. -/
theorem V1_main_v2_ideal (m : (ℓ : Loc nD τ sig) → Buf (Elt Ideal) ℓ) (c : Dev nD) :
    (Gen.V1 m c main_v2 : FVec Ideal S16384x64 .f32)
      = Host.dotGeneral (F := Ideal) (φ₁ := .f32) (φ₂ := .f32) dot_S16384x64_S64x64_S16384x64_1_0_0_1_n_n none (m ((c : Thread nD τ).loc main_arg1)) (m ((c : Thread nD τ).loc main_arg10)) :=
  V1_main_v2 m c

/-- `V1_main_v3` at the ideal values. -/
theorem V1_main_v3_ideal (m : (ℓ : Loc nD τ sig) → Buf (Elt Ideal) ℓ) (c : Dev nD) :
    (Gen.V1 m c main_v3 : FVec Ideal S8192x64 .f32)
      = Host.dotGeneral (F := Ideal) (φ₁ := .f32) (φ₂ := .f32) dot_S8192x64_S64x64_S8192x64_1_0_0_1_n_n none (m ((c : Thread nD τ).loc main_arg2)) (m ((c : Thread nD τ).loc main_arg11)) :=
  V1_main_v3 m c

/-- `V1_main_v4` at the ideal values. -/
theorem V1_main_v4_ideal (m : (ℓ : Loc nD τ sig) → Buf (Elt Ideal) ℓ) (c : Dev nD) :
    (Gen.V1 m c main_v4 : FVec Ideal S8192x64 .f32)
      = Host.dotGeneral (F := Ideal) (φ₁ := .f32) (φ₂ := .f32) dot_S8192x64_S64x64_S8192x64_1_0_0_1_n_n none (m ((c : Thread nD τ).loc main_arg2)) (m ((c : Thread nD τ).loc main_arg12)) :=
  V1_main_v4 m c

end Cert.KernelIdeal.HostPre

end
-- ==== Proof.KiEnd.lean ====
/-
  Reading the last boundary's contents: each argument array reaches the end as launched (no host product and no
  region writes one: a region reads it through an input window, whose array ends as it was entered, or bypasses
  it), and each result array holds what its region's pipeline leaves. Also what regions 1 and 2 find on entry:
  the buffers region 0 (resp. 0 and 1) did not write, as the host products left them.
-/
import proofs.«176943_j19696720019794_2_alg».proof.Proof.KiRun
import proofs.«176943_j19696720019794_2_alg».proof.Proof.KiHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem X4_main_arg0 (c : Dev nD) : X4 m c (Proc.devRef .tc main_arg0) = m ((c : Thread nD τ).loc main_arg0) :=
  (X4_of_ne m c main_arg0 (by decide)).trans <| (X3_of_ne m c main_arg0 (by decide)).trans <| (X2_of_ne m c main_arg0 (by decide)).trans <| HostPre.V1_main_arg0 m c
theorem X4_main_arg1 (c : Dev nD) : X4 m c (Proc.devRef .tc main_arg1) = m ((c : Thread nD τ).loc main_arg1) :=
  (X4_of_ne m c main_arg1 (by decide)).trans <| (X3_of_ne m c main_arg1 (by decide)).trans <| (X2_of_ne m c main_arg1 (by decide)).trans <| HostPre.V1_main_arg1 m c
theorem X4_main_arg2 (c : Dev nD) : X4 m c (Proc.devRef .tc main_arg2) = m ((c : Thread nD τ).loc main_arg2) :=
  (X4_of_ne m c main_arg2 (by decide)).trans <| (X3_of_ne m c main_arg2 (by decide)).trans <| (X2_of_ne m c main_arg2 (by decide)).trans <| HostPre.V1_main_arg2 m c
theorem X4_main_arg3 (c : Dev nD) : X4 m c (Proc.devRef .tc main_arg3) = m ((c : Thread nD τ).loc main_arg3) :=
  (X4_of_ne m c main_arg3 (by decide)).trans <| (X3_of_ne m c main_arg3 (by decide)).trans <| ((X2_arr m c 0).trans (((dat0 (T1 m) c).arrAt_in 0 rfl _).trans (A_eq0 (T1 m) c 0))).trans <| HostPre.V1_main_arg3 m c
theorem X4_main_arg4 (c : Dev nD) : X4 m c (Proc.devRef .tc main_arg4) = m ((c : Thread nD τ).loc main_arg4) :=
  (X4_of_ne m c main_arg4 (by decide)).trans <| (X3_of_ne m c main_arg4 (by decide)).trans <| ((X2_arr m c 2).trans (((dat0 (T1 m) c).arrAt_in 2 rfl _).trans (A_eq0 (T1 m) c 2))).trans <| HostPre.V1_main_arg4 m c
theorem X4_main_arg5 (c : Dev nD) : X4 m c (Proc.devRef .tc main_arg5) = m ((c : Thread nD τ).loc main_arg5) :=
  (X4_of_ne m c main_arg5 (by decide)).trans <| ((X3_arr m c 0).trans (((dat1 (T2 m) c).arrAt_in 0 rfl _).trans (A_eq1 (T2 m) c 0))).trans <| (X2_of_ne m c main_arg5 (by decide)).trans <| HostPre.V1_main_arg5 m c
theorem X4_main_arg6 (c : Dev nD) : X4 m c (Proc.devRef .tc main_arg6) = m ((c : Thread nD τ).loc main_arg6) :=
  (X4_of_ne m c main_arg6 (by decide)).trans <| ((X3_arr m c 2).trans (((dat1 (T2 m) c).arrAt_in 2 rfl _).trans (A_eq1 (T2 m) c 2))).trans <| (X2_of_ne m c main_arg6 (by decide)).trans <| HostPre.V1_main_arg6 m c
theorem X4_main_arg7 (c : Dev nD) : X4 m c (Proc.devRef .tc main_arg7) = m ((c : Thread nD τ).loc main_arg7) :=
  ((X4_arr m c 0).trans (((dat2 (T3 m) c).arrAt_in 0 rfl _).trans (A_eq2 (T3 m) c 0))).trans <| (X3_of_ne m c main_arg7 (by decide)).trans <| (X2_of_ne m c main_arg7 (by decide)).trans <| HostPre.V1_main_arg7 m c
theorem X4_main_arg8 (c : Dev nD) : X4 m c (Proc.devRef .tc main_arg8) = m ((c : Thread nD τ).loc main_arg8) :=
  (X4_of_ne m c main_arg8 (by decide)).trans <| (X3_of_ne m c main_arg8 (by decide)).trans <| (X2_of_ne m c main_arg8 (by decide)).trans <| HostPre.V1_main_arg8 m c
theorem X4_main_arg9 (c : Dev nD) : X4 m c (Proc.devRef .tc main_arg9) = m ((c : Thread nD τ).loc main_arg9) :=
  (X4_of_ne m c main_arg9 (by decide)).trans <| (X3_of_ne m c main_arg9 (by decide)).trans <| (X2_of_ne m c main_arg9 (by decide)).trans <| HostPre.V1_main_arg9 m c
theorem X4_main_arg10 (c : Dev nD) : X4 m c (Proc.devRef .tc main_arg10) = m ((c : Thread nD τ).loc main_arg10) :=
  (X4_of_ne m c main_arg10 (by decide)).trans <| (X3_of_ne m c main_arg10 (by decide)).trans <| (X2_of_ne m c main_arg10 (by decide)).trans <| HostPre.V1_main_arg10 m c
theorem X4_main_arg11 (c : Dev nD) : X4 m c (Proc.devRef .tc main_arg11) = m ((c : Thread nD τ).loc main_arg11) :=
  (X4_of_ne m c main_arg11 (by decide)).trans <| (X3_of_ne m c main_arg11 (by decide)).trans <| (X2_of_ne m c main_arg11 (by decide)).trans <| HostPre.V1_main_arg11 m c
theorem X4_main_arg12 (c : Dev nD) : X4 m c (Proc.devRef .tc main_arg12) = m ((c : Thread nD τ).loc main_arg12) :=
  (X4_of_ne m c main_arg12 (by decide)).trans <| (X3_of_ne m c main_arg12 (by decide)).trans <| (X2_of_ne m c main_arg12 (by decide)).trans <| HostPre.V1_main_arg12 m c

/-! ## The results are what the pipelines leave -/

theorem X4_main_v5 (c : Dev nD) : X4 m c (Proc.devRef .tc main_v5) = (dat0 (T1 m) c).arrAt 4 cfg0.N :=
  (X4_of_ne m c main_v5 (by decide)).trans <| (X3_of_ne m c main_v5 (by decide)).trans <| X2_arr m c 4
theorem X4_main_v6 (c : Dev nD) : X4 m c (Proc.devRef .tc main_v6) = (dat1 (T2 m) c).arrAt 4 cfg1.N :=
  (X4_of_ne m c main_v6 (by decide)).trans <| X3_arr m c 4
theorem X4_main_v7 (c : Dev nD) : X4 m c (Proc.devRef .tc main_v7) = (dat2 (T3 m) c).arrAt 2 cfg2.N :=
  X4_arr m c 2

/-! ## What regions 1 and 2 find on entry -/

theorem T2_main_arg5 (c : Dev nD) : T2 m c main_arg5 = m ((c : Thread nD τ).loc main_arg5) :=
  (X2_of_ne m c main_arg5 (by decide)).trans (HostPre.V1_main_arg5 m c)
theorem T2_main_arg6 (c : Dev nD) : T2 m c main_arg6 = m ((c : Thread nD τ).loc main_arg6) :=
  (X2_of_ne m c main_arg6 (by decide)).trans (HostPre.V1_main_arg6 m c)
theorem T2_main_v2 (c : Dev nD) : T2 m c main_v2 = X1 m c main_v2 := X2_of_ne m c main_v2 (by decide)
theorem T2_main_v3 (c : Dev nD) : T2 m c main_v3 = X1 m c main_v3 := X2_of_ne m c main_v3 (by decide)
theorem T3_main_arg7 (c : Dev nD) : T3 m c main_arg7 = m ((c : Thread nD τ).loc main_arg7) :=
  (X3_of_ne m c main_arg7 (by decide)).trans <| (X2_of_ne m c main_arg7 (by decide)).trans (HostPre.V1_main_arg7 m c)
theorem T3_main_v4 (c : Dev nD) : T3 m c main_v4 = X1 m c main_v4 :=
  (X3_of_ne m c main_v4 (by decide)).trans (X2_of_ne m c main_v4 (by decide))

/-! ## The frame, and the run with the results named -/

variable (ρ : Dev nD → PrngReg)

/-- Every weakly fair execution of @main terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (X4_main_arg0 m c),
      (h c _ (mem_uc main_arg1 (by decide))).trans (X4_main_arg1 m c),
      (h c _ (mem_uc main_arg2 (by decide))).trans (X4_main_arg2 m c),
      (h c _ (mem_uc main_arg3 (by decide))).trans (X4_main_arg3 m c),
      (h c _ (mem_uc main_arg4 (by decide))).trans (X4_main_arg4 m c),
      (h c _ (mem_uc main_arg5 (by decide))).trans (X4_main_arg5 m c),
      (h c _ (mem_uc main_arg6 (by decide))).trans (X4_main_arg6 m c),
      (h c _ (mem_uc main_arg7 (by decide))).trans (X4_main_arg7 m c),
      (h c _ (mem_uc main_arg8 (by decide))).trans (X4_main_arg8 m c),
      (h c _ (mem_uc main_arg9 (by decide))).trans (X4_main_arg9 m c),
      (h c _ (mem_uc main_arg10 (by decide))).trans (X4_main_arg10 m c),
      (h c _ (mem_uc main_arg11 (by decide))).trans (X4_main_arg11 m c),
      (h c _ (mem_uc main_arg12 (by decide))).trans (X4_main_arg12 m c)⟩) (run_all m ρ)

/-- The same run with the three results named: each is what its region's pipeline leaves. -/
theorem run_values : θ_run defs (onTc (τ := τ) (main (F := F))) ⟨m, fun _ => 0, ρ⟩ (fun r => ∀ c : Dev nD,
      r.2.mem ((c.tc : Thread nD τ).loc main_v5) = (dat0 (T1 m) c).arrAt 4 cfg0.N
      ∧ r.2.mem ((c.tc : Thread nD τ).loc main_v6) = (dat1 (T2 m) c).arrAt 4 cfg1.N
      ∧ r.2.mem ((c.tc : Thread nD τ).loc main_v7) = (dat2 (T3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v5 (by decide))).trans (X4_main_v5 m c),
      (h c _ (mem_uc main_v6 (by decide))).trans (X4_main_v6 m c),
      (h c _ (mem_uc main_v7 (by decide))).trans (X4_main_v7 m c),
      (h c _ (mem_uc main_arg0 (by decide))).trans (X4_main_arg0 m c),
      (h c _ (mem_uc main_arg1 (by decide))).trans (X4_main_arg1 m c),
      (h c _ (mem_uc main_arg2 (by decide))).trans (X4_main_arg2 m c),
      (h c _ (mem_uc main_arg3 (by decide))).trans (X4_main_arg3 m c),
      (h c _ (mem_uc main_arg4 (by decide))).trans (X4_main_arg4 m c),
      (h c _ (mem_uc main_arg5 (by decide))).trans (X4_main_arg5 m c),
      (h c _ (mem_uc main_arg6 (by decide))).trans (X4_main_arg6 m c),
      (h c _ (mem_uc main_arg7 (by decide))).trans (X4_main_arg7 m c),
      (h c _ (mem_uc main_arg8 (by decide))).trans (X4_main_arg8 m c),
      (h c _ (mem_uc main_arg9 (by decide))).trans (X4_main_arg9 m c),
      (h c _ (mem_uc main_arg10 (by decide))).trans (X4_main_arg10 m c),
      (h c _ (mem_uc main_arg11 (by decide))).trans (X4_main_arg11 m c),
      (h c _ (mem_uc main_arg12 (by decide))).trans (X4_main_arg12 m c)⟩) (run_all m ρ)

end Cert.KernelIdeal.Hand

end
-- ==== Proof.PayIdeal.lean ====
/-
  The kernels' payloads read at one index, at the ideal (extended-real) values.

  Each payload of the three kernel functions is a pure term over the vectors loaded before it: a zero splat
  (the accumulator's initial value), the accumulator plus one or two matrix products taken into a zero
  accumulator, and the elementwise maximum with a zero splat. Read at the index (p, q) these are `0`, the
  accumulator's element plus the row-by-column sums of products, and `max · 0`.
-/
import proofs.«176943_j19696720019794_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

/-! ## The [1024,1024] × [1024,64] product: operand indices and the contraction sum

At the output index (p, q) and contraction index k the left operand is read at (p, k) and the right at (k, q);
the contraction shape has one axis of extent 1024, so the sum over it is the sum over `Fin 1024`. -/

theorem dotA_lhs_0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem dotA_lhs_1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem dotA_rhs_0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem dotA_rhs_1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The contraction sum of the [1024,1024] × [1024,64] product at (p, q), over `Fin 1024`. -/
theorem dotA_sum (L : S1024x1024.Idx → EReal) (R : S1024x64.Idx → EReal) (p : Fin 1024) (q : Fin 64) :
    ∑ c : dot_S1024x1024_S1024x64_S1024x64_1_0_0_1_n_n.contr.Idx, L (dot_S1024x1024_S1024x64_S1024x64_1_0_0_1_n_n.lhsIdx (ix2 p q) c) * R (dot_S1024x1024_S1024x64_S1024x64_1_0_0_1_n_n.rhsIdx (ix2 p q) c)
      = ∑ j : Fin 1024, L (ix2 p j) * R (ix2 j q) := by
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p q) ((contrEquiv1 dot_S1024x1024_S1024x64_S1024x64_1_0_0_1_n_n 1024 rfl rfl).symm k) = ix2 p k := funext fun a => Fin.ext (by
    match a with
    | ⟨0, _⟩ => exact dotA_lhs_0 _ _
    | ⟨1, _⟩ => exact (dotA_lhs_1 _ _).trans hk)
  have er : dot_S1024x1024_S1024x64_S1024x64_1_0_0_1_n_n.rhsIdx (ix2 p q) ((contrEquiv1 dot_S1024x1024_S1024x64_S1024x64_1_0_0_1_n_n 1024 rfl rfl).symm k) = ix2 k q := funext fun a => Fin.ext (by
    match a with
    | ⟨0, _⟩ => exact (dotA_rhs_0 _ _).trans hk
    | ⟨1, _⟩ => exact dotA_rhs_1 _ _)
  rw [el, er]

/-! ## The [1024,2048] × [2048,64] product: operand indices and the contraction sum

At the output index (p, q) and contraction index k the left operand is read at (p, k) and the right at (k, q);
the contraction shape has one axis of extent 2048, so the sum over it is the sum over `Fin 2048`. -/

theorem dotB_lhs_0 (i : S1024x64.Idx) (c : dot_S1024x2048_S2048x64_S1024x64_1_0_0_1_n_n.contr.Idx) :
    (dot_S1024x2048_S2048x64_S1024x64_1_0_0_1_n_n.lhsIdx i c 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem dotB_lhs_1 (i : S1024x64.Idx) (c : dot_S1024x2048_S2048x64_S1024x64_1_0_0_1_n_n.contr.Idx) :
    (dot_S1024x2048_S2048x64_S1024x64_1_0_0_1_n_n.lhsIdx i c 1).val = (c ⟨0, by decide⟩).val :=
  dot_S1024x2048_S2048x64_S1024x64_1_0_0_1_n_n.lhsIdx_val_of_single rfl i c
theorem dotB_rhs_0 (i : S1024x64.Idx) (c : dot_S1024x2048_S2048x64_S1024x64_1_0_0_1_n_n.contr.Idx) :
    (dot_S1024x2048_S2048x64_S1024x64_1_0_0_1_n_n.rhsIdx i c 0).val = (c ⟨0, by decide⟩).val :=
  dot_S1024x2048_S2048x64_S1024x64_1_0_0_1_n_n.rhsIdx_val_of_single rfl i c
theorem dotB_rhs_1 (i : S1024x64.Idx) (c : dot_S1024x2048_S2048x64_S1024x64_1_0_0_1_n_n.contr.Idx) :
    (dot_S1024x2048_S2048x64_S1024x64_1_0_0_1_n_n.rhsIdx i c 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The contraction sum of the [1024,2048] × [2048,64] product at (p, q), over `Fin 2048`. -/
theorem dotB_sum (L : S1024x2048.Idx → EReal) (R : S2048x64.Idx → EReal) (p : Fin 1024) (q : Fin 64) :
    ∑ c : dot_S1024x2048_S2048x64_S1024x64_1_0_0_1_n_n.contr.Idx, L (dot_S1024x2048_S2048x64_S1024x64_1_0_0_1_n_n.lhsIdx (ix2 p q) c) * R (dot_S1024x2048_S2048x64_S1024x64_1_0_0_1_n_n.rhsIdx (ix2 p q) c)
      = ∑ j : Fin 2048, L (ix2 p j) * R (ix2 j q) := by
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun a => Fin.ext (by
    match a with
    | ⟨0, _⟩ => exact dotB_lhs_0 _ _
    | ⟨1, _⟩ => exact (dotB_lhs_1 _ _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun a => Fin.ext (by
    match a with
    | ⟨0, _⟩ => exact (dotB_rhs_0 _ _).trans hk
    | ⟨1, _⟩ => exact dotB_rhs_1 _ _)
  rw [el, er]

/-! ## The zero splat and the maximum with zero -/

theorem k0_pay1_apply (p : Fin 1024) (q : Fin 64) : Gen.k0_pay1 (F := Ideal) (ix2 p q) = 0 := by
  unfold Gen.k0_pay1
  rw [shapeCast_self]
  exact Ideal.ofBits_zero_f32

theorem k0_pay3_apply (v26 : Vec Ideal S1024x64 .f32) (p : Fin 1024) (q : Fin 64) :
    Gen.k0_pay3 (F := Ideal) v26 (ix2 p q) = max (v26 (ix2 p q)) 0 := by
  unfold Gen.k0_pay3
  show max (v26 (ix2 p q)) (Ideal.ofBits .f32 0x00000000#32) = _
  rw [Ideal.ofBits_zero_f32]

theorem k1_pay1_apply (p : Fin 1024) (q : Fin 64) : Gen.k1_pay1 (F := Ideal) (ix2 p q) = 0 := by
  unfold Gen.k1_pay1
  rw [shapeCast_self]
  exact Ideal.ofBits_zero_f32

theorem k1_pay3_apply (v26 : Vec Ideal S1024x64 .f32) (p : Fin 1024) (q : Fin 64) :
    Gen.k1_pay3 (F := Ideal) v26 (ix2 p q) = max (v26 (ix2 p q)) 0 := by
  unfold Gen.k1_pay3
  show max (v26 (ix2 p q)) (Ideal.ofBits .f32 0x00000000#32) = _
  rw [Ideal.ofBits_zero_f32]

theorem k2_pay1_apply (p : Fin 1024) (q : Fin 64) : Gen.k2_pay1 (F := Ideal) (ix2 p q) = 0 := by
  unfold Gen.k2_pay1
  rw [shapeCast_self]
  exact Ideal.ofBits_zero_f32

theorem k2_pay3_apply (v18 : Vec Ideal S1024x64 .f32) (p : Fin 1024) (q : Fin 64) :
    Gen.k2_pay3 (F := Ideal) v18 (ix2 p q) = max (v18 (ix2 p q)) 0 := by
  unfold Gen.k2_pay3
  show max (v18 (ix2 p q)) (Ideal.ofBits .f32 0x00000000#32) = _
  rw [Ideal.ofBits_zero_f32]

/-! ## The accumulating payloads -/

theorem k0_pay2_apply (v8 : Vec Ideal S1024x64 .f32) (v11 : Vec Ideal S2048x64 .f32) (v13 : Vec Ideal S1024x1024 .f32)
    (v14 : Vec Ideal S1024x2048 .f32) (v15 : Vec Ideal S1024x64 .f32) (p : Fin 1024) (q : Fin 64) :
    Gen.k0_pay2 (F := Ideal) v8 v11 v13 v14 v15 (ix2 p q)
      = v15 (ix2 p q) + ((∑ j : Fin 1024, v13 (ix2 p j) * v8 (ix2 j q)) + (∑ j : Fin 2048, v14 (ix2 p j) * v11 (ix2 j q))) := by
  unfold Gen.k0_pay2
  simp only [shapeCast_self, matmul]
  rw [addf_apply, addf_apply, Ideal.matmul_constant_zero_apply, Ideal.matmul_constant_zero_apply, dotA_sum, dotB_sum]

theorem k1_pay2_apply (v8 : Vec Ideal S2048x64 .f32) (v11 : Vec Ideal S1024x64 .f32) (v13 : Vec Ideal S1024x2048 .f32)
    (v14 : Vec Ideal S1024x1024 .f32) (v15 : Vec Ideal S1024x64 .f32) (p : Fin 1024) (q : Fin 64) :
    Gen.k1_pay2 (F := Ideal) v8 v11 v13 v14 v15 (ix2 p q)
      = v15 (ix2 p q) + ((∑ j : Fin 2048, v13 (ix2 p j) * v8 (ix2 j q)) + (∑ j : Fin 1024, v14 (ix2 p j) * v11 (ix2 j q))) := by
  unfold Gen.k1_pay2
  simp only [shapeCast_self, matmul]
  rw [addf_apply, addf_apply, Ideal.matmul_constant_zero_apply, Ideal.matmul_constant_zero_apply, dotB_sum, dotA_sum]

theorem k2_pay2_apply (v6 : Vec Ideal S2048x64 .f32) (v8 : Vec Ideal S1024x2048 .f32) (v9 : Vec Ideal S1024x64 .f32)
    (p : Fin 1024) (q : Fin 64) :
    Gen.k2_pay2 (F := Ideal) v6 v8 v9 (ix2 p q)
      = v9 (ix2 p q) + ∑ j : Fin 2048, v8 (ix2 p j) * v6 (ix2 j q) := by
  unfold Gen.k2_pay2
  simp only [shapeCast_self, matmul]
  rw [addf_apply, Ideal.matmul_constant_zero_apply, dotB_sum]

end Cert.KernelIdeal.Pay

end
-- ==== Proof.KiValue0a.lean ====
/-
  Region 0 at any float instance: what each case of the body leaves, as the kernel's payloads over the loaded blocks.

  The body loads 1024 rows of the first [8192,64] operand and 2048 rows of the second from the rows the reduction
  step selects, the two whole matrix blocks and the accumulator, and stores the accumulating payload back; the first
  step reads the accumulator back from the zero splat it has just stored, the last step also stores the maximum with
  zero of the new accumulator into the output block.
-/
import proofs.«176943_j19696720019794_2_alg».proof.Proof.KiFrame0
import proofs.«176943_j19696720019794_2_alg».proof.Proof.PayIdeal
import Idealize.ShloMosaic.Lib.Pipeline.Value
import Idealize.ShloMosaic.Lib.ValueIdx
import Idealize.ShloMosaic.Lib.Tactic

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

variable {F : FTy → Type} [FloatOps F]

theorem hz : (![0, 0] : Fin 2 → Nat) = fun _ => 0 := funext fun a => by fin_cases a <;> rfl

/-- The rows of the whole [8192,64] operand the body loads at reduction step k: 1024 rows from row 1024 k. -/
abbrev slice1 (i : grid0.Coords) (x1 : Vec F S8192x64 .f32) : Vec F S1024x64 .f32 :=
  View.ld x1 (Rect.unit (s := S8192x64) (k0_off1 i) S1024x64.size (k0_off1_inb i))
/-- The rows of the whole [16384,64] operand the body loads at reduction step k: 2048 rows from row 2048 k. -/
abbrev slice2 (i : grid0.Coords) (x3 : Vec F S16384x64 .f32) : Vec F S2048x64 .f32 :=
  View.ld x3 (Rect.unit (s := S16384x64) (k0_off2 i) S2048x64.size (k0_off2_inb i))

theorem sout_B (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : ¬cond0_1 i) (x0 : Vec F S1024x1024 .f32) (x1 : Vec F S8192x64 .f32) (x2 : Vec F S1024x2048 .f32) (x3 : Vec F S16384x64 .f32) (xs0 : Vec F S1024x64 .f32) :
    sout0_B_0 c i arg2 harg2 arg3 harg3 arg4 harg4 arg5 harg5 arg6 harg6 arg7 harg7 hc0 hc1 x0 x1 x2 x3 xs0 = Gen.k0_pay2 (slice1 i x1) (slice2 i x3) x0 x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]

theorem sout_A (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : cond0_0 i) (hc1 : ¬cond0_1 i) (x0 : Vec F S1024x1024 .f32) (x1 : Vec F S8192x64 .f32) (x2 : Vec F S1024x2048 .f32) (x3 : Vec F S16384x64 .f32) :
    sout0_A_0 c i arg2 harg2 arg3 harg3 arg4 harg4 arg5 harg5 arg6 harg6 arg7 harg7 hc0 hc1 x0 x1 x2 x3 = Gen.k0_pay2 (slice1 i x1) (slice2 i x3) x0 x2 Gen.k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

theorem sout_C (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) :
    sout0_C_0 c i arg2 harg2 arg3 harg3 arg4 harg4 arg5 harg5 arg6 harg6 arg7 harg7 hc0 hc1 x0 x1 x2 x3 xs0 = Gen.k0_pay2 (slice1 i x1) (slice2 i x3) x0 x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1024x64) hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

theorem out_C (c : Dev nD) (i : grid0.Coords) (arg2 : Memref sig .tc .vmem S1024x1024 .f32) (harg2 : arg2.IsWhole) (arg3 : Memref sig .tc .vmem S8192x64 .f32) (harg3 : arg3.IsWhole)
    (arg4 : Memref sig .tc .vmem S1024x2048 .f32) (harg4 : arg4.IsWhole) (arg5 : Memref sig .tc .vmem S16384x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond0_0 i) (hc1 : cond0_1 i) (x0 : Vec F S1024x1024 .f32) (x1 : Vec F S8192x64 .f32) (x2 : Vec F S1024x2048 .f32) (x3 : Vec F S16384x64 .f32) (xs0 : Vec F S1024x64 .f32) :
    out0_C_4 c i arg2 harg2 arg3 harg3 arg4 harg4 arg5 harg5 arg6 harg6 arg7 harg7 hc0 hc1 x0 x1 x2 x3 xs0 = Gen.k0_pay3 (Gen.k0_pay2 (slice1 i x1) (slice2 i x3) x0 x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1024x64) _ hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

end Cert.KernelIdeal.Val0

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.KiValue0b.lean ====
/-
  Region 0 at the ideal values, element by element: the rows the body loads and the windows' blocks read at an index of
  the whole arrays, one reduction step as "accumulator plus the step's two block products", and, by induction on the
  step, the accumulator after point 8 I + k as the sum of the contributions of steps 0 .. k.
-/
import proofs.«176943_j19696720019794_2_alg».proof.Proof.KiFrame0
import proofs.«176943_j19696720019794_2_alg».proof.Proof.PayIdeal
import proofs.«176943_j19696720019794_2_alg».proof.Proof.KiValue0a
import proofs.«176943_j19696720019794_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

/-! ## The loaded rows at an index -/

/-- Row p of the 1024 rows loaded at reduction step k is row 1024 k + p of the whole [8192,64] operand. -/
theorem slice1_apply {F : FTy → Type} [FloatOps F] (i : grid0.Coords) (k : ℕ) (hk : k < 8) (hik : (i 1).val = k)
    (x1 : Vec F S8192x64 .f32) (p : Fin 1024) (q : Fin 64) :
    slice1 i x1 (ix2 p q) = x1 (ix2 (⟨k * 1024 + p.val, by omega⟩ : Fin 8192) q) := by
  show x1 ((Rect.unit (s := S8192x64) (k0_off1 i) S1024x64.size (k0_off1_inb i)).idx (ix2 p q)) = _
  congr 1
  funext a
  apply Fin.ext
  match a with
  | ⟨0, _⟩ =>
    show k0_off1 i 0 + 1 * p.val = k * 1024 + p.val
    rw [k0_off1_eq i]
    show 1024 * (i 1).val + 1 * p.val = k * 1024 + p.val
    omega
  | ⟨1, _⟩ =>
    show k0_off1 i 1 + 1 * q.val = q.val
    rw [k0_off1_eq i]
    show 0 + 1 * q.val = q.val
    omega

/-- Row p of the 2048 rows loaded at reduction step k is row 2048 k + p of the whole [16384,64] operand. -/
theorem slice2_apply {F : FTy → Type} [FloatOps F] (i : grid0.Coords) (k : ℕ) (hk : k < 8) (hik : (i 1).val = k)
    (x3 : Vec F S16384x64 .f32) (p : Fin 2048) (q : Fin 64) :
    slice2 i x3 (ix2 p q) = x3 (ix2 (⟨k * 2048 + p.val, by omega⟩ : Fin 16384) q) := by
  show x3 ((Rect.unit (s := S16384x64) (k0_off2 i) S2048x64.size (k0_off2_inb i)).idx (ix2 p q)) = _
  congr 1
  funext a
  apply Fin.ext
  match a with
  | ⟨0, _⟩ =>
    show k0_off2 i 0 + 1 * p.val = k * 2048 + p.val
    rw [k0_off2_eq i]
    show 2048 * (i 1).val + 1 * p.val = k * 2048 + p.val
    omega
  | ⟨1, _⟩ =>
    show k0_off2 i 1 + 1 * q.val = q.val
    rw [k0_off2_eq i]
    show 0 + 1 * q.val = q.val
    omega

/-! ## One reduction step at an index -/

/-- The accumulating payload at (p, q), at reduction step k: the accumulator's element plus the two block products,
    the right factors read from the whole operands at rows 1024 k + j and 2048 k + j. -/
theorem step_apply (i : grid0.Coords) (k : ℕ) (hk : k < 8) (hik : (i 1).val = k)
    (x0 : Vec Ideal S1024x1024 .f32) (x1 : Vec Ideal S8192x64 .f32) (x2 : Vec Ideal S1024x2048 .f32)
    (x3 : Vec Ideal S16384x64 .f32) (acc : Vec Ideal S1024x64 .f32) (p : Fin 1024) (q : Fin 64) :
    Gen.k0_pay2 (F := Ideal) (slice1 i x1) (slice2 i x3) x0 x2 acc (ix2 p q)
      = acc (ix2 p q) + ((∑ j : Fin 1024, x0 (ix2 p j) * x1 (ix2 (⟨k * 1024 + j.val, by omega⟩ : Fin 8192) q))
          + (∑ j : Fin 2048, x2 (ix2 p j) * x3 (ix2 (⟨k * 2048 + j.val, by omega⟩ : Fin 16384) q))) := by
  refine (Pay.k0_pay2_apply (slice1 i x1) (slice2 i x3) x0 x2 acc p q).trans ?_
  refine congrArg (acc (ix2 p q) + ·) (congrArg₂ (· + ·) ?_ ?_)
  · exact Finset.sum_congr rfl fun j _ => congrArg (x0 (ix2 p j) * ·) (slice1_apply i k hk hik x1 j q)
  · exact Finset.sum_congr rfl fun j _ => congrArg (x2 (ix2 p j) * ·) (slice2_apply i k hk hik x3 j q)

/-! ## The windows' blocks at an index -/

/-- The printed index maps and the reduction coordinate over the grid: point t is row block t / 8, step t mod 8. -/
theorem idx_facts : ∀ t : Fin cfg0.N, win0_0.index t (0 : Fin 2) = t.val / 8 ∧ win0_0.index t (1 : Fin 2) = t.val % 8
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = 0 ∧ win0_3.index t (1 : Fin 2) = 0
    ∧ win0_4.index t (0 : Fin 2) = t.val / 8 ∧ win0_4.index t (1 : Fin 2) = 0
    ∧ ((grid0.coords t) 1).val = t.val % 8 :=
  (by decide +kernel : ∀ t : Fin grid0.N, _)

theorem t_lt (t : Fin cfg0.N) : t.val < 64 := N_0 ▸ t.isLt

section
variable {F : FTy → Type} [FloatOps F]
variable (V : (c : Dev nD) → (b : Ref sig .tc) → Buf (Elt F) ((c : Thread nD τ).loc b))

/-- The left matrix block at point t = 8 I + k is rows 1024 I .., columns 1024 k .. of the whole [8192,8192] matrix. -/
theorem iblk0_0_apply (c : Dev nD) (t : Fin cfg0.N) (I k : ℕ) (hI : I < 8) (hk : k < 8) (ht : t.val = I * 8 + k)
    (p j : Fin 1024) :
    (iblk0 V c 0 t : Vec F S1024x1024 .f32) (ix2 p j)
      = (V c main_arg3 : S8192x8192.Idx → Elt F .f32) (ix2 (⟨I * 1024 + p.val, by omega⟩ : Fin 8192) (⟨k * 1024 + j.val, by omega⟩ : Fin 8192)) := by
  obtain ⟨e0, e1, -⟩ := idx_facts t
  unfold iblk0
  rw [View.read_apply]
  show V c main_arg3 (((cfg0.win 0).blk t).view.emb (ix2 p j)) = V c main_arg3 _
  congr 1
  funext a
  apply Fin.ext
  match a with
  | ⟨0, _⟩ => show win0_0.index t (0 : Fin 2) * 1024 + 1 * p.val = I * 1024 + p.val; rw [e0]; omega
  | ⟨1, _⟩ => show win0_0.index t (1 : Fin 2) * 1024 + 1 * j.val = k * 1024 + j.val; rw [e1]; omega

/-- The right matrix block at point t = 8 I + k is rows 1024 I .., columns 2048 k .. of the whole [8192,16384] matrix. -/
theorem iblk0_2_apply (c : Dev nD) (t : Fin cfg0.N) (I k : ℕ) (hI : I < 8) (hk : k < 8) (ht : t.val = I * 8 + k)
    (p : Fin 1024) (j : Fin 2048) :
    (iblk0 V c 2 t : Vec F S1024x2048 .f32) (ix2 p j)
      = (V c main_arg4 : S8192x16384.Idx → Elt F .f32) (ix2 (⟨I * 1024 + p.val, by omega⟩ : Fin 8192) (⟨k * 2048 + j.val, by omega⟩ : Fin 16384)) := by
  obtain ⟨-, -, -, -, e0, e1, -⟩ := idx_facts t
  unfold iblk0
  rw [View.read_apply]
  show V c main_arg4 (((cfg0.win 2).blk t).view.emb (ix2 p j)) = V c main_arg4 _
  congr 1
  funext a
  apply Fin.ext
  match a with
  | ⟨0, _⟩ => show win0_2.index t (0 : Fin 2) * 1024 + 1 * p.val = I * 1024 + p.val; rw [e0]; omega
  | ⟨1, _⟩ => show win0_2.index t (1 : Fin 2) * 2048 + 1 * j.val = k * 2048 + j.val; rw [e1]; omega

/-- The first [8192,64] operand's window is the whole array at every point. -/
theorem iblk0_1_apply (c : Dev nD) (t : Fin cfg0.N) (r : Fin 8192) (q : Fin 64) :
    (iblk0 V c 1 t : Vec F S8192x64 .f32) (ix2 r q) = (V c main_v0 : S8192x64.Idx → Elt F .f32) (ix2 r q) := by
  obtain ⟨-, -, e0, e1, -⟩ := idx_facts t
  unfold iblk0
  rw [View.read_apply]
  show V c main_v0 (((cfg0.win 1).blk t).view.emb (ix2 r q)) = V c main_v0 _
  congr 1
  funext a
  apply Fin.ext
  match a with
  | ⟨0, _⟩ => show win0_1.index t (0 : Fin 2) * 8192 + 1 * r.val = r.val; rw [e0]; omega
  | ⟨1, _⟩ => show win0_1.index t (1 : Fin 2) * 64 + 1 * q.val = q.val; rw [e1]; omega

/-- The second [16384,64] operand's window is the whole array at every point. -/
theorem iblk0_3_apply (c : Dev nD) (t : Fin cfg0.N) (r : Fin 16384) (q : Fin 64) :
    (iblk0 V c 3 t : Vec F S16384x64 .f32) (ix2 r q) = (V c main_v1 : S16384x64.Idx → Elt F .f32) (ix2 r q) := by
  obtain ⟨-, -, -, -, -, -, e0, e1, -⟩ := idx_facts t
  unfold iblk0
  rw [View.read_apply]
  show V c main_v1 (((cfg0.win 3).blk t).view.emb (ix2 r q)) = V c main_v1 _
  congr 1
  funext a
  apply Fin.ext
  match a with
  | ⟨0, _⟩ => show win0_3.index t (0 : Fin 2) * 16384 + 1 * r.val = r.val; rw [e0]; omega
  | ⟨1, _⟩ => show win0_3.index t (1 : Fin 2) * 64 + 1 * q.val = q.val; rw [e1]; omega

end

/-! ## The running sum of block products -/

/-- Reduction step k's contribution to the element (r, q): row r of the left matrix against the first operand over
    columns 1024 k .. 1024 k + 1023, plus row r of the right matrix against the second operand over columns
    2048 k .. 2048 k + 2047. -/
def blockTerm (G1 : S8192x8192.Idx → EReal) (y1 : S8192x64.Idx → EReal) (G2 : S8192x16384.Idx → EReal)
    (y2 : S16384x64.Idx → EReal) (r : Fin 8192) (q : Fin 64) (k : Fin 8) : EReal :=
  (∑ j : Fin 1024, G1 (ix2 r (⟨k.val * 1024 + j.val, by omega⟩ : Fin 8192)) * y1 (ix2 (⟨k.val * 1024 + j.val, by omega⟩ : Fin 8192) q))
    + (∑ j : Fin 2048, G2 (ix2 r (⟨k.val * 2048 + j.val, by omega⟩ : Fin 16384)) * y2 (ix2 (⟨k.val * 2048 + j.val, by omega⟩ : Fin 16384) q))

/-- The same over a natural step number, zero past the last step: what a sum over a range of steps adds up. -/
def stepTerm (G1 : S8192x8192.Idx → EReal) (y1 : S8192x64.Idx → EReal) (G2 : S8192x16384.Idx → EReal)
    (y2 : S16384x64.Idx → EReal) (r : Fin 8192) (q : Fin 64) (k : ℕ) : EReal :=
  if h : k < 8 then blockTerm G1 y1 G2 y2 r q ⟨k, h⟩ else 0

theorem stepTerm_of_lt (G1 : S8192x8192.Idx → EReal) (y1 : S8192x64.Idx → EReal) (G2 : S8192x16384.Idx → EReal)
    (y2 : S16384x64.Idx → EReal) (r : Fin 8192) (q : Fin 64) (k : ℕ) (h : k < 8) :
    stepTerm G1 y1 G2 y2 r q k = blockTerm G1 y1 G2 y2 r q ⟨k, h⟩ := dif_pos h

section
variable (V : (c : Dev nD) → (b : Ref sig .tc) → Buf (Elt Ideal) ((c : Thread nD τ).loc b))

/-- One reduction step at point t = 8 I + k over the windows' blocks: the accumulator's element plus step k's
    contribution to the element (1024 I + p, q). -/
theorem point_apply (c : Dev nD) (t : Fin cfg0.N) (I k : ℕ) (hI : I < 8) (hk : k < 8) (ht : t.val = I * 8 + k)
    (acc : Vec Ideal S1024x64 .f32) (p : Fin 1024) (q : Fin 64) :
    Gen.k0_pay2 (F := Ideal) (slice1 (grid0.coords t) (iblk0 V c 1 t)) (slice2 (grid0.coords t) (iblk0 V c 3 t))
        (iblk0 V c 0 t) (iblk0 V c 2 t) acc (ix2 p q)
      = acc (ix2 p q) + blockTerm (V c main_arg3) (V c main_v0) (V c main_arg4) (V c main_v1)
          (⟨I * 1024 + p.val, by omega⟩ : Fin 8192) q ⟨k, hk⟩ := by
  have hcoord : ((grid0.coords t) 1).val = k := by
    have := (idx_facts t).2.2.2.2.2.2.2.2.2.2
    omega
  refine (step_apply (grid0.coords t) k hk hcoord (iblk0 V c 0 t) (iblk0 V c 1 t) (iblk0 V c 2 t) (iblk0 V c 3 t) acc p q).trans ?_
  refine congrArg (acc (ix2 p q) + ·) ?_
  unfold blockTerm
  refine congrArg₂ (· + ·) ?_ ?_
  · exact Finset.sum_congr rfl fun j _ =>
      congrArg₂ (· * ·) (iblk0_0_apply V c t I k hI hk ht p j) (iblk0_1_apply V c t (⟨k * 1024 + j.val, by omega⟩ : Fin 8192) q)
  · exact Finset.sum_congr rfl fun j _ =>
      congrArg₂ (· * ·) (iblk0_2_apply V c t I k hI hk ht p j) (iblk0_3_apply V c t (⟨k * 2048 + j.val, by omega⟩ : Fin 16384) q)

theorem outsAt0_congr (c : Dev nD) (n n' : ℕ) (h : n = n') (hn : n < cfg0.N) (hn' : n' < cfg0.N) :
    outsAt0 V c n hn = outsAt0 V c n' hn' := by subst h; rfl

/-- The accumulator after point 8 I + k holds, at (p, q), the contributions of steps 0 .. k to the element
    (1024 I + p, q): by induction on the step. -/
theorem acc_eq (c : Dev nD) (I : ℕ) (hI : I < 8) : ∀ (k : ℕ) (hk : k < 8) (hn : I * 8 + k < cfg0.N) (p : Fin 1024) (q : Fin 64),
    (outsAt0 V c (I * 8 + k) hn).2 (ix2 p q)
      = ∑ k' ∈ Finset.range (k + 1), stepTerm (V c main_arg3) (V c main_v0) (V c main_arg4) (V c main_v1)
          (⟨I * 1024 + p.val, by omega⟩ : Fin 8192) q k'
  | 0, hk, hn, p, q => by
    have h0 : (⟨I * 8 + 0, hn⟩ : Fin cfg0.N).val % 8 = 0 := by dsimp only; omega
    have h1 : ¬(⟨I * 8 + 0, hn⟩ : Fin cfg0.N).val % 8 = 7 := by dsimp only; omega
    refine (congrArg (fun z => z.2 (ix2 p q)) (outsAt0_A V c ⟨I * 8 + 0, hn⟩ h0 h1)).trans ?_
    dsimp only
    refine (congrFun (sout_A (F := Ideal) c (grid0.coords ⟨I * 8 + 0, hn⟩) (ms0_0 ⟨I * 8 + 0, hn⟩) (hs0_0 ⟨I * 8 + 0, hn⟩) (ms0_1 ⟨I * 8 + 0, hn⟩) (hs0_1 ⟨I * 8 + 0, hn⟩) (ms0_2 ⟨I * 8 + 0, hn⟩) (hs0_2 ⟨I * 8 + 0, hn⟩) (ms0_3 ⟨I * 8 + 0, hn⟩) (hs0_3 ⟨I * 8 + 0, hn⟩) (ms0_4 ⟨I * 8 + 0, hn⟩) (hs0_4 ⟨I * 8 + 0, hn⟩) scM0_0 (Memref.isWhole_whole _) _ _ (iblk0 V c 0 ⟨I * 8 + 0, hn⟩) (iblk0 V c 1 ⟨I * 8 + 0, hn⟩) (iblk0 V c 2 ⟨I * 8 + 0, hn⟩) (iblk0 V c 3 ⟨I * 8 + 0, hn⟩)) (ix2 p q)).trans ?_
    refine (point_apply V c ⟨I * 8 + 0, hn⟩ I 0 hI hk rfl (Gen.k0_pay1 (F := Ideal)) p q).trans ?_
    rw [Pay.k0_pay1_apply, zero_add, Finset.sum_range_one, stepTerm_of_lt _ _ _ _ _ _ 0 hk]
  | k + 1, hk, hn, p, q => by
    have hn' : I * 8 + k < cfg0.N := by omega
    have ih := acc_eq c I hI k (by omega) hn' p q
    have h0 : ¬(⟨I * 8 + (k + 1), hn⟩ : Fin cfg0.N).val % 8 = 0 := by dsimp only; omega
    have hprev : (outsAt0 V c ((⟨I * 8 + (k + 1), hn⟩ : Fin cfg0.N).val - 1) (Nat.lt_of_le_of_lt (Nat.sub_le _ _) (⟨I * 8 + (k + 1), hn⟩ : Fin cfg0.N).isLt))
        = outsAt0 V c (I * 8 + k) hn' := outsAt0_congr V c _ _ (by dsimp only; omega) _ _
    rw [Finset.sum_range_succ, ← ih, stepTerm_of_lt _ _ _ _ _ _ (k + 1) hk]
    by_cases h1 : (⟨I * 8 + (k + 1), hn⟩ : Fin cfg0.N).val % 8 = 7
    · refine (congrArg (fun z => z.2 (ix2 p q)) (outsAt0_C V c ⟨I * 8 + (k + 1), hn⟩ h0 h1)).trans ?_
      dsimp only
      rw [hprev]
      refine (congrFun (sout_C (F := Ideal) c (grid0.coords ⟨I * 8 + (k + 1), hn⟩) (ms0_0 ⟨I * 8 + (k + 1), hn⟩) (hs0_0 ⟨I * 8 + (k + 1), hn⟩) (ms0_1 ⟨I * 8 + (k + 1), hn⟩) (hs0_1 ⟨I * 8 + (k + 1), hn⟩) (ms0_2 ⟨I * 8 + (k + 1), hn⟩) (hs0_2 ⟨I * 8 + (k + 1), hn⟩) (ms0_3 ⟨I * 8 + (k + 1), hn⟩) (hs0_3 ⟨I * 8 + (k + 1), hn⟩) (ms0_4 ⟨I * 8 + (k + 1), hn⟩) (hs0_4 ⟨I * 8 + (k + 1), hn⟩) scM0_0 (Memref.isWhole_whole _) _ _ (iblk0 V c 0 ⟨I * 8 + (k + 1), hn⟩) (iblk0 V c 1 ⟨I * 8 + (k + 1), hn⟩) (iblk0 V c 2 ⟨I * 8 + (k + 1), hn⟩) (iblk0 V c 3 ⟨I * 8 + (k + 1), hn⟩) (outsAt0 V c (I * 8 + k) hn').2) (ix2 p q)).trans ?_
      exact point_apply V c ⟨I * 8 + (k + 1), hn⟩ I (k + 1) hI hk rfl (outsAt0 V c (I * 8 + k) hn').2 p q
    · refine (congrArg (fun z => z.2 (ix2 p q)) (outsAt0_B V c ⟨I * 8 + (k + 1), hn⟩ h0 h1)).trans ?_
      dsimp only
      rw [hprev]
      refine (congrFun (sout_B (F := Ideal) c (grid0.coords ⟨I * 8 + (k + 1), hn⟩) (ms0_0 ⟨I * 8 + (k + 1), hn⟩) (hs0_0 ⟨I * 8 + (k + 1), hn⟩) (ms0_1 ⟨I * 8 + (k + 1), hn⟩) (hs0_1 ⟨I * 8 + (k + 1), hn⟩) (ms0_2 ⟨I * 8 + (k + 1), hn⟩) (hs0_2 ⟨I * 8 + (k + 1), hn⟩) (ms0_3 ⟨I * 8 + (k + 1), hn⟩) (hs0_3 ⟨I * 8 + (k + 1), hn⟩) (ms0_4 ⟨I * 8 + (k + 1), hn⟩) (hs0_4 ⟨I * 8 + (k + 1), hn⟩) scM0_0 (Memref.isWhole_whole _) _ _ (iblk0 V c 0 ⟨I * 8 + (k + 1), hn⟩) (iblk0 V c 1 ⟨I * 8 + (k + 1), hn⟩) (iblk0 V c 2 ⟨I * 8 + (k + 1), hn⟩) (iblk0 V c 3 ⟨I * 8 + (k + 1), hn⟩) (outsAt0 V c (I * 8 + k) hn').2) (ix2 p q)).trans ?_
      exact point_apply V c ⟨I * 8 + (k + 1), hn⟩ I (k + 1) hI hk rfl (outsAt0 V c (I * 8 + k) hn').2 p q

end

end Cert.KernelIdeal.Val0

end
-- ==== Proof.KiValue0c.lean ====
/-
  Region 0 at the ideal values: the output block at the flush points (the last reduction step of each row block) as the
  maximum with zero of the eight steps' contributions, the cover of the output array by the flushed blocks (row r is
  written back by the last step of row block r / 1024), and the whole output array element by element — first as the
  sum over the eight steps of the block sums, then, regrouping the blocks, as the two whole row-by-column sums.
-/
import proofs.«176943_j19696720019794_2_alg».proof.Proof.KiFrame0
import proofs.«176943_j19696720019794_2_alg».proof.Proof.PayIdeal
import proofs.«176943_j19696720019794_2_alg».proof.Proof.KiValue0b
import proofs.«176943_j19696720019794_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.Val0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

/-! ## The output block at the flush points, and the whole output array -/

/-- The element (r, q) of the result, blockwise: the maximum with zero of the eight steps' contributions. -/
def blocked (G1 : S8192x8192.Idx → EReal) (y1 : S8192x64.Idx → EReal) (G2 : S8192x16384.Idx → EReal)
    (y2 : S16384x64.Idx → EReal) : S8192x64.Idx → EReal :=
  fun i => max (∑ k : Fin 8, blockTerm G1 y1 G2 y2 (i 0) (i 1) k) 0

theorem blocked_apply (G1 : S8192x8192.Idx → EReal) (y1 : S8192x64.Idx → EReal) (G2 : S8192x16384.Idx → EReal)
    (y2 : S16384x64.Idx → EReal) (r : Fin 8192) (q : Fin 64) :
    blocked G1 y1 G2 y2 (ix2 r q) = max (∑ k : Fin 8, blockTerm G1 y1 G2 y2 r q k) 0 := rfl

section
variable (V : (c : Dev nD) → (b : Ref sig .tc) → Buf (Elt Ideal) ((c : Thread nD τ).loc b))

/-- The sum of the contributions of steps 0 .. 7 is the sum over the eight steps. -/
theorem sum_range_eight (f : ℕ → EReal) (g : Fin 8 → EReal) (h : ∀ k : Fin 8, f k.val = g k) :
    ∑ k' ∈ Finset.range 8, f k' = ∑ k : Fin 8, g k := by
  rw [← Fin.sum_univ_eq_sum_range f 8]
  exact Finset.sum_congr rfl fun k _ => h k

/-- The output block after the last step of row block I holds, at (p, q), the maximum with zero of the eight steps'
    contributions to the element (1024 I + p, q). -/
theorem out_eq (c : Dev nD) (t : Fin cfg0.N) (I : ℕ) (hI : I < 8) (ht : t.val = I * 8 + 7) (p : Fin 1024) (q : Fin 64) :
    (outsAt0 V c t.val t.isLt).1 (ix2 p q)
      = max (∑ k : Fin 8, blockTerm (V c main_arg3) (V c main_v0) (V c main_arg4) (V c main_v1)
          (⟨I * 1024 + p.val, by omega⟩ : Fin 8192) q k) 0 := by
  have hlt := t_lt t
  have h0 : ¬t.val % 8 = 0 := by omega
  have h1 : t.val % 8 = 7 := by omega
  have hn' : I * 8 + 6 < cfg0.N := by have := t.isLt; omega
  have hprev : (outsAt0 V c (t.val - 1) (Nat.lt_of_le_of_lt (Nat.sub_le _ _) t.isLt)) = outsAt0 V c (I * 8 + 6) hn' :=
    outsAt0_congr V c _ _ (by omega) _ _
  refine (congrArg (fun z => z.1 (ix2 p q)) (outsAt0_C V c t h0 h1)).trans ?_
  dsimp only
  rw [hprev]
  refine (congrFun (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk0 V c 0 t) (iblk0 V c 1 t) (iblk0 V c 2 t) (iblk0 V c 3 t) (outsAt0 V c (I * 8 + 6) hn').2) (ix2 p q)).trans ?_
  refine (Pay.k0_pay3_apply _ p q).trans ?_
  refine congrArg (max · 0) ?_
  refine (point_apply V c t I 7 hI (by omega) ht (outsAt0 V c (I * 8 + 6) hn').2 p q).trans ?_
  rw [acc_eq V c I hI 6 (by omega) hn' p q, ← stepTerm_of_lt _ _ _ _ _ _ 7 (by omega), ← Finset.sum_range_succ]
  exact sum_range_eight _ _ fun k => stepTerm_of_lt _ _ _ _ _ _ k.val k.isLt

/-- What a flushing point writes back is its block of the blockwise result. -/
theorem flushed_eq (c : Dev nD) (t : Fin cfg0.N) (hf : (cfg0.win 4).flush t = true) :
    (dat0 V c).flushed 4 t = ((cfg0.win 4).blk t).view.read (Elt Ideal)
      (blocked (V c main_arg3) (V c main_v0) (V c main_arg4) (V c main_v1)) := by
  have hlt := t_lt t
  have h7 : t.val % 8 = 7 := (flush0_4 t).mp hf
  obtain ⟨-, -, -, -, -, -, -, -, e0, e1, -⟩ := idx_facts t
  show (cfg0.win 4).cut (grid0.coords t) ((dat0 V c).after 4 t) = _
  rw [after0_4]
  funext y
  obtain ⟨p, q, rfl⟩ : ∃ (p : Fin 1024) (q : Fin 64), y = ix2 p q := ⟨y 0, y 1, eq_ix2 y⟩
  rw [View.read_apply]
  show (outsAt0 V c t.val t.isLt).1 (ix2 p q) = blocked (V c main_arg3) (V c main_v0) (V c main_arg4) (V c main_v1) (((cfg0.win 4).blk t).view.emb (ix2 p q))
  have he : ((cfg0.win 4).blk t).view.emb (ix2 p q) = ix2 (⟨t.val / 8 * 1024 + p.val, by omega⟩ : Fin 8192) q := by
    funext a
    apply Fin.ext
    match a with
    | ⟨0, _⟩ => show win0_4.index t (0 : Fin 2) * 1024 + 1 * p.val = t.val / 8 * 1024 + p.val; rw [e0]; omega
    | ⟨1, _⟩ => show win0_4.index t (1 : Fin 2) * 64 + 1 * q.val = q.val; rw [e1]; omega
  rw [he, blocked_apply]
  exact out_eq V c t (t.val / 8) (by omega) (by omega) p q

/-- An index of the output array is in point t's block iff each coordinate is in the block's range on its axis. -/
theorem mem_blk (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v5).slice (win0_4.rect t)).set ↔ _
  rw [View.set_slice_whole, Rect.mem_set_unit]
  exact Iff.rfl

/-- Row r of the output is written back by the last step of row block r / 1024. -/
theorem cover (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 64 := N_0
  refine ⟨⟨(i 0).val / 1024 * 8 + 7, by omega⟩, (flush0_4 _).mpr (by dsimp only; omega), ?_⟩
  obtain ⟨-, -, -, -, -, -, -, -, e0, e1, -⟩ := idx_facts ⟨(i 0).val / 1024 * 8 + 7, by omega⟩
  rw [mem_blk]
  intro a
  match a with
  | ⟨0, _⟩ =>
    show win0_4.index _ (0 : Fin 2) * 1024 ≤ (i 0).val ∧ (i 0).val < win0_4.index _ (0 : Fin 2) * 1024 + 1024
    rw [e0]; dsimp only; omega
  | ⟨1, _⟩ =>
    show win0_4.index _ (1 : Fin 2) * 64 ≤ (i 1).val ∧ (i 1).val < win0_4.index _ (1 : Fin 2) * 64 + 64
    rw [e1]; omega

/-- The output array after the region, blockwise. -/
theorem final0_blocked_fun (c : Dev nD) :
    (dat0 V c).arrAt 4 cfg0.N = blocked (V c main_arg3) (V c main_v0) (V c main_arg4) (V c main_v1) :=
  (dat0 V c).arrAt_eq_of_cover 4 (blocked (V c main_arg3) (V c main_v0) (V c main_arg4) (V c main_v1))
    (fun t hf => flushed_eq V c t hf) cover

/-- The element (r, q) of the output array after the region: the maximum with zero of the eight steps' block sums. -/
theorem final0_blocked (c : Dev nD) (r : Fin 8192) (q : Fin 64) :
    (dat0 V c).arrAt 4 cfg0.N (ix2 r q)
      = max (∑ k : Fin 8, blockTerm (V c main_arg3) (V c main_v0) (V c main_arg4) (V c main_v1) r q k) 0 :=
  (congrFun (final0_blocked_fun V c) (ix2 r q)).trans (blocked_apply _ _ _ _ r q)

/-- Row r of the left matrix against column q of the first operand plus row r of the right matrix against column q of
    the second: the element (r, q) of the result before the maximum with zero. -/
def rowSums (G1 : S8192x8192.Idx → EReal) (y1 : S8192x64.Idx → EReal) (G2 : S8192x16384.Idx → EReal)
    (y2 : S16384x64.Idx → EReal) (r : Fin 8192) (q : Fin 64) : EReal :=
  (∑ j : Fin 8192, G1 (ix2 r j) * y1 (ix2 j q)) + (∑ j : Fin 16384, G2 (ix2 r j) * y2 (ix2 j q))

/-- The eight steps' block sums regroup into the two whole sums. -/
theorem sum_blockTerm (G1 : S8192x8192.Idx → EReal) (y1 : S8192x64.Idx → EReal) (G2 : S8192x16384.Idx → EReal)
    (y2 : S16384x64.Idx → EReal) (r : Fin 8192) (q : Fin 64) :
    ∑ k : Fin 8, blockTerm G1 y1 G2 y2 r q k = rowSums G1 y1 G2 y2 r q := by
  unfold blockTerm rowSums
  rw [Finset.sum_add_distrib]
  refine congrArg₂ (· + ·) ?_ ?_
  · exact BlockSum.sum_blocks_8_1024 (fun j : Fin 8192 => G1 (ix2 r j) * y1 (ix2 j q))
  · exact BlockSum.sum_blocks_8_2048 (fun j : Fin 16384 => G2 (ix2 r j) * y2 (ix2 j q))

/-- The element (r, q) of the output array after the region: the maximum with zero of row r of the left matrix
    against column q of the first operand plus row r of the right matrix against column q of the second. -/
theorem final0 (c : Dev nD) (r : Fin 8192) (q : Fin 64) :
    (dat0 V c).arrAt 4 cfg0.N (ix2 r q)
      = max (rowSums (V c main_arg3) (V c main_v0) (V c main_arg4) (V c main_v1) r q) 0 :=
  (final0_blocked V c r q).trans (congrArg (fun x : EReal => max x 0) (sum_blockTerm _ _ _ _ r q))

end

end Cert.KernelIdeal.Val0

end
-- ==== Proof.RefIdeal.lean ====
/- The reference's three results as terms of variable arrays, each read at an index with literal coordinates:
   a host dot_general at (r, c) is the sum over the contracted axis of the products, an elementwise add is the sum of
   the two, and the maximum with the splat zero is the maximum with 0. -/
import proofs.«176943_j19696720019794_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx (ix2)

/-! ## A host dot_general read at (r, c) -/

/-- The host dot_general of a 8192x8192 array with a 8192x64 array, read at (r, c): the sum over the contracted axis
    of the left operand's row entry times the right operand's column entry. -/
theorem dot_8192x8192_apply (G : FVec Ideal S8192x8192 .f32) (y : FVec Ideal S8192x64 .f32) (r : Fin 8192) (c : Fin 64) :
    Host.dotGeneral (F := Ideal) dot_S8192x8192_S8192x64_S8192x64_1_0_0_1_n_n none G y (ix2 r c) = ∑ j : Fin 8192, G (ix2 r j) * y (ix2 j c) := by
  simp only [Host.dotGeneral]
  rw [Ideal.dotGeneral_apply, ← Equiv.sum_comp (ValueIdx.contrEquiv1 dot_S8192x8192_S8192x64_S8192x64_1_0_0_1_n_n 8192 rfl rfl).symm]
  refine Finset.sum_congr rfl fun k _ => ?_
  have hk := ValueIdx.contrEquiv1_symm_val dot_S8192x8192_S8192x64_S8192x64_1_0_0_1_n_n 8192 rfl rfl k
  have el : dot_S8192x8192_S8192x64_S8192x64_1_0_0_1_n_n.lhsIdx (ix2 r c) ((ValueIdx.contrEquiv1 dot_S8192x8192_S8192x64_S8192x64_1_0_0_1_n_n 8192 rfl rfl).symm k) = ix2 r k := funext fun a => Fin.ext (by
    match a with
    | ⟨0, _⟩ => exact Read.lhs_main_v1_0 _ _
    | ⟨1, _⟩ => exact (Read.lhs_main_v1_1 _ _).trans hk)
  have er : dot_S8192x8192_S8192x64_S8192x64_1_0_0_1_n_n.rhsIdx (ix2 r c) ((ValueIdx.contrEquiv1 dot_S8192x8192_S8192x64_S8192x64_1_0_0_1_n_n 8192 rfl rfl).symm k) = ix2 k c := funext fun a => Fin.ext (by
    match a with
    | ⟨0, _⟩ => exact (Read.rhs_main_v1_0 _ _).trans hk
    | ⟨1, _⟩ => exact Read.rhs_main_v1_1 _ _)
  rw [el, er]

/-- The host dot_general of a 8192x16384 array with a 16384x64 array, read at (r, c): the sum over the contracted axis
    of the left operand's row entry times the right operand's column entry. -/
theorem dot_8192x16384_apply (G : FVec Ideal S8192x16384 .f32) (y : FVec Ideal S16384x64 .f32) (r : Fin 8192) (c : Fin 64) :
    Host.dotGeneral (F := Ideal) dot_S8192x16384_S16384x64_S8192x64_1_0_0_1_n_n none G y (ix2 r c) = ∑ j : Fin 16384, G (ix2 r j) * y (ix2 j c) := by
  simp only [Host.dotGeneral]
  rw [Ideal.dotGeneral_apply, ← Equiv.sum_comp (ValueIdx.contrEquiv1 dot_S8192x16384_S16384x64_S8192x64_1_0_0_1_n_n 16384 rfl rfl).symm]
  refine Finset.sum_congr rfl fun k _ => ?_
  have hk := ValueIdx.contrEquiv1_symm_val dot_S8192x16384_S16384x64_S8192x64_1_0_0_1_n_n 16384 rfl rfl k
  have el : dot_S8192x16384_S16384x64_S8192x64_1_0_0_1_n_n.lhsIdx (ix2 r c) ((ValueIdx.contrEquiv1 dot_S8192x16384_S16384x64_S8192x64_1_0_0_1_n_n 16384 rfl rfl).symm k) = ix2 r k := funext fun a => Fin.ext (by
    match a with
    | ⟨0, _⟩ => exact Read.lhs_main_v3_0 _ _
    | ⟨1, _⟩ => exact (Read.lhs_main_v3_1 _ _).trans hk)
  have er : dot_S8192x16384_S16384x64_S8192x64_1_0_0_1_n_n.rhsIdx (ix2 r c) ((ValueIdx.contrEquiv1 dot_S8192x16384_S16384x64_S8192x64_1_0_0_1_n_n 16384 rfl rfl).symm k) = ix2 k c := funext fun a => Fin.ext (by
    match a with
    | ⟨0, _⟩ => exact (Read.rhs_main_v3_0 _ _).trans hk
    | ⟨1, _⟩ => exact Read.rhs_main_v3_1 _ _)
  rw [el, er]

/-- The host dot_general of a 16384x16384 array with a 16384x64 array, read at (r, c): the sum over the contracted axis
    of the left operand's row entry times the right operand's column entry. -/
theorem dot_16384x16384_apply (G : FVec Ideal S16384x16384 .f32) (y : FVec Ideal S16384x64 .f32) (r : Fin 16384) (c : Fin 64) :
    Host.dotGeneral (F := Ideal) dot_S16384x16384_S16384x64_S16384x64_1_0_0_1_n_n none G y (ix2 r c) = ∑ j : Fin 16384, G (ix2 r j) * y (ix2 j c) := by
  simp only [Host.dotGeneral]
  rw [Ideal.dotGeneral_apply, ← Equiv.sum_comp (ValueIdx.contrEquiv1 dot_S16384x16384_S16384x64_S16384x64_1_0_0_1_n_n 16384 rfl rfl).symm]
  refine Finset.sum_congr rfl fun k _ => ?_
  have hk := ValueIdx.contrEquiv1_symm_val dot_S16384x16384_S16384x64_S16384x64_1_0_0_1_n_n 16384 rfl rfl k
  have el : dot_S16384x16384_S16384x64_S16384x64_1_0_0_1_n_n.lhsIdx (ix2 r c) ((ValueIdx.contrEquiv1 dot_S16384x16384_S16384x64_S16384x64_1_0_0_1_n_n 16384 rfl rfl).symm k) = ix2 r k := funext fun a => Fin.ext (by
    match a with
    | ⟨0, _⟩ => exact Read.lhs_main_v6_0 _ _
    | ⟨1, _⟩ => exact (Read.lhs_main_v6_1 _ _).trans hk)
  have er : dot_S16384x16384_S16384x64_S16384x64_1_0_0_1_n_n.rhsIdx (ix2 r c) ((ValueIdx.contrEquiv1 dot_S16384x16384_S16384x64_S16384x64_1_0_0_1_n_n 16384 rfl rfl).symm k) = ix2 k c := funext fun a => Fin.ext (by
    match a with
    | ⟨0, _⟩ => exact (Read.rhs_main_v6_0 _ _).trans hk
    | ⟨1, _⟩ => exact Read.rhs_main_v6_1 _ _)
  rw [el, er]

/-- The host dot_general of a 16384x8192 array with a 8192x64 array, read at (r, c): the sum over the contracted axis
    of the left operand's row entry times the right operand's column entry. -/
theorem dot_16384x8192_apply (G : FVec Ideal S16384x8192 .f32) (y : FVec Ideal S8192x64 .f32) (r : Fin 16384) (c : Fin 64) :
    Host.dotGeneral (F := Ideal) dot_S16384x8192_S8192x64_S16384x64_1_0_0_1_n_n none G y (ix2 r c) = ∑ j : Fin 8192, G (ix2 r j) * y (ix2 j c) := by
  simp only [Host.dotGeneral]
  rw [Ideal.dotGeneral_apply, ← Equiv.sum_comp (ValueIdx.contrEquiv1 dot_S16384x8192_S8192x64_S16384x64_1_0_0_1_n_n 8192 rfl rfl).symm]
  refine Finset.sum_congr rfl fun k _ => ?_
  have hk := ValueIdx.contrEquiv1_symm_val dot_S16384x8192_S8192x64_S16384x64_1_0_0_1_n_n 8192 rfl rfl k
  have el : dot_S16384x8192_S8192x64_S16384x64_1_0_0_1_n_n.lhsIdx (ix2 r c) ((ValueIdx.contrEquiv1 dot_S16384x8192_S8192x64_S16384x64_1_0_0_1_n_n 8192 rfl rfl).symm k) = ix2 r k := funext fun a => Fin.ext (by
    match a with
    | ⟨0, _⟩ => exact Read.lhs_main_v8_0 _ _
    | ⟨1, _⟩ => exact (Read.lhs_main_v8_1 _ _).trans hk)
  have er : dot_S16384x8192_S8192x64_S16384x64_1_0_0_1_n_n.rhsIdx (ix2 r c) ((ValueIdx.contrEquiv1 dot_S16384x8192_S8192x64_S16384x64_1_0_0_1_n_n 8192 rfl rfl).symm k) = ix2 k c := funext fun a => Fin.ext (by
    match a with
    | ⟨0, _⟩ => exact (Read.rhs_main_v8_0 _ _).trans hk
    | ⟨1, _⟩ => exact Read.rhs_main_v8_1 _ _)
  rw [el, er]

/-! ## The splat zero read at an index -/

/-- The f32 zero constant broadcast over 8192x64 reads 0 everywhere. -/
theorem zero_8192x64_apply (i : S8192x64.Idx) :
    broadcastInDim S8192x64 ![] bcast_S_S8192x64 (constant (F := Ideal) S_ .f32 0x00000000#32) i = (0 : EReal) := by
  rw [broadcastInDim_apply _ bcast_S_S8192x64 _ i (fun a => a.elim0) (fun a => a.elim0)]
  exact Ideal.ofBits_zero_f32

/-- The f32 zero constant broadcast over 16384x64 reads 0 everywhere. -/
theorem zero_16384x64_apply (i : S16384x64.Idx) :
    broadcastInDim S16384x64 ![] bcast_S_S16384x64 (constant (F := Ideal) S_ .f32 0x00000000#32) i = (0 : EReal) := by
  rw [broadcastInDim_apply _ bcast_S_S16384x64 _ i (fun a => a.elim0) (fun a => a.elim0)]
  exact Ideal.ofBits_zero_f32

/-! ## The three results as terms of variable arrays -/

/-- The first result: max (G1 · y1 + G2 · y2, 0) over 8192x64. -/
def zvTerm (G1 : FVec Ideal S8192x8192 .f32) (y1 : FVec Ideal S8192x64 .f32) (G2 : FVec Ideal S8192x16384 .f32) (y2 : FVec Ideal S16384x64 .f32) :
    FVec Ideal S8192x64 .f32 :=
  maximumf (addf (Host.dotGeneral (F := Ideal) dot_S8192x8192_S8192x64_S8192x64_1_0_0_1_n_n none G1 y1) (Host.dotGeneral (F := Ideal) dot_S8192x16384_S16384x64_S8192x64_1_0_0_1_n_n none G2 y2))
    (broadcastInDim S8192x64 ![] bcast_S_S8192x64 (constant (F := Ideal) S_ .f32 0x00000000#32))

/-- The second result: max (G1 · y1 + G2 · y2, 0) over 16384x64. -/
def zeTerm (G1 : FVec Ideal S16384x16384 .f32) (y1 : FVec Ideal S16384x64 .f32) (G2 : FVec Ideal S16384x8192 .f32) (y2 : FVec Ideal S8192x64 .f32) :
    FVec Ideal S16384x64 .f32 :=
  maximumf (addf (Host.dotGeneral (F := Ideal) dot_S16384x16384_S16384x64_S16384x64_1_0_0_1_n_n none G1 y1) (Host.dotGeneral (F := Ideal) dot_S16384x8192_S8192x64_S16384x64_1_0_0_1_n_n none G2 y2))
    (broadcastInDim S16384x64 ![] bcast_S_S16384x64 (constant (F := Ideal) S_ .f32 0x00000000#32))

/-- The third result: max (G · y, 0) over 8192x64. -/
def zfTerm (G : FVec Ideal S8192x8192 .f32) (y : FVec Ideal S8192x64 .f32) : FVec Ideal S8192x64 .f32 :=
  maximumf (Host.dotGeneral (F := Ideal) dot_S8192x8192_S8192x64_S8192x64_1_0_0_1_n_n none G y) (broadcastInDim S8192x64 ![] bcast_S_S8192x64 (constant (F := Ideal) S_ .f32 0x00000000#32))

/-- The third result at (r, c): the maximum of the row-by-column sum with 0. -/
theorem zfTerm_apply (G : FVec Ideal S8192x8192 .f32) (y : FVec Ideal S8192x64 .f32) (r : Fin 8192) (c : Fin 64) :
    zfTerm G y (ix2 r c) = max (∑ j : Fin 8192, G (ix2 r j) * y (ix2 j c)) 0 := by
  unfold zfTerm
  rw [ValueIdx.maximumf_apply, dot_8192x8192_apply, zero_8192x64_apply]

/-- The first result at (r, c): the maximum of the sum of the two row-by-column sums with 0. -/
theorem zvTerm_apply (G1 : FVec Ideal S8192x8192 .f32) (y1 : FVec Ideal S8192x64 .f32) (G2 : FVec Ideal S8192x16384 .f32) (y2 : FVec Ideal S16384x64 .f32)
    (r : Fin 8192) (c : Fin 64) :
    zvTerm G1 y1 G2 y2 (ix2 r c)
      = max ((∑ j : Fin 8192, G1 (ix2 r j) * y1 (ix2 j c)) + (∑ j : Fin 16384, G2 (ix2 r j) * y2 (ix2 j c))) 0 := by
  unfold zvTerm
  rw [ValueIdx.maximumf_apply, ValueIdx.addf_apply, dot_8192x8192_apply, dot_8192x16384_apply, zero_8192x64_apply]

/-- The second result at (r, c): the maximum of the sum of the two row-by-column sums with 0. -/
theorem zeTerm_apply (G1 : FVec Ideal S16384x16384 .f32) (y1 : FVec Ideal S16384x64 .f32) (G2 : FVec Ideal S16384x8192 .f32) (y2 : FVec Ideal S8192x64 .f32)
    (r : Fin 16384) (c : Fin 64) :
    zeTerm G1 y1 G2 y2 (ix2 r c)
      = max ((∑ j : Fin 16384, G1 (ix2 r j) * y1 (ix2 j c)) + (∑ j : Fin 8192, G2 (ix2 r j) * y2 (ix2 j c))) 0 := by
  unfold zeTerm
  rw [ValueIdx.maximumf_apply, ValueIdx.addf_apply, dot_16384x16384_apply, dot_16384x8192_apply, zero_16384x64_apply]

/-! ## The program's result terms are these -/

/-- The composed term of the first result, over any argument arrays, is zvTerm with the two small projections
    kept as whole arrays. -/
theorem zvTerm_eq (x0 : FVec Ideal S8192x64 .f32) (x1 : FVec Ideal S16384x64 .f32) (x3 : FVec Ideal S8192x8192 .f32) (x4 : FVec Ideal S8192x16384 .f32) (x8 x9 : FVec Ideal S64x64 .f32) :
    maximumf (addf (Host.dotGeneral dot_S8192x8192_S8192x64_S8192x64_1_0_0_1_n_n none (x3) (Host.dotGeneral dot_S8192x64_S64x64_S8192x64_1_0_0_1_n_n none (x0) (x8))) (Host.dotGeneral dot_S8192x16384_S16384x64_S8192x64_1_0_0_1_n_n none (x4) (Host.dotGeneral dot_S16384x64_S64x64_S16384x64_1_0_0_1_n_n none (x1) (x9)))) (broadcastInDim S8192x64 ![] bcast_S_S8192x64 (constant S_ .f32 0x00000000#32))
      = zvTerm x3 (Host.dotGeneral (F := Ideal) dot_S8192x64_S64x64_S8192x64_1_0_0_1_n_n none x0 x8) x4 (Host.dotGeneral (F := Ideal) dot_S16384x64_S64x64_S16384x64_1_0_0_1_n_n none x1 x9) := rfl

/-- The composed term of the second result, over any argument arrays, is zeTerm. -/
theorem zeTerm_eq (x1 : FVec Ideal S16384x64 .f32) (x2 : FVec Ideal S8192x64 .f32) (x5 : FVec Ideal S16384x16384 .f32) (x6 : FVec Ideal S16384x8192 .f32) (x10 x11 : FVec Ideal S64x64 .f32) :
    maximumf (addf (Host.dotGeneral dot_S16384x16384_S16384x64_S16384x64_1_0_0_1_n_n none (x5) (Host.dotGeneral dot_S16384x64_S64x64_S16384x64_1_0_0_1_n_n none (x1) (x10))) (Host.dotGeneral dot_S16384x8192_S8192x64_S16384x64_1_0_0_1_n_n none (x6) (Host.dotGeneral dot_S8192x64_S64x64_S8192x64_1_0_0_1_n_n none (x2) (x11)))) (broadcastInDim S16384x64 ![] bcast_S_S16384x64 (constant S_ .f32 0x00000000#32))
      = zeTerm x5 (Host.dotGeneral (F := Ideal) dot_S16384x64_S64x64_S16384x64_1_0_0_1_n_n none x1 x10) x6 (Host.dotGeneral (F := Ideal) dot_S8192x64_S64x64_S8192x64_1_0_0_1_n_n none x2 x11) := rfl

/-- The composed term of the third result, over any argument arrays, is zfTerm. -/
theorem zfTerm_eq (x2 : FVec Ideal S8192x64 .f32) (x7 : FVec Ideal S8192x8192 .f32) (x12 : FVec Ideal S64x64 .f32) :
    maximumf (Host.dotGeneral dot_S8192x8192_S8192x64_S8192x64_1_0_0_1_n_n none (x7) (Host.dotGeneral dot_S8192x64_S64x64_S8192x64_1_0_0_1_n_n none (x2) (x12))) (broadcastInDim S8192x64 ![] bcast_S_S8192x64 (constant S_ .f32 0x00000000#32))
      = zfTerm x7 (Host.dotGeneral (F := Ideal) dot_S8192x64_S64x64_S8192x64_1_0_0_1_n_n none x2 x12) := rfl

/-- The same three through the per-operation values: each result's value is the term with the projections' values. -/
theorem val_main_v12_eq_zvTerm (x0 : FVec Ideal S8192x64 .f32) (x1 : FVec Ideal S16384x64 .f32) (x3 : FVec Ideal S8192x8192 .f32) (x4 : FVec Ideal S8192x16384 .f32) (x8 x9 : FVec Ideal S64x64 .f32) :
    Read.val_main_v12 (F := Ideal) x0 x1 x3 x4 x8 x9 = zvTerm x3 (Read.val_main_v0 (F := Ideal) x0 x8) x4 (Read.val_main_v2 (F := Ideal) x1 x9) := rfl
theorem val_main_v13_eq_zeTerm (x1 : FVec Ideal S16384x64 .f32) (x2 : FVec Ideal S8192x64 .f32) (x5 : FVec Ideal S16384x16384 .f32) (x6 : FVec Ideal S16384x8192 .f32) (x10 x11 : FVec Ideal S64x64 .f32) :
    Read.val_main_v13 (F := Ideal) x1 x2 x5 x6 x10 x11 = zeTerm x5 (Read.val_main_v5 (F := Ideal) x1 x10) x6 (Read.val_main_v7 (F := Ideal) x2 x11) := rfl
theorem val_main_v14_eq_zfTerm (x2 : FVec Ideal S8192x64 .f32) (x7 : FVec Ideal S8192x8192 .f32) (x12 : FVec Ideal S64x64 .f32) :
    Read.val_main_v14 (F := Ideal) x2 x7 x12 = zfTerm x7 (Read.val_main_v10 (F := Ideal) x2 x12) := rfl

/-! ## The same, at the launch contents of a device's argument buffers -/

/-- The run's term for the first result, at a memory m and a device c, is zvTerm of the launch contents. -/
theorem run_zv (m : (ℓ : Loc nD τ sig) → Buf (Elt Ideal) ℓ) (c : Dev nD) :
    maximumf (addf (Host.dotGeneral (F := Ideal) (φ₁ := .f32) (φ₂ := .f32) dot_S8192x8192_S8192x64_S8192x64_1_0_0_1_n_n none (m ((c.tc : Thread nD τ).loc main_arg3)) (Host.dotGeneral (F := Ideal) (φ₁ := .f32) (φ₂ := .f32) dot_S8192x64_S64x64_S8192x64_1_0_0_1_n_n none (m ((c.tc : Thread nD τ).loc main_arg0)) (m ((c.tc : Thread nD τ).loc main_arg8)))) (Host.dotGeneral (F := Ideal) (φ₁ := .f32) (φ₂ := .f32) dot_S8192x16384_S16384x64_S8192x64_1_0_0_1_n_n none (m ((c.tc : Thread nD τ).loc main_arg4)) (Host.dotGeneral (F := Ideal) (φ₁ := .f32) (φ₂ := .f32) dot_S16384x64_S64x64_S16384x64_1_0_0_1_n_n none (m ((c.tc : Thread nD τ).loc main_arg1)) (m ((c.tc : Thread nD τ).loc main_arg9))))) (broadcastInDim S8192x64 ![] bcast_S_S8192x64 (constant (F := Ideal) S_ .f32 0x00000000#32))
      = zvTerm (m ((c.tc : Thread nD τ).loc main_arg3)) (Host.dotGeneral (F := Ideal) (φ₁ := .f32) (φ₂ := .f32) dot_S8192x64_S64x64_S8192x64_1_0_0_1_n_n none (m ((c.tc : Thread nD τ).loc main_arg0)) (m ((c.tc : Thread nD τ).loc main_arg8))) (m ((c.tc : Thread nD τ).loc main_arg4)) (Host.dotGeneral (F := Ideal) (φ₁ := .f32) (φ₂ := .f32) dot_S16384x64_S64x64_S16384x64_1_0_0_1_n_n none (m ((c.tc : Thread nD τ).loc main_arg1)) (m ((c.tc : Thread nD τ).loc main_arg9))) := rfl

/-- The run's term for the second result, at a memory m and a device c, is zeTerm of the launch contents. -/
theorem run_ze (m : (ℓ : Loc nD τ sig) → Buf (Elt Ideal) ℓ) (c : Dev nD) :
    maximumf (addf (Host.dotGeneral (F := Ideal) (φ₁ := .f32) (φ₂ := .f32) dot_S16384x16384_S16384x64_S16384x64_1_0_0_1_n_n none (m ((c.tc : Thread nD τ).loc main_arg5)) (Host.dotGeneral (F := Ideal) (φ₁ := .f32) (φ₂ := .f32) dot_S16384x64_S64x64_S16384x64_1_0_0_1_n_n none (m ((c.tc : Thread nD τ).loc main_arg1)) (m ((c.tc : Thread nD τ).loc main_arg10)))) (Host.dotGeneral (F := Ideal) (φ₁ := .f32) (φ₂ := .f32) dot_S16384x8192_S8192x64_S16384x64_1_0_0_1_n_n none (m ((c.tc : Thread nD τ).loc main_arg6)) (Host.dotGeneral (F := Ideal) (φ₁ := .f32) (φ₂ := .f32) dot_S8192x64_S64x64_S8192x64_1_0_0_1_n_n none (m ((c.tc : Thread nD τ).loc main_arg2)) (m ((c.tc : Thread nD τ).loc main_arg11))))) (broadcastInDim S16384x64 ![] bcast_S_S16384x64 (constant (F := Ideal) S_ .f32 0x00000000#32))
      = zeTerm (m ((c.tc : Thread nD τ).loc main_arg5)) (Host.dotGeneral (F := Ideal) (φ₁ := .f32) (φ₂ := .f32) dot_S16384x64_S64x64_S16384x64_1_0_0_1_n_n none (m ((c.tc : Thread nD τ).loc main_arg1)) (m ((c.tc : Thread nD τ).loc main_arg10))) (m ((c.tc : Thread nD τ).loc main_arg6)) (Host.dotGeneral (F := Ideal) (φ₁ := .f32) (φ₂ := .f32) dot_S8192x64_S64x64_S8192x64_1_0_0_1_n_n none (m ((c.tc : Thread nD τ).loc main_arg2)) (m ((c.tc : Thread nD τ).loc main_arg11))) := rfl

/-- The run's term for the third result, at a memory m and a device c, is zfTerm of the launch contents. -/
theorem run_zf (m : (ℓ : Loc nD τ sig) → Buf (Elt Ideal) ℓ) (c : Dev nD) :
    maximumf (Host.dotGeneral (F := Ideal) (φ₁ := .f32) (φ₂ := .f32) dot_S8192x8192_S8192x64_S8192x64_1_0_0_1_n_n none (m ((c.tc : Thread nD τ).loc main_arg7)) (Host.dotGeneral (F := Ideal) (φ₁ := .f32) (φ₂ := .f32) dot_S8192x64_S64x64_S8192x64_1_0_0_1_n_n none (m ((c.tc : Thread nD τ).loc main_arg2)) (m ((c.tc : Thread nD τ).loc main_arg12)))) (broadcastInDim S8192x64 ![] bcast_S_S8192x64 (constant (F := Ideal) S_ .f32 0x00000000#32))
      = zfTerm (m ((c.tc : Thread nD τ).loc main_arg7)) (Host.dotGeneral (F := Ideal) (φ₁ := .f32) (φ₂ := .f32) dot_S8192x64_S64x64_S8192x64_1_0_0_1_n_n none (m ((c.tc : Thread nD τ).loc main_arg2)) (m ((c.tc : Thread nD τ).loc main_arg12))) := rfl

end Cert.ReferenceIdeal.RefValue

end
-- ==== Proof.KiAlg0.lean ====
/-
  The first result, at the exact values: the array the first fused kernel's pipeline leaves is the reference's term.
  Index by index both are max(sum_j G1[r,j] y1[j,q] + sum_j G2[r,j] y2[j,q], 0), where y1, y2 are the two host
  products x W, the same terms on both sides: the kernel accumulates the two row sums block by block over the
  eight reduction steps starting from zero, and addition of extended reals is a commutative monoid, so the blocked
  sums are the whole sums.
-/
import proofs.«176943_j19696720019794_2_alg».proof.Proof.KiEnd
import proofs.«176943_j19696720019794_2_alg».proof.Proof.KiValue0c
import proofs.«176943_j19696720019794_2_alg».proof.Proof.RefIdeal

noncomputable section

namespace Cert.KernelIdeal.Alg

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (zvTerm zeTerm zfTerm zvTerm_apply zeTerm_apply zfTerm_apply)

variable (m : (ℓ : Loc nD τ sig) → Buf (Elt Ideal) ℓ)

/-- Region 0's result array is the reference's first term of the launch contents. -/
theorem res0 (c : Dev nD) :
    (dat0 (F := Ideal) (T1 m) c).arrAt 4 cfg0.N
      = zvTerm (m ((c : Thread nD τ).loc main_arg3)) (X1 m c main_v0) (m ((c : Thread nD τ).loc main_arg4)) (X1 m c main_v1) := by
  funext i
  obtain ⟨r, q, rfl⟩ : ∃ (r : Fin 8192) (q : Fin 64), i = ix2 r q := ⟨i 0, i 1, eq_ix2 i⟩
  refine (Val0.final0 (T1 m) c r q).trans ?_
  rw [zvTerm_apply]
  unfold Val0.rowSums
  rw [show (T1 m c main_arg3) = m ((c : Thread nD τ).loc main_arg3) from HostPre.V1_main_arg3 m c,
    show (T1 m c main_arg4) = m ((c : Thread nD τ).loc main_arg4) from HostPre.V1_main_arg4 m c]

end Cert.KernelIdeal.Alg

end
-- ==== Proof.KiValue1a.lean ====
/-
  Region 1 at any float instance: what each case of the body leaves, as the kernel's payloads over the loaded blocks.

  The body loads 2048 rows of the first [16384,64] operand and 1024 rows of the second from the rows the reduction
  step selects, the two whole matrix blocks and the accumulator, and stores the accumulating payload back; the first
  step reads the accumulator back from the zero splat it has just stored, the last step also stores the maximum with
  zero of the new accumulator into the output block.
-/
import proofs.«176943_j19696720019794_2_alg».proof.Proof.KiFrame1
import proofs.«176943_j19696720019794_2_alg».proof.Proof.PayIdeal
import Idealize.ShloMosaic.Lib.Pipeline.Value
import Idealize.ShloMosaic.Lib.ValueIdx
import Idealize.ShloMosaic.Lib.Tactic

set_option maxRecDepth 16384

noncomputable section

namespace Cert.KernelIdeal.Val1

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

variable {F : FTy → Type} [FloatOps F]

theorem hz : (![0, 0] : Fin 2 → Nat) = fun _ => 0 := funext fun a => by fin_cases a <;> rfl

/-- The rows of the whole [16384,64] operand the body loads at reduction step k: 2048 rows from row 2048 k. -/
abbrev slice1 (i : grid1.Coords) (x1 : Vec F S16384x64 .f32) : Vec F S2048x64 .f32 :=
  View.ld x1 (Rect.unit (s := S16384x64) (k1_off1 i) S2048x64.size (k1_off1_inb i))
/-- The rows of the whole [8192,64] operand the body loads at reduction step k: 1024 rows from row 1024 k. -/
abbrev slice2 (i : grid1.Coords) (x3 : Vec F S8192x64 .f32) : Vec F S1024x64 .f32 :=
  View.ld x3 (Rect.unit (s := S8192x64) (k1_off2 i) S1024x64.size (k1_off2_inb i))

theorem sout_B (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : ¬cond1_1 i) (x0 : Vec F S1024x2048 .f32) (x1 : Vec F S16384x64 .f32) (x2 : Vec F S1024x1024 .f32) (x3 : Vec F S8192x64 .f32) (xs0 : Vec F S1024x64 .f32) :
    sout1_B_0 c i arg2 harg2 arg3 harg3 arg4 harg4 arg5 harg5 arg6 harg6 arg7 harg7 hc0 hc1 x0 x1 x2 x3 xs0 = Gen.k1_pay2 (slice1 i x1) (slice2 i x3) x0 x2 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  rw [View.canon_unit_zero hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]

theorem sout_A (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : cond1_0 i) (hc1 : ¬cond1_1 i) (x0 : Vec F S1024x2048 .f32) (x1 : Vec F S16384x64 .f32) (x2 : Vec F S1024x1024 .f32) (x3 : Vec F S8192x64 .f32) :
    sout1_A_0 c i arg2 harg2 arg3 harg3 arg4 harg4 arg5 harg5 arg6 harg6 arg7 harg7 hc0 hc1 x0 x1 x2 x3 = Gen.k1_pay2 (slice1 i x1) (slice2 i x3) x0 x2 Gen.k1_pay1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

theorem sout_C (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) :
    sout1_C_0 c i arg2 harg2 arg3 harg3 arg4 harg4 arg5 harg5 arg6 harg6 arg7 harg7 hc0 hc1 x0 x1 x2 x3 xs0 = Gen.k1_pay2 (slice1 i x1) (slice2 i x3) x0 x2 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S1024x64) hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

theorem out_C (c : Dev nD) (i : grid1.Coords) (arg2 : Memref sig .tc .vmem S1024x2048 .f32) (harg2 : arg2.IsWhole) (arg3 : Memref sig .tc .vmem S16384x64 .f32) (harg3 : arg3.IsWhole)
    (arg4 : Memref sig .tc .vmem S1024x1024 .f32) (harg4 : arg4.IsWhole) (arg5 : Memref sig .tc .vmem S8192x64 .f32) (harg5 : arg5.IsWhole)
    (arg6 : Memref sig .tc .vmem S1024x64 .f32) (harg6 : arg6.IsWhole) (arg7 : Memref sig .tc .vmem S1024x64 .f32) (harg7 : arg7.IsWhole)
    (hc0 : ¬cond1_0 i) (hc1 : cond1_1 i) (x0 : Vec F S1024x2048 .f32) (x1 : Vec F S16384x64 .f32) (x2 : Vec F S1024x1024 .f32) (x3 : Vec F S8192x64 .f32) (xs0 : Vec F S1024x64 .f32) :
    out1_C_4 c i arg2 harg2 arg3 harg3 arg4 harg4 arg5 harg5 arg6 harg6 arg7 harg7 hc0 hc1 x0 x1 x2 x3 xs0 = Gen.k1_pay3 (Gen.k1_pay2 (slice1 i x1) (slice2 i x3) x0 x2 xs0) := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz, View.readCov_unit_zero (S := S1024x64) _ hz]
  simp only [View.readAt_eq_ld, harg2.read_unread, harg3.read_unread, harg4.read_unread, harg5.read_unread, harg7.read_unread, View.ld_unit_zero (S := S1024x1024) hz, View.ld_unit_zero (S := S1024x2048) hz, View.ld_unit_zero (S := S1024x64) hz]
  rfl

end Cert.KernelIdeal.Val1

end
-- ==== Proof.KiValue1b.lean ====
/-
  Region 1 at the ideal values, element by element: the rows the body loads and the windows' blocks read at an index of
  the whole arrays, one reduction step as "accumulator plus the step's two block products", and, by induction on the
  step, the accumulator after point 8 I + k as the sum of the contributions of steps 0 .. k.
-/
import proofs.«176943_j19696720019794_2_alg».proof.Proof.KiFrame1
import proofs.«176943_j19696720019794_2_alg».proof.Proof.PayIdeal
import proofs.«176943_j19696720019794_2_alg».proof.Proof.KiValue1a
import proofs.«176943_j19696720019794_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.Val1

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

/-! ## The loaded rows at an index -/

/-- Row p of the 2048 rows loaded at reduction step k is row 2048 k + p of the whole [16384,64] operand. -/
theorem slice1_apply {F : FTy → Type} [FloatOps F] (i : grid1.Coords) (k : ℕ) (hk : k < 8) (hik : (i 1).val = k)
    (x1 : Vec F S16384x64 .f32) (p : Fin 2048) (q : Fin 64) :
    slice1 i x1 (ix2 p q) = x1 (ix2 (⟨k * 2048 + p.val, by omega⟩ : Fin 16384) q) := by
  show x1 ((Rect.unit (s := S16384x64) (k1_off1 i) S2048x64.size (k1_off1_inb i)).idx (ix2 p q)) = _
  congr 1
  funext a
  apply Fin.ext
  match a with
  | ⟨0, _⟩ =>
    show k1_off1 i 0 + 1 * p.val = k * 2048 + p.val
    rw [k1_off1_eq i]
    show 2048 * (i 1).val + 1 * p.val = k * 2048 + p.val
    omega
  | ⟨1, _⟩ =>
    show k1_off1 i 1 + 1 * q.val = q.val
    rw [k1_off1_eq i]
    show 0 + 1 * q.val = q.val
    omega

/-- Row p of the 1024 rows loaded at reduction step k is row 1024 k + p of the whole [8192,64] operand. -/
theorem slice2_apply {F : FTy → Type} [FloatOps F] (i : grid1.Coords) (k : ℕ) (hk : k < 8) (hik : (i 1).val = k)
    (x3 : Vec F S8192x64 .f32) (p : Fin 1024) (q : Fin 64) :
    slice2 i x3 (ix2 p q) = x3 (ix2 (⟨k * 1024 + p.val, by omega⟩ : Fin 8192) q) := by
  show x3 ((Rect.unit (s := S8192x64) (k1_off2 i) S1024x64.size (k1_off2_inb i)).idx (ix2 p q)) = _
  congr 1
  funext a
  apply Fin.ext
  match a with
  | ⟨0, _⟩ =>
    show k1_off2 i 0 + 1 * p.val = k * 1024 + p.val
    rw [k1_off2_eq i]
    show 1024 * (i 1).val + 1 * p.val = k * 1024 + p.val
    omega
  | ⟨1, _⟩ =>
    show k1_off2 i 1 + 1 * q.val = q.val
    rw [k1_off2_eq i]
    show 0 + 1 * q.val = q.val
    omega

/-! ## One reduction step at an index -/

/-- The accumulating payload at (p, q), at reduction step k: the accumulator's element plus the two block products,
    the right factors read from the whole operands at rows 2048 k + j and 1024 k + j. -/
theorem step_apply (i : grid1.Coords) (k : ℕ) (hk : k < 8) (hik : (i 1).val = k)
    (x0 : Vec Ideal S1024x2048 .f32) (x1 : Vec Ideal S16384x64 .f32) (x2 : Vec Ideal S1024x1024 .f32)
    (x3 : Vec Ideal S8192x64 .f32) (acc : Vec Ideal S1024x64 .f32) (p : Fin 1024) (q : Fin 64) :
    Gen.k1_pay2 (F := Ideal) (slice1 i x1) (slice2 i x3) x0 x2 acc (ix2 p q)
      = acc (ix2 p q) + ((∑ j : Fin 2048, x0 (ix2 p j) * x1 (ix2 (⟨k * 2048 + j.val, by omega⟩ : Fin 16384) q))
          + (∑ j : Fin 1024, x2 (ix2 p j) * x3 (ix2 (⟨k * 1024 + j.val, by omega⟩ : Fin 8192) q))) := by
  refine (Pay.k1_pay2_apply (slice1 i x1) (slice2 i x3) x0 x2 acc p q).trans ?_
  refine congrArg (acc (ix2 p q) + ·) (congrArg₂ (· + ·) ?_ ?_)
  · exact Finset.sum_congr rfl fun j _ => congrArg (x0 (ix2 p j) * ·) (slice1_apply i k hk hik x1 j q)
  · exact Finset.sum_congr rfl fun j _ => congrArg (x2 (ix2 p j) * ·) (slice2_apply i k hk hik x3 j q)

/-! ## The windows' blocks at an index -/

/-- The printed index maps and the reduction coordinate over the grid: point t is row block t / 8, step t mod 8. -/
theorem idx_facts : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = t.val / 8 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0
    ∧ ((grid1.coords t) 1).val = t.val % 8 :=
  (by decide +kernel : ∀ t : Fin grid1.N, _)

theorem t_lt (t : Fin cfg1.N) : t.val < 128 := N_1 ▸ t.isLt

section
variable {F : FTy → Type} [FloatOps F]
variable (V : (c : Dev nD) → (b : Ref sig .tc) → Buf (Elt F) ((c : Thread nD τ).loc b))

/-- The left matrix block at point t = 8 I + k is rows 1024 I .., columns 2048 k .. of the whole [16384,16384] matrix. -/
theorem iblk1_0_apply (c : Dev nD) (t : Fin cfg1.N) (I k : ℕ) (hI : I < 16) (hk : k < 8) (ht : t.val = I * 8 + k)
    (p : Fin 1024) (j : Fin 2048) :
    (iblk1 V c 0 t : Vec F S1024x2048 .f32) (ix2 p j)
      = (V c main_arg5 : S16384x16384.Idx → Elt F .f32) (ix2 (⟨I * 1024 + p.val, by omega⟩ : Fin 16384) (⟨k * 2048 + j.val, by omega⟩ : Fin 16384)) := by
  obtain ⟨e0, e1, -⟩ := idx_facts t
  unfold iblk1
  rw [View.read_apply]
  show V c main_arg5 (((cfg1.win 0).blk t).view.emb (ix2 p j)) = V c main_arg5 _
  congr 1
  funext a
  apply Fin.ext
  match a with
  | ⟨0, _⟩ => show win1_0.index t (0 : Fin 2) * 1024 + 1 * p.val = I * 1024 + p.val; rw [e0]; omega
  | ⟨1, _⟩ => show win1_0.index t (1 : Fin 2) * 2048 + 1 * j.val = k * 2048 + j.val; rw [e1]; omega

/-- The right matrix block at point t = 8 I + k is rows 1024 I .., columns 1024 k .. of the whole [16384,8192] matrix. -/
theorem iblk1_2_apply (c : Dev nD) (t : Fin cfg1.N) (I k : ℕ) (hI : I < 16) (hk : k < 8) (ht : t.val = I * 8 + k)
    (p : Fin 1024) (j : Fin 1024) :
    (iblk1 V c 2 t : Vec F S1024x1024 .f32) (ix2 p j)
      = (V c main_arg6 : S16384x8192.Idx → Elt F .f32) (ix2 (⟨I * 1024 + p.val, by omega⟩ : Fin 16384) (⟨k * 1024 + j.val, by omega⟩ : Fin 8192)) := by
  obtain ⟨-, -, -, -, e0, e1, -⟩ := idx_facts t
  unfold iblk1
  rw [View.read_apply]
  show V c main_arg6 (((cfg1.win 2).blk t).view.emb (ix2 p j)) = V c main_arg6 _
  congr 1
  funext a
  apply Fin.ext
  match a with
  | ⟨0, _⟩ => show win1_2.index t (0 : Fin 2) * 1024 + 1 * p.val = I * 1024 + p.val; rw [e0]; omega
  | ⟨1, _⟩ => show win1_2.index t (1 : Fin 2) * 1024 + 1 * j.val = k * 1024 + j.val; rw [e1]; omega

/-- The first [16384,64] operand's window is the whole array at every point. -/
theorem iblk1_1_apply (c : Dev nD) (t : Fin cfg1.N) (r : Fin 16384) (q : Fin 64) :
    (iblk1 V c 1 t : Vec F S16384x64 .f32) (ix2 r q) = (V c main_v2 : S16384x64.Idx → Elt F .f32) (ix2 r q) := by
  obtain ⟨-, -, e0, e1, -⟩ := idx_facts t
  unfold iblk1
  rw [View.read_apply]
  show V c main_v2 (((cfg1.win 1).blk t).view.emb (ix2 r q)) = V c main_v2 _
  congr 1
  funext a
  apply Fin.ext
  match a with
  | ⟨0, _⟩ => show win1_1.index t (0 : Fin 2) * 16384 + 1 * r.val = r.val; rw [e0]; omega
  | ⟨1, _⟩ => show win1_1.index t (1 : Fin 2) * 64 + 1 * q.val = q.val; rw [e1]; omega

/-- The second [8192,64] operand's window is the whole array at every point. -/
theorem iblk1_3_apply (c : Dev nD) (t : Fin cfg1.N) (r : Fin 8192) (q : Fin 64) :
    (iblk1 V c 3 t : Vec F S8192x64 .f32) (ix2 r q) = (V c main_v3 : S8192x64.Idx → Elt F .f32) (ix2 r q) := by
  obtain ⟨-, -, -, -, -, -, e0, e1, -⟩ := idx_facts t
  unfold iblk1
  rw [View.read_apply]
  show V c main_v3 (((cfg1.win 3).blk t).view.emb (ix2 r q)) = V c main_v3 _
  congr 1
  funext a
  apply Fin.ext
  match a with
  | ⟨0, _⟩ => show win1_3.index t (0 : Fin 2) * 8192 + 1 * r.val = r.val; rw [e0]; omega
  | ⟨1, _⟩ => show win1_3.index t (1 : Fin 2) * 64 + 1 * q.val = q.val; rw [e1]; omega

end

/-! ## The running sum of block products -/

/-- Reduction step k's contribution to the element (r, q): row r of the left matrix against the first operand over
    columns 2048 k .. 2048 k + 2047, plus row r of the right matrix against the second operand over columns
    1024 k .. 1024 k + 1023. -/
def blockTerm (G1 : S16384x16384.Idx → EReal) (y1 : S16384x64.Idx → EReal) (G2 : S16384x8192.Idx → EReal)
    (y2 : S8192x64.Idx → EReal) (r : Fin 16384) (q : Fin 64) (k : Fin 8) : EReal :=
  (∑ j : Fin 2048, G1 (ix2 r (⟨k.val * 2048 + j.val, by omega⟩ : Fin 16384)) * y1 (ix2 (⟨k.val * 2048 + j.val, by omega⟩ : Fin 16384) q))
    + (∑ j : Fin 1024, G2 (ix2 r (⟨k.val * 1024 + j.val, by omega⟩ : Fin 8192)) * y2 (ix2 (⟨k.val * 1024 + j.val, by omega⟩ : Fin 8192) q))

/-- The same over a natural step number, zero past the last step: what a sum over a range of steps adds up. -/
def stepTerm (G1 : S16384x16384.Idx → EReal) (y1 : S16384x64.Idx → EReal) (G2 : S16384x8192.Idx → EReal)
    (y2 : S8192x64.Idx → EReal) (r : Fin 16384) (q : Fin 64) (k : ℕ) : EReal :=
  if h : k < 8 then blockTerm G1 y1 G2 y2 r q ⟨k, h⟩ else 0

theorem stepTerm_of_lt (G1 : S16384x16384.Idx → EReal) (y1 : S16384x64.Idx → EReal) (G2 : S16384x8192.Idx → EReal)
    (y2 : S8192x64.Idx → EReal) (r : Fin 16384) (q : Fin 64) (k : ℕ) (h : k < 8) :
    stepTerm G1 y1 G2 y2 r q k = blockTerm G1 y1 G2 y2 r q ⟨k, h⟩ := dif_pos h

section
variable (V : (c : Dev nD) → (b : Ref sig .tc) → Buf (Elt Ideal) ((c : Thread nD τ).loc b))

/-- One reduction step at point t = 8 I + k over the windows' blocks: the accumulator's element plus step k's
    contribution to the element (1024 I + p, q). -/
theorem point_apply (c : Dev nD) (t : Fin cfg1.N) (I k : ℕ) (hI : I < 16) (hk : k < 8) (ht : t.val = I * 8 + k)
    (acc : Vec Ideal S1024x64 .f32) (p : Fin 1024) (q : Fin 64) :
    Gen.k1_pay2 (F := Ideal) (slice1 (grid1.coords t) (iblk1 V c 1 t)) (slice2 (grid1.coords t) (iblk1 V c 3 t))
        (iblk1 V c 0 t) (iblk1 V c 2 t) acc (ix2 p q)
      = acc (ix2 p q) + blockTerm (V c main_arg5) (V c main_v2) (V c main_arg6) (V c main_v3)
          (⟨I * 1024 + p.val, by omega⟩ : Fin 16384) q ⟨k, hk⟩ := by
  have hcoord : ((grid1.coords t) 1).val = k := by
    have := (idx_facts t).2.2.2.2.2.2.2.2.2.2
    omega
  refine (step_apply (grid1.coords t) k hk hcoord (iblk1 V c 0 t) (iblk1 V c 1 t) (iblk1 V c 2 t) (iblk1 V c 3 t) acc p q).trans ?_
  refine congrArg (acc (ix2 p q) + ·) ?_
  unfold blockTerm
  refine congrArg₂ (· + ·) ?_ ?_
  · exact Finset.sum_congr rfl fun j _ =>
      congrArg₂ (· * ·) (iblk1_0_apply V c t I k hI hk ht p j) (iblk1_1_apply V c t (⟨k * 2048 + j.val, by omega⟩ : Fin 16384) q)
  · exact Finset.sum_congr rfl fun j _ =>
      congrArg₂ (· * ·) (iblk1_2_apply V c t I k hI hk ht p j) (iblk1_3_apply V c t (⟨k * 1024 + j.val, by omega⟩ : Fin 8192) q)

theorem outsAt1_congr (c : Dev nD) (n n' : ℕ) (h : n = n') (hn : n < cfg1.N) (hn' : n' < cfg1.N) :
    outsAt1 V c n hn = outsAt1 V c n' hn' := by subst h; rfl

/-- The accumulator after point 8 I + k holds, at (p, q), the contributions of steps 0 .. k to the element
    (1024 I + p, q): by induction on the step. -/
theorem acc_eq (c : Dev nD) (I : ℕ) (hI : I < 16) : ∀ (k : ℕ) (hk : k < 8) (hn : I * 8 + k < cfg1.N) (p : Fin 1024) (q : Fin 64),
    (outsAt1 V c (I * 8 + k) hn).2 (ix2 p q)
      = ∑ k' ∈ Finset.range (k + 1), stepTerm (V c main_arg5) (V c main_v2) (V c main_arg6) (V c main_v3)
          (⟨I * 1024 + p.val, by omega⟩ : Fin 16384) q k'
  | 0, hk, hn, p, q => by
    have h0 : (⟨I * 8 + 0, hn⟩ : Fin cfg1.N).val % 8 = 0 := by dsimp only; omega
    have h1 : ¬(⟨I * 8 + 0, hn⟩ : Fin cfg1.N).val % 8 = 7 := by dsimp only; omega
    refine (congrArg (fun z => z.2 (ix2 p q)) (outsAt1_A V c ⟨I * 8 + 0, hn⟩ h0 h1)).trans ?_
    dsimp only
    refine (congrFun (sout_A (F := Ideal) c (grid1.coords ⟨I * 8 + 0, hn⟩) (ms1_0 ⟨I * 8 + 0, hn⟩) (hs1_0 ⟨I * 8 + 0, hn⟩) (ms1_1 ⟨I * 8 + 0, hn⟩) (hs1_1 ⟨I * 8 + 0, hn⟩) (ms1_2 ⟨I * 8 + 0, hn⟩) (hs1_2 ⟨I * 8 + 0, hn⟩) (ms1_3 ⟨I * 8 + 0, hn⟩) (hs1_3 ⟨I * 8 + 0, hn⟩) (ms1_4 ⟨I * 8 + 0, hn⟩) (hs1_4 ⟨I * 8 + 0, hn⟩) scM1_0 (Memref.isWhole_whole _) _ _ (iblk1 V c 0 ⟨I * 8 + 0, hn⟩) (iblk1 V c 1 ⟨I * 8 + 0, hn⟩) (iblk1 V c 2 ⟨I * 8 + 0, hn⟩) (iblk1 V c 3 ⟨I * 8 + 0, hn⟩)) (ix2 p q)).trans ?_
    refine (point_apply V c ⟨I * 8 + 0, hn⟩ I 0 hI hk rfl (Gen.k1_pay1 (F := Ideal)) p q).trans ?_
    rw [Pay.k1_pay1_apply, zero_add, Finset.sum_range_one, stepTerm_of_lt _ _ _ _ _ _ 0 hk]
  | k + 1, hk, hn, p, q => by
    have hn' : I * 8 + k < cfg1.N := by omega
    have ih := acc_eq c I hI k (by omega) hn' p q
    have h0 : ¬(⟨I * 8 + (k + 1), hn⟩ : Fin cfg1.N).val % 8 = 0 := by dsimp only; omega
    have hprev : (outsAt1 V c ((⟨I * 8 + (k + 1), hn⟩ : Fin cfg1.N).val - 1) (Nat.lt_of_le_of_lt (Nat.sub_le _ _) (⟨I * 8 + (k + 1), hn⟩ : Fin cfg1.N).isLt))
        = outsAt1 V c (I * 8 + k) hn' := outsAt1_congr V c _ _ (by dsimp only; omega) _ _
    rw [Finset.sum_range_succ, ← ih, stepTerm_of_lt _ _ _ _ _ _ (k + 1) hk]
    by_cases h1 : (⟨I * 8 + (k + 1), hn⟩ : Fin cfg1.N).val % 8 = 7
    · refine (congrArg (fun z => z.2 (ix2 p q)) (outsAt1_C V c ⟨I * 8 + (k + 1), hn⟩ h0 h1)).trans ?_
      dsimp only
      rw [hprev]
      refine (congrFun (sout_C (F := Ideal) c (grid1.coords ⟨I * 8 + (k + 1), hn⟩) (ms1_0 ⟨I * 8 + (k + 1), hn⟩) (hs1_0 ⟨I * 8 + (k + 1), hn⟩) (ms1_1 ⟨I * 8 + (k + 1), hn⟩) (hs1_1 ⟨I * 8 + (k + 1), hn⟩) (ms1_2 ⟨I * 8 + (k + 1), hn⟩) (hs1_2 ⟨I * 8 + (k + 1), hn⟩) (ms1_3 ⟨I * 8 + (k + 1), hn⟩) (hs1_3 ⟨I * 8 + (k + 1), hn⟩) (ms1_4 ⟨I * 8 + (k + 1), hn⟩) (hs1_4 ⟨I * 8 + (k + 1), hn⟩) scM1_0 (Memref.isWhole_whole _) _ _ (iblk1 V c 0 ⟨I * 8 + (k + 1), hn⟩) (iblk1 V c 1 ⟨I * 8 + (k + 1), hn⟩) (iblk1 V c 2 ⟨I * 8 + (k + 1), hn⟩) (iblk1 V c 3 ⟨I * 8 + (k + 1), hn⟩) (outsAt1 V c (I * 8 + k) hn').2) (ix2 p q)).trans ?_
      exact point_apply V c ⟨I * 8 + (k + 1), hn⟩ I (k + 1) hI hk rfl (outsAt1 V c (I * 8 + k) hn').2 p q
    · refine (congrArg (fun z => z.2 (ix2 p q)) (outsAt1_B V c ⟨I * 8 + (k + 1), hn⟩ h0 h1)).trans ?_
      dsimp only
      rw [hprev]
      refine (congrFun (sout_B (F := Ideal) c (grid1.coords ⟨I * 8 + (k + 1), hn⟩) (ms1_0 ⟨I * 8 + (k + 1), hn⟩) (hs1_0 ⟨I * 8 + (k + 1), hn⟩) (ms1_1 ⟨I * 8 + (k + 1), hn⟩) (hs1_1 ⟨I * 8 + (k + 1), hn⟩) (ms1_2 ⟨I * 8 + (k + 1), hn⟩) (hs1_2 ⟨I * 8 + (k + 1), hn⟩) (ms1_3 ⟨I * 8 + (k + 1), hn⟩) (hs1_3 ⟨I * 8 + (k + 1), hn⟩) (ms1_4 ⟨I * 8 + (k + 1), hn⟩) (hs1_4 ⟨I * 8 + (k + 1), hn⟩) scM1_0 (Memref.isWhole_whole _) _ _ (iblk1 V c 0 ⟨I * 8 + (k + 1), hn⟩) (iblk1 V c 1 ⟨I * 8 + (k + 1), hn⟩) (iblk1 V c 2 ⟨I * 8 + (k + 1), hn⟩) (iblk1 V c 3 ⟨I * 8 + (k + 1), hn⟩) (outsAt1 V c (I * 8 + k) hn').2) (ix2 p q)).trans ?_
      exact point_apply V c ⟨I * 8 + (k + 1), hn⟩ I (k + 1) hI hk rfl (outsAt1 V c (I * 8 + k) hn').2 p q

end

end Cert.KernelIdeal.Val1

end
-- ==== Proof.KiValue1c.lean ====
/-
  Region 1 at the ideal values: the output block at the flush points (the last reduction step of each row block) as the
  maximum with zero of the eight steps' contributions, the cover of the output array by the flushed blocks (row r is
  written back by the last step of row block r / 1024), and the whole output array element by element — first as the
  sum over the eight steps of the block sums, then, regrouping the blocks, as the two whole row-by-column sums.
-/
import proofs.«176943_j19696720019794_2_alg».proof.Proof.KiFrame1
import proofs.«176943_j19696720019794_2_alg».proof.Proof.PayIdeal
import proofs.«176943_j19696720019794_2_alg».proof.Proof.KiValue1b
import proofs.«176943_j19696720019794_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.Val1

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

/-! ## The output block at the flush points, and the whole output array -/

/-- The element (r, q) of the result, blockwise: the maximum with zero of the eight steps' contributions. -/
def blocked (G1 : S16384x16384.Idx → EReal) (y1 : S16384x64.Idx → EReal) (G2 : S16384x8192.Idx → EReal)
    (y2 : S8192x64.Idx → EReal) : S16384x64.Idx → EReal :=
  fun i => max (∑ k : Fin 8, blockTerm G1 y1 G2 y2 (i 0) (i 1) k) 0

theorem blocked_apply (G1 : S16384x16384.Idx → EReal) (y1 : S16384x64.Idx → EReal) (G2 : S16384x8192.Idx → EReal)
    (y2 : S8192x64.Idx → EReal) (r : Fin 16384) (q : Fin 64) :
    blocked G1 y1 G2 y2 (ix2 r q) = max (∑ k : Fin 8, blockTerm G1 y1 G2 y2 r q k) 0 := rfl

section
variable (V : (c : Dev nD) → (b : Ref sig .tc) → Buf (Elt Ideal) ((c : Thread nD τ).loc b))

/-- The sum of the contributions of steps 0 .. 7 is the sum over the eight steps. -/
theorem sum_range_eight (f : ℕ → EReal) (g : Fin 8 → EReal) (h : ∀ k : Fin 8, f k.val = g k) :
    ∑ k' ∈ Finset.range 8, f k' = ∑ k : Fin 8, g k := by
  rw [← Fin.sum_univ_eq_sum_range f 8]
  exact Finset.sum_congr rfl fun k _ => h k

/-- The output block after the last step of row block I holds, at (p, q), the maximum with zero of the eight steps'
    contributions to the element (1024 I + p, q). -/
theorem out_eq (c : Dev nD) (t : Fin cfg1.N) (I : ℕ) (hI : I < 16) (ht : t.val = I * 8 + 7) (p : Fin 1024) (q : Fin 64) :
    (outsAt1 V c t.val t.isLt).1 (ix2 p q)
      = max (∑ k : Fin 8, blockTerm (V c main_arg5) (V c main_v2) (V c main_arg6) (V c main_v3)
          (⟨I * 1024 + p.val, by omega⟩ : Fin 16384) q k) 0 := by
  have hlt := t_lt t
  have h0 : ¬t.val % 8 = 0 := by omega
  have h1 : t.val % 8 = 7 := by omega
  have hn' : I * 8 + 6 < cfg1.N := by have := t.isLt; omega
  have hprev : (outsAt1 V c (t.val - 1) (Nat.lt_of_le_of_lt (Nat.sub_le _ _) t.isLt)) = outsAt1 V c (I * 8 + 6) hn' :=
    outsAt1_congr V c _ _ (by omega) _ _
  refine (congrArg (fun z => z.1 (ix2 p q)) (outsAt1_C V c t h0 h1)).trans ?_
  dsimp only
  rw [hprev]
  refine (congrFun (out_C (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) _ _ (iblk1 V c 0 t) (iblk1 V c 1 t) (iblk1 V c 2 t) (iblk1 V c 3 t) (outsAt1 V c (I * 8 + 6) hn').2) (ix2 p q)).trans ?_
  refine (Pay.k1_pay3_apply _ p q).trans ?_
  refine congrArg (max · 0) ?_
  refine (point_apply V c t I 7 hI (by omega) ht (outsAt1 V c (I * 8 + 6) hn').2 p q).trans ?_
  rw [acc_eq V c I hI 6 (by omega) hn' p q, ← stepTerm_of_lt _ _ _ _ _ _ 7 (by omega), ← Finset.sum_range_succ]
  exact sum_range_eight _ _ fun k => stepTerm_of_lt _ _ _ _ _ _ k.val k.isLt

/-- What a flushing point writes back is its block of the blockwise result. -/
theorem flushed_eq (c : Dev nD) (t : Fin cfg1.N) (hf : (cfg1.win 4).flush t = true) :
    (dat1 V c).flushed 4 t = ((cfg1.win 4).blk t).view.read (Elt Ideal)
      (blocked (V c main_arg5) (V c main_v2) (V c main_arg6) (V c main_v3)) := by
  have hlt := t_lt t
  have h7 : t.val % 8 = 7 := (flush1_4 t).mp hf
  obtain ⟨-, -, -, -, -, -, -, -, e0, e1, -⟩ := idx_facts t
  show (cfg1.win 4).cut (grid1.coords t) ((dat1 V c).after 4 t) = _
  rw [after1_4]
  funext y
  obtain ⟨p, q, rfl⟩ : ∃ (p : Fin 1024) (q : Fin 64), y = ix2 p q := ⟨y 0, y 1, eq_ix2 y⟩
  rw [View.read_apply]
  show (outsAt1 V c t.val t.isLt).1 (ix2 p q) = blocked (V c main_arg5) (V c main_v2) (V c main_arg6) (V c main_v3) (((cfg1.win 4).blk t).view.emb (ix2 p q))
  have he : ((cfg1.win 4).blk t).view.emb (ix2 p q) = ix2 (⟨t.val / 8 * 1024 + p.val, by omega⟩ : Fin 16384) q := by
    funext a
    apply Fin.ext
    match a with
    | ⟨0, _⟩ => show win1_4.index t (0 : Fin 2) * 1024 + 1 * p.val = t.val / 8 * 1024 + p.val; rw [e0]; omega
    | ⟨1, _⟩ => show win1_4.index t (1 : Fin 2) * 64 + 1 * q.val = q.val; rw [e1]; omega
  rw [he, blocked_apply]
  exact out_eq V c t (t.val / 8) (by omega) (by omega) p q

/-- An index of the output array is in point t's block iff each coordinate is in the block's range on its axis. -/
theorem mem_blk (t : Fin cfg1.N) (i : S16384x64.Idx) :
    i ∈ ((cfg1.win 4).blk t).view.set ↔ ∀ a : Fin 2, win1_4.index t a * S1024x64.size a ≤ (i a).val ∧ (i a).val < win1_4.index t a * S1024x64.size a + S1024x64.size a := by
  show i ∈ ((View.whole main_v6).slice (win1_4.rect t)).set ↔ _
  rw [View.set_slice_whole, Rect.mem_set_unit]
  exact Iff.rfl

/-- Row r of the output is written back by the last step of row block r / 1024. -/
theorem cover (i : S16384x64.Idx) : ∃ t : Fin cfg1.N, (cfg1.win 4).flush t = true ∧ i ∈ ((cfg1.win 4).blk t).view.set := by
  have hi0 : (i 0).val < 16384 := (i 0).isLt
  have hi1 : (i 1).val < 64 := (i 1).isLt
  have hN : cfg1.N = 128 := N_1
  refine ⟨⟨(i 0).val / 1024 * 8 + 7, by omega⟩, (flush1_4 _).mpr (by dsimp only; omega), ?_⟩
  obtain ⟨-, -, -, -, -, -, -, -, e0, e1, -⟩ := idx_facts ⟨(i 0).val / 1024 * 8 + 7, by omega⟩
  rw [mem_blk]
  intro a
  match a with
  | ⟨0, _⟩ =>
    show win1_4.index _ (0 : Fin 2) * 1024 ≤ (i 0).val ∧ (i 0).val < win1_4.index _ (0 : Fin 2) * 1024 + 1024
    rw [e0]; dsimp only; omega
  | ⟨1, _⟩ =>
    show win1_4.index _ (1 : Fin 2) * 64 ≤ (i 1).val ∧ (i 1).val < win1_4.index _ (1 : Fin 2) * 64 + 64
    rw [e1]; omega

/-- The output array after the region, blockwise. -/
theorem final1_blocked_fun (c : Dev nD) :
    (dat1 V c).arrAt 4 cfg1.N = blocked (V c main_arg5) (V c main_v2) (V c main_arg6) (V c main_v3) :=
  (dat1 V c).arrAt_eq_of_cover 4 (blocked (V c main_arg5) (V c main_v2) (V c main_arg6) (V c main_v3))
    (fun t hf => flushed_eq V c t hf) cover

/-- The element (r, q) of the output array after the region: the maximum with zero of the eight steps' block sums. -/
theorem final1_blocked (c : Dev nD) (r : Fin 16384) (q : Fin 64) :
    (dat1 V c).arrAt 4 cfg1.N (ix2 r q)
      = max (∑ k : Fin 8, blockTerm (V c main_arg5) (V c main_v2) (V c main_arg6) (V c main_v3) r q k) 0 :=
  (congrFun (final1_blocked_fun V c) (ix2 r q)).trans (blocked_apply _ _ _ _ r q)

/-- Row r of the left matrix against column q of the first operand plus row r of the right matrix against column q of
    the second: the element (r, q) of the result before the maximum with zero. -/
def rowSums (G1 : S16384x16384.Idx → EReal) (y1 : S16384x64.Idx → EReal) (G2 : S16384x8192.Idx → EReal)
    (y2 : S8192x64.Idx → EReal) (r : Fin 16384) (q : Fin 64) : EReal :=
  (∑ j : Fin 16384, G1 (ix2 r j) * y1 (ix2 j q)) + (∑ j : Fin 8192, G2 (ix2 r j) * y2 (ix2 j q))

/-- The eight steps' block sums regroup into the two whole sums. -/
theorem sum_blockTerm (G1 : S16384x16384.Idx → EReal) (y1 : S16384x64.Idx → EReal) (G2 : S16384x8192.Idx → EReal)
    (y2 : S8192x64.Idx → EReal) (r : Fin 16384) (q : Fin 64) :
    ∑ k : Fin 8, blockTerm G1 y1 G2 y2 r q k = rowSums G1 y1 G2 y2 r q := by
  unfold blockTerm rowSums
  rw [Finset.sum_add_distrib]
  refine congrArg₂ (· + ·) ?_ ?_
  · exact BlockSum.sum_blocks_8_2048 (fun j : Fin 16384 => G1 (ix2 r j) * y1 (ix2 j q))
  · exact BlockSum.sum_blocks_8_1024 (fun j : Fin 8192 => G2 (ix2 r j) * y2 (ix2 j q))

/-- The element (r, q) of the output array after the region: the maximum with zero of row r of the left matrix
    against column q of the first operand plus row r of the right matrix against column q of the second. -/
theorem final1 (c : Dev nD) (r : Fin 16384) (q : Fin 64) :
    (dat1 V c).arrAt 4 cfg1.N (ix2 r q)
      = max (rowSums (V c main_arg5) (V c main_v2) (V c main_arg6) (V c main_v3) r q) 0 :=
  (final1_blocked V c r q).trans (congrArg (fun x : EReal => max x 0) (sum_blockTerm _ _ _ _ r q))

end

end Cert.KernelIdeal.Val1

end
-- ==== Proof.KiAlg1.lean ====
/-
  The second result, at the exact values: the array the second fused kernel's pipeline leaves is the reference's
  term. Index by index both are max(sum_j G1[r,j] y1[j,q] + sum_j G2[r,j] y2[j,q], 0), the two host products
  y1, y2 the same terms on both sides; the kernel accumulates the two row sums in eight blocks starting from zero.
-/
import proofs.«176943_j19696720019794_2_alg».proof.Proof.KiEnd
import proofs.«176943_j19696720019794_2_alg».proof.Proof.KiValue1c
import proofs.«176943_j19696720019794_2_alg».proof.Proof.RefIdeal

noncomputable section

namespace Cert.KernelIdeal.Alg

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (zeTerm zeTerm_apply)

variable (m : (ℓ : Loc nD τ sig) → Buf (Elt Ideal) ℓ)

/-- Region 1's result array is the reference's second term of the launch contents. -/
theorem res1 (c : Dev nD) :
    (dat1 (F := Ideal) (T2 m) c).arrAt 4 cfg1.N
      = zeTerm (m ((c : Thread nD τ).loc main_arg5)) (X1 m c main_v2) (m ((c : Thread nD τ).loc main_arg6)) (X1 m c main_v3) := by
  funext i
  obtain ⟨r, q, rfl⟩ : ∃ (r : Fin 16384) (q : Fin 64), i = ix2 r q := ⟨i 0, i 1, eq_ix2 i⟩
  refine (Val1.final1 (T2 m) c r q).trans ?_
  rw [zeTerm_apply]
  unfold Val1.rowSums
  rw [T2_main_arg5 m c, T2_main_arg6 m c, T2_main_v2 m c, T2_main_v3 m c]

end Cert.KernelIdeal.Alg

end
-- ==== Proof.KiValue2a.lean ====
/-
  Region 2 at any float instance: what each case of the body leaves, as the kernel's payloads over the loaded blocks.

  The body loads 2048 rows of the whole [8192,64] operand from the rows the reduction step selects, the whole
  [1024,2048] matrix block and the accumulator, and stores the accumulating payload back; the first step reads the
  accumulator back from the zero splat it has just stored, the last step also stores the maximum with zero of the new
  accumulator into the output block.
-/
import proofs.«176943_j19696720019794_2_alg».proof.Proof.KiFrame2
import proofs.«176943_j19696720019794_2_alg».proof.Proof.PayIdeal
import Idealize.ShloMosaic.Lib.Pipeline.Value
import Idealize.ShloMosaic.Lib.ValueIdx
import Idealize.ShloMosaic.Lib.Tactic

set_option maxRecDepth 16384

noncomputable section

namespace Cert.KernelIdeal.Val2

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

variable {F : FTy → Type} [FloatOps F]

theorem hz : (![0, 0] : Fin 2 → Nat) = fun _ => 0 := funext fun a => by fin_cases a <;> rfl

/-- The rows of the whole [8192,64] operand the body loads at reduction step k: 2048 rows from row 2048 k. -/
abbrev slice (i : grid2.Coords) (x1 : Vec F S8192x64 .f32) : Vec F S2048x64 .f32 :=
  View.ld x1 (Rect.unit (s := S8192x64) (k2_off1 i) S2048x64.size (k2_off1_inb i))

/-- A middle step leaves in the accumulator the accumulating payload over what it held. -/
theorem sout_B (c : Dev nD) (i : grid2.Coords) (arg2 : Memref sig .tc .vmem S1024x2048 .f32) (harg2 : arg2.IsWhole) (arg3 : Memref sig .tc .vmem S8192x64 .f32) (harg3 : arg3.IsWhole)
    (arg4 : Memref sig .tc .vmem S1024x64 .f32) (harg4 : arg4.IsWhole) (arg5 : Memref sig .tc .vmem S1024x64 .f32) (harg5 : arg5.IsWhole)
    (hc0 : ¬cond2_0 i) (hc1 : ¬cond2_1 i) (x0 : Vec F S1024x2048 .f32) (x1 : Vec F S8192x64 .f32) (xs0 : Vec F S1024x64 .f32) :
    sout2_B_0 c i arg2 harg2 arg3 harg3 arg4 harg4 arg5 harg5 hc0 hc1 x0 x1 xs0 = Gen.k2_pay2 (slice i x1) x0 xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  rw [View.canon_unit_zero hz]
  simp only [View.readAt_eq_ld, harg2.read_unread, harg3.read_unread, harg4.read_unread, harg5.read_unread, View.ld_unit_zero (S := S1024x2048) hz, View.ld_unit_zero (S := S1024x64) hz]

/-- The first step leaves in the accumulator the accumulating payload over the zero splat. -/
theorem sout_A (c : Dev nD) (i : grid2.Coords) (arg2 : Memref sig .tc .vmem S1024x2048 .f32) (harg2 : arg2.IsWhole) (arg3 : Memref sig .tc .vmem S8192x64 .f32) (harg3 : arg3.IsWhole)
    (arg4 : Memref sig .tc .vmem S1024x64 .f32) (harg4 : arg4.IsWhole) (arg5 : Memref sig .tc .vmem S1024x64 .f32) (harg5 : arg5.IsWhole)
    (hc0 : cond2_0 i) (hc1 : ¬cond2_1 i) (x0 : Vec F S1024x2048 .f32) (x1 : Vec F S8192x64 .f32) :
    sout2_A_0 c i arg2 harg2 arg3 harg3 arg4 harg4 arg5 harg5 hc0 hc1 x0 x1 = Gen.k2_pay2 (slice i x1) x0 Gen.k2_pay1 := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S1024x64) hz, View.readCov_unit_zero (S := S1024x64) _ hz]
  simp only [View.readAt_eq_ld, harg2.read_unread, harg3.read_unread, harg4.read_unread, harg5.read_unread, View.ld_unit_zero (S := S1024x2048) hz, View.ld_unit_zero (S := S1024x64) hz]
  rfl

/-- The last step leaves in the accumulator the accumulating payload over what it held, -/
theorem sout_C (c : Dev nD) (i : grid2.Coords) (arg2 : Memref sig .tc .vmem S1024x2048 .f32) (harg2 : arg2.IsWhole) (arg3 : Memref sig .tc .vmem S8192x64 .f32) (harg3 : arg3.IsWhole)
    (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) :
    sout2_C_0 c i arg2 harg2 arg3 harg3 arg4 harg4 arg5 harg5 hc0 hc1 x0 x1 xs0 = Gen.k2_pay2 (slice i x1) x0 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero (S := S1024x64) hz]
  simp only [View.readAt_eq_ld, harg2.read_unread, harg3.read_unread, harg4.read_unread, harg5.read_unread, View.ld_unit_zero (S := S1024x2048) hz, View.ld_unit_zero (S := S1024x64) hz]
  rfl

/-- and in the output block its maximum with zero. -/
theorem out_C (c : Dev nD) (i : grid2.Coords) (arg2 : Memref sig .tc .vmem S1024x2048 .f32) (harg2 : arg2.IsWhole) (arg3 : Memref sig .tc .vmem S8192x64 .f32) (harg3 : arg3.IsWhole)
    (arg4 : Memref sig .tc .vmem S1024x64 .f32) (harg4 : arg4.IsWhole) (arg5 : Memref sig .tc .vmem S1024x64 .f32) (harg5 : arg5.IsWhole)
    (hc0 : ¬cond2_0 i) (hc1 : cond2_1 i) (x0 : Vec F S1024x2048 .f32) (x1 : Vec F S8192x64 .f32) (xs0 : Vec F S1024x64 .f32) :
    out2_C_2 c i arg2 harg2 arg3 harg3 arg4 harg4 arg5 harg5 hc0 hc1 x0 x1 xs0 = Gen.k2_pay3 (Gen.k2_pay2 (slice i x1) x0 xs0) := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz, View.readCov_unit_zero (S := S1024x64) _ hz]
  simp only [View.readAt_eq_ld, harg2.read_unread, harg3.read_unread, harg4.read_unread, harg5.read_unread, View.ld_unit_zero (S := S1024x2048) hz, View.ld_unit_zero (S := S1024x64) hz]
  rfl

end Cert.KernelIdeal.Val2

end
-- ==== Proof.KiValue2b.lean ====
/-
  Region 2 at the ideal values: the blocks the body reads, as elements of the two arrays the region finds; the
  accumulator after each grid point, as the partial row-by-column sum over the column blocks seen so far; the output
  block a last reduction step stores, and the output array the write-backs leave: at (r, q) the maximum with 0 of the
  sum over j of A (r, j) times Y (j, q).
-/
import proofs.«176943_j19696720019794_2_alg».proof.Proof.KiFrame2
import proofs.«176943_j19696720019794_2_alg».proof.Proof.PayIdeal
import proofs.«176943_j19696720019794_2_alg».proof.Proof.KiValue2a
import proofs.«176943_j19696720019794_2_alg».proof.Proof.LibBlockSum
import Idealize.ShloMosaic.Lib.Pipeline.Value
import Idealize.ShloMosaic.Lib.ValueIdx
import Idealize.ShloMosaic.Lib.Tactic

set_option maxRecDepth 16384

noncomputable section

namespace Cert.KernelIdeal.Val2

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The index maps, decided over the grid -/

/-- At the linear point t the matrix window sits at block (t / 4, t % 4), the whole [8192,64] operand at (0, 0), the
    output window at (t / 4, 0), and the body's row offset into the [8192,64] operand is 2048 (t % 4). -/
theorem idx_facts : ∀ t : Fin cfg2.N, win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ k2_off1 (grid2.coords t) (0 : Fin 2) = 2048 * (t.val % 4) ∧ k2_off1 (grid2.coords t) (1 : Fin 2) = 0 :=
  (by decide +kernel : ∀ t : Fin grid2.N, _)

/-! ## The blocks read at an index -/

/-- The matrix block at point t, at (p, j): the array's element at row 1024 (t / 4) + p, column 2048 (t % 4) + j. -/
theorem iblk0_apply (c : Dev nD) (t : Fin cfg2.N) (p : Fin 1024) (j : Fin 2048) (R K : Fin 8192)
    (hR : R.val = 1024 * (t.val / 4) + p.val) (hK : K.val = 2048 * (t.val % 4) + j.val) :
    (iblk2 V c 0 t : Vec Ideal S1024x2048 .f32) (ix2 p j) = (V c main_arg7 : FVec Ideal S8192x8192 .f32) (ix2 R K) := by
  obtain ⟨e0, e1, -⟩ := idx_facts t
  unfold iblk2
  rw [View.read_apply]
  show V c main_arg7 _ = V c main_arg7 _
  congr 1
  funext a
  apply Fin.ext
  match a with
  | ⟨0, _⟩ => show win2_0.index t 0 * 1024 + 1 * p.val = R.val; rw [e0, hR]; omega
  | ⟨1, _⟩ => show win2_0.index t 1 * 2048 + 1 * j.val = K.val; rw [e1, hK]; omega

/-- The rows the body loads of the whole [8192,64] operand at point t, at (j, q): the array's element at row
    2048 (t % 4) + j, column q. -/
theorem slice_apply (c : Dev nD) (t : Fin cfg2.N) (j : Fin 2048) (q : Fin 64) (K : Fin 8192)
    (hK : K.val = 2048 * (t.val % 4) + j.val) :
    slice (grid2.coords t) (iblk2 V c 1 t : Vec Ideal S8192x64 .f32) (ix2 j q) = (V c main_v4 : FVec Ideal S8192x64 .f32) (ix2 K q) := by
  obtain ⟨-, -, e2, e3, -, -, e6, e7⟩ := idx_facts t
  show (iblk2 V c 1 t : Vec Ideal S8192x64 .f32) _ = _
  unfold iblk2
  rw [View.read_apply]
  show V c main_v4 _ = V c main_v4 _
  congr 1
  funext a
  apply Fin.ext
  match a with
  | ⟨0, _⟩ => show win2_1.index t 0 * 8192 + 1 * (k2_off1 (grid2.coords t) 0 + 1 * j.val) = K.val; rw [e2, e6, hK]; omega
  | ⟨1, _⟩ => show win2_1.index t 1 * 64 + 1 * (k2_off1 (grid2.coords t) 1 + 1 * q.val) = q.val; rw [e3, e7]; omega

/-! ## The partial sums -/

/-- Column block k's share of the row-by-column sum at (r, q): the sum over j < 2048 of A (r, 2048 k + j) times
    Y (2048 k + j, q); a term past the array's end counts 0 (there is none for k < 4). -/
def blockTerm (A : FVec Ideal S8192x8192 .f32) (Y : FVec Ideal S8192x64 .f32) (r : Fin 8192) (q : Fin 64) (k : ℕ) : EReal :=
  ∑ j : Fin 2048, if h : 2048 * k + j.val < 8192 then A (ix2 r ⟨2048 * k + j.val, h⟩) * Y (ix2 ⟨2048 * k + j.val, h⟩ q) else 0

/-- The first n column blocks' share. -/
def part (A : FVec Ideal S8192x8192 .f32) (Y : FVec Ideal S8192x64 .f32) (r : Fin 8192) (q : Fin 64) (n : ℕ) : EReal :=
  ∑ k ∈ Finset.range n, blockTerm A Y r q k

theorem part_succ (A : FVec Ideal S8192x8192 .f32) (Y : FVec Ideal S8192x64 .f32) (r : Fin 8192) (q : Fin 64) (n : ℕ) :
    part A Y r q (n + 1) = part A Y r q n + blockTerm A Y r q n := Finset.sum_range_succ _ _

/-- All four column blocks' shares make the whole row-by-column sum. -/
theorem part_four (A : FVec Ideal S8192x8192 .f32) (Y : FVec Ideal S8192x64 .f32) (r : Fin 8192) (q : Fin 64) :
    part A Y r q 4 = ∑ j : Fin 8192, A (ix2 r j) * Y (ix2 j q) := by
  refine Eq.trans ?_ (BlockSum.sum_blocks_4_2048 fun i : Fin 8192 => A (ix2 r i) * Y (ix2 i q))
  unfold part
  rw [Finset.sum_range]
  refine Finset.sum_congr rfl fun k _ => ?_
  unfold blockTerm
  refine Finset.sum_congr rfl fun j _ => ?_
  have hlt : 2048 * k.val + j.val < 8192 := by have := j.isLt; have := k.isLt; omega
  rw [dif_pos hlt]
  have e : (⟨2048 * k.val + j.val, hlt⟩ : Fin 8192) = ⟨k.val * 2048 + j.val, by omega⟩ := Fin.ext (by show 2048 * k.val + j.val = k.val * 2048 + j.val; omega)
  rw [e]

/-! ## One reduction step at an index -/

/-- The accumulating payload at point t over the windows' blocks, at (p, q): the accumulator's element plus column
    block t % 4's share of the sum at (1024 (t / 4) + p, q). -/
theorem point_apply (c : Dev nD) (t : Fin cfg2.N) (acc : Vec Ideal S1024x64 .f32) (p : Fin 1024) (q : Fin 64) (r : Fin 8192)
    (hr : r.val = 1024 * (t.val / 4) + p.val) :
    Gen.k2_pay2 (F := Ideal) (slice (grid2.coords t) (iblk2 V c 1 t)) (iblk2 V c 0 t) acc (ix2 p q)
      = acc (ix2 p q) + blockTerm (V c main_arg7) (V c main_v4) r q (t.val % 4) := by
  refine (Pay.k2_pay2_apply (slice (grid2.coords t) (iblk2 V c 1 t)) (iblk2 V c 0 t) acc p q).trans ?_
  refine congrArg (acc (ix2 p q) + ·) ?_
  unfold blockTerm
  refine Finset.sum_congr rfl fun j _ => ?_
  have hlt : 2048 * (t.val % 4) + j.val < 8192 := by have := j.isLt; omega
  rw [dif_pos hlt]
  exact congrArg₂ (· * ·) (iblk0_apply V c t p j r ⟨_, hlt⟩ hr rfl) (slice_apply V c t j q ⟨_, hlt⟩ rfl)

/-! ## The accumulator after each point -/

theorem outsAt2_congr (c : Dev nD) (n n' : ℕ) (h : n = n') (hn : n < cfg2.N) (hn' : n' < cfg2.N) :
    outsAt2 V c n hn = outsAt2 V c n' hn' := by subst h; rfl

theorem t_lt (t : Fin cfg2.N) : t.val < 32 := N_2 ▸ t.isLt

/-- The accumulator after point n holds, at (p, q), the first n % 4 + 1 column blocks' share of the sum at
    (1024 (n / 4) + p, q): by induction on the point. -/
theorem acc_eq (c : Dev nD) (n : ℕ) : ∀ (hn : n < cfg2.N) (p : Fin 1024) (q : Fin 64) (r : Fin 8192), r.val = 1024 * (n / 4) + p.val →
    ((outsAt2 V c n hn).2 : Vec Ideal S1024x64 .f32) (ix2 p q) = part (V c main_arg7) (V c main_v4) r q (n % 4 + 1) := by
  induction n with
  | zero =>
    intro hn p q r hr
    have h0 : (⟨0, hn⟩ : Fin cfg2.N).val % 4 = 0 := rfl
    have h1 : ¬(⟨0, hn⟩ : Fin cfg2.N).val % 4 = 3 := by dsimp only; omega
    refine (congrArg (fun z => z.2 (ix2 p q)) (outsAt2_A V c ⟨0, hn⟩ h0 h1)).trans ?_
    dsimp only
    refine (congrFun (sout_A (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) _ _ (iblk2 V c 0 ⟨0, hn⟩) (iblk2 V c 1 ⟨0, hn⟩)) (ix2 p q)).trans ?_
    refine (point_apply V c ⟨0, hn⟩ (Gen.k2_pay1 (F := Ideal)) p q r hr).trans ?_
    rw [Pay.k2_pay1_apply, zero_add]
    show blockTerm _ _ r q 0 = part _ _ r q 1
    unfold part
    rw [Finset.sum_range_one]
  | succ n ih =>
    intro hn p q r hr
    have hn' : n < cfg2.N := Nat.lt_of_succ_lt hn
    have hprev : (outsAt2 V c ((⟨n + 1, hn⟩ : Fin cfg2.N).val - 1) (Nat.lt_of_le_of_lt (Nat.sub_le _ _) (⟨n + 1, hn⟩ : Fin cfg2.N).isLt))
        = outsAt2 V c n hn' := outsAt2_congr V c _ _ (by dsimp only; omega) _ _
    by_cases h0 : (⟨n + 1, hn⟩ : Fin cfg2.N).val % 4 = 0
    · have h1 : ¬(⟨n + 1, hn⟩ : Fin cfg2.N).val % 4 = 3 := by omega
      refine (congrArg (fun z => z.2 (ix2 p q)) (outsAt2_A V c ⟨n + 1, hn⟩ h0 h1)).trans ?_
      dsimp only
      refine (congrFun (sout_A (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) _ _ (iblk2 V c 0 ⟨n + 1, hn⟩) (iblk2 V c 1 ⟨n + 1, hn⟩)) (ix2 p q)).trans ?_
      refine (point_apply V c ⟨n + 1, hn⟩ (Gen.k2_pay1 (F := Ideal)) p q r hr).trans ?_
      rw [Pay.k2_pay1_apply, zero_add]
      have e : (n + 1) % 4 = 0 := h0
      show blockTerm _ _ r q ((n + 1) % 4) = part _ _ r q ((n + 1) % 4 + 1)
      rw [e]
      unfold part
      rw [Finset.sum_range_one]
    · have hdiv : (n + 1) / 4 = n / 4 := by have : (n + 1) % 4 ≠ 0 := h0; omega
      have hmod : (n + 1) % 4 = n % 4 + 1 := by have : (n + 1) % 4 ≠ 0 := h0; omega
      have ih' := ih hn' p q r (by rw [← hdiv]; exact hr)
      have fin : ((outsAt2 V c n hn').2 : Vec Ideal S1024x64 .f32) (ix2 p q) + blockTerm (V c main_arg7) (V c main_v4) r q ((⟨n + 1, hn⟩ : Fin cfg2.N).val % 4)
          = part (V c main_arg7) (V c main_v4) r q ((n + 1) % 4 + 1) := by
        rw [ih', part_succ _ _ _ _ ((n + 1) % 4)]
        show part _ _ r q (n % 4 + 1) + blockTerm _ _ r q ((n + 1) % 4) = _
        rw [hmod]
      by_cases h1 : (⟨n + 1, hn⟩ : Fin cfg2.N).val % 4 = 3
      · refine (congrArg (fun z => z.2 (ix2 p q)) (outsAt2_C V c ⟨n + 1, hn⟩ h0 h1)).trans ?_
        dsimp only
        rw [hprev]
        refine (congrFun (sout_C (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) _ _ (iblk2 V c 0 ⟨n + 1, hn⟩) (iblk2 V c 1 ⟨n + 1, hn⟩) (outsAt2 V c n hn').2) (ix2 p q)).trans ?_
        exact (point_apply V c ⟨n + 1, hn⟩ (outsAt2 V c n hn').2 p q r hr).trans fin
      · refine (congrArg (fun z => z.2 (ix2 p q)) (outsAt2_B V c ⟨n + 1, hn⟩ h0 h1)).trans ?_
        dsimp only
        rw [hprev]
        refine (congrFun (sout_B (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) _ _ (iblk2 V c 0 ⟨n + 1, hn⟩) (iblk2 V c 1 ⟨n + 1, hn⟩) (outsAt2 V c n hn').2) (ix2 p q)).trans ?_
        exact (point_apply V c ⟨n + 1, hn⟩ (outsAt2 V c n hn').2 p q r hr).trans fin

/-! ## The output block -/

/-- The maximum with 0 of the row-by-column sum of A and Y at (r, q). -/
def rowcol (A : FVec Ideal S8192x8192 .f32) (Y : FVec Ideal S8192x64 .f32) (r : Fin 8192) (q : Fin 64) : EReal :=
  max (∑ j : Fin 8192, A (ix2 r j) * Y (ix2 j q)) 0

theorem rowcol_def (A : FVec Ideal S8192x8192 .f32) (Y : FVec Ideal S8192x64 .f32) (r : Fin 8192) (q : Fin 64) :
    rowcol A Y r q = max (∑ j : Fin 8192, A (ix2 r j) * Y (ix2 j q)) 0 := rfl

/-- The array of them. -/
def G2 (A : FVec Ideal S8192x8192 .f32) (Y : FVec Ideal S8192x64 .f32) : FVec Ideal S8192x64 .f32 :=
  fun i => rowcol A Y (⟨(i 0).val, (i 0).isLt⟩ : Fin 8192) (⟨(i 1).val, (i 1).isLt⟩ : Fin 64)

theorem G2_of (A : FVec Ideal S8192x8192 .f32) (Y : FVec Ideal S8192x64 .f32) (i : S8192x64.Idx) (r : Fin 8192) (q : Fin 64)
    (h0 : (i 0).val = r.val) (h1 : (i 1).val = q.val) : G2 A Y i = rowcol A Y r q := by
  obtain rfl : (⟨(i 0).val, (i 0).isLt⟩ : Fin 8192) = r := Fin.ext h0
  obtain rfl : (⟨(i 1).val, (i 1).isLt⟩ : Fin 64) = q := Fin.ext h1
  rfl

theorem G2_apply (A : FVec Ideal S8192x8192 .f32) (Y : FVec Ideal S8192x64 .f32) (r : Fin 8192) (q : Fin 64) :
    G2 A Y (ix2 r q) = rowcol A Y r q := rfl

/-- At a last reduction step t the output block holds, at (p, q), the maximum with 0 of the whole row-by-column
    sum at (1024 (t / 4) + p, q). -/
theorem out_eq (c : Dev nD) (t : Fin cfg2.N) (h1 : t.val % 4 = 3) (p : Fin 1024) (q : Fin 64) (r : Fin 8192)
    (hr : r.val = 1024 * (t.val / 4) + p.val) :
    ((outsAt2 V c t.val t.isLt).1 : Vec Ideal S1024x64 .f32) (ix2 p q) = rowcol (V c main_arg7) (V c main_v4) r q := by
  have h0 : ¬t.val % 4 = 0 := by omega
  have hacc := acc_eq V c t.val t.isLt p q r hr
  have e2 := (congrArg (fun z => z.2 (ix2 p q)) (outsAt2_C V c t h0 h1)).symm.trans hacc
  dsimp only at e2
  have e3 := (congrFun (sout_C (F := Ideal) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2) (ix2 p q)).symm.trans e2
  refine (congrArg (fun z => z.1 (ix2 p q)) (outsAt2_C V c t h0 h1)).trans ?_
  dsimp only
  refine (congrFun (out_C (F := Ideal) c (grid2.coords t) (ms2_0 t) (hs2_0 t) (ms2_1 t) (hs2_1 t) (ms2_2 t) (hs2_2 t) scM2_0 (Memref.isWhole_whole _) _ _ (iblk2 V c 0 t) (iblk2 V c 1 t) (outsAt2 V c (t.val - 1) (Nat.lt_of_le_of_lt (Nat.sub_le _ _) t.isLt)).2) (ix2 p q)).trans ?_
  refine (Pay.k2_pay3_apply _ p q).trans ?_
  rw [e3, h1]
  show max (part _ _ r q 4) 0 = _
  rw [part_four]
  rfl

/-! ## From the blocks to the array -/

/-- What a last reduction step writes back is its block of the array of results. -/
theorem flushed_eq (c : Dev nD) (t : Fin cfg2.N) (hf : (cfg2.win 2).flush t = true) :
    (dat2 V c).flushed 2 t = ((cfg2.win 2).blk t).view.read (Elt Ideal) (G2 (V c main_arg7) (V c main_v4)) := by
  have h1 : t.val % 4 = 3 := (flush2_2 t).mp hf
  obtain ⟨-, -, -, -, e4, e5, -⟩ := idx_facts t
  show (cfg2.win 2).cut (grid2.coords t) ((dat2 V c).after 2 t) = _
  rw [after2_2]
  funext y
  have hp : (y 0).val < 1024 := (y 0).isLt
  have hq : (y 1).val < 64 := (y 1).isLt
  have ht := t_lt t
  rw [View.read_apply]
  have ey : (cfg2.win 2).xinj (grid2.coords t) y = ix2 (⟨(y 0).val, hp⟩ : Fin 1024) (⟨(y 1).val, hq⟩ : Fin 64) :=
    funext fun a => Fin.ext (by match a with | ⟨0, _⟩ => rfl | ⟨1, _⟩ => rfl)
  show ((outsAt2 V c t.val t.isLt).1 : Vec Ideal S1024x64 .f32) ((cfg2.win 2).xinj (grid2.coords t) y) = G2 (V c main_arg7) (V c main_v4) (((cfg2.win 2).blk t).view.emb y)
  rw [ey, out_eq V c t h1 ⟨(y 0).val, hp⟩ ⟨(y 1).val, hq⟩ ⟨1024 * (t.val / 4) + (y 0).val, by omega⟩ rfl]
  refine (G2_of _ _ _ _ _ ?_ ?_).symm
  · show win2_2.index t (0 : Fin 2) * 1024 + 1 * (y 0).val = 1024 * (t.val / 4) + (y 0).val
    rw [e4]; omega
  · show win2_2.index t (1 : Fin 2) * 64 + 1 * (y 1).val = (y 1).val
    rw [e5]; omega

/-- An index of the array is in point t's block iff each coordinate is in the block's range on its axis. -/
theorem mem_blk (t : Fin cfg2.N) (i : S8192x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v7).slice (win2_2.rect t)).set ↔ _
  rw [View.set_slice_whole, Rect.mem_set_unit]
  exact Iff.rfl

/-- Every index of the array lies in the block some last reduction step writes back: row r in row block r / 1024. -/
theorem cover (i : S8192x64.Idx) : ∃ t : Fin cfg2.N, (cfg2.win 2).flush t = true ∧ i ∈ ((cfg2.win 2).blk t).view.set := by
  have hi0 : (i 0).val < 8192 := (i 0).isLt
  have hi1 : (i 1).val < 64 := (i 1).isLt
  have hN : cfg2.N = 32 := N_2
  have hlt : 4 * ((i 0).val / 1024) + 3 < cfg2.N := by omega
  obtain ⟨-, -, -, -, e4, e5, -⟩ := idx_facts ⟨4 * ((i 0).val / 1024) + 3, hlt⟩
  refine ⟨⟨4 * ((i 0).val / 1024) + 3, hlt⟩, (flush2_2 _).mpr (by dsimp only; omega), ?_⟩
  rw [mem_blk]
  intro a
  match a with
  | ⟨0, _⟩ =>
    show win2_2.index ⟨4 * ((i 0).val / 1024) + 3, hlt⟩ (0 : Fin 2) * 1024 ≤ (i 0).val ∧ (i 0).val < win2_2.index ⟨4 * ((i 0).val / 1024) + 3, hlt⟩ (0 : Fin 2) * 1024 + 1024
    rw [e4]; dsimp only; omega
  | ⟨1, _⟩ =>
    show win2_2.index ⟨4 * ((i 0).val / 1024) + 3, hlt⟩ (1 : Fin 2) * 64 ≤ (i 1).val ∧ (i 1).val < win2_2.index ⟨4 * ((i 0).val / 1024) + 3, hlt⟩ (1 : Fin 2) * 64 + 64
    rw [e5]; omega

/-- The output array after the region: the array of results. -/
theorem final2_arr (c : Dev nD) : (dat2 V c).arrAt 2 cfg2.N = G2 (V c main_arg7) (V c main_v4) :=
  (dat2 V c).arrAt_eq_of_cover 2 (G2 (V c main_arg7) (V c main_v4)) (flushed_eq V c) (cover)

/-- Element by element: the maximum with 0 of the row-by-column sum of the matrix and the [8192,64] operand. -/
theorem final2 (c : Dev nD) (r : Fin 8192) (q : Fin 64) :
    ((dat2 V c).arrAt 2 cfg2.N : FVec Ideal S8192x64 .f32) (ix2 r q) = rowcol (V c main_arg7) (V c main_v4) r q := by
  rw [final2_arr]; rfl

end Cert.KernelIdeal.Val2

end
-- ==== Proof.KiAlg2.lean ====
/-
  The third result, at the exact values: the array the single-operand kernel's pipeline leaves is the reference's
  term. Index by index both are max(sum_j G[r,j] y[j,q], 0) with y the host product x W, the same term on both
  sides: the kernel accumulates the row sum in four blocks of 2048 starting from zero.
-/
import proofs.«176943_j19696720019794_2_alg».proof.Proof.KiEnd
import proofs.«176943_j19696720019794_2_alg».proof.Proof.KiValue2b
import proofs.«176943_j19696720019794_2_alg».proof.Proof.RefIdeal

noncomputable section

namespace Cert.KernelIdeal.Alg

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (zfTerm zfTerm_apply)

variable (m : (ℓ : Loc nD τ sig) → Buf (Elt Ideal) ℓ)

/-- Region 2's result array is the reference's third term of the launch contents. -/
theorem res2 (c : Dev nD) :
    (dat2 (F := Ideal) (T3 m) c).arrAt 2 cfg2.N
      = zfTerm (m ((c : Thread nD τ).loc main_arg7)) (X1 m c main_v4) := by
  funext i
  obtain ⟨r, q, rfl⟩ : ∃ (r : Fin 8192) (q : Fin 64), i = ix2 r q := ⟨i 0, i 1, eq_ix2 i⟩
  refine (Val2.final2 (T3 m) c r q).trans ?_
  rw [zfTerm_apply, Val2.rowcol_def, T3_main_arg7 m c, T3_main_v4 m c]

end Cert.KernelIdeal.Alg

end
-- ==== Proof.KiAlg.lean ====
/-
  The algebraic claim. The kernel's program at the exact values ends with each result array at what its region's
  pipeline leaves, which is the reference's own term of the launch contents (the three modules before this one); the
  reference's run ends at those same terms of its own launch contents, which agree with the kernel's on every
  argument. The five small host products x W are computed by the same host operation in both programs and are
  never opened.
-/
import proofs.«176943_j19696720019794_2_alg».proof.Defs
import proofs.«176943_j19696720019794_2_alg».proof.Proof.Gen.Pre_finite_inputs
import proofs.«176943_j19696720019794_2_alg».proof.Proof.Gen.ReferenceIdeal
import proofs.«176943_j19696720019794_2_alg».proof.Proof.KiAlg0
import proofs.«176943_j19696720019794_2_alg».proof.Proof.KiAlg1
import proofs.«176943_j19696720019794_2_alg».proof.Proof.KiAlg2
import proofs.«176943_j19696720019794_2_alg».proof.Proof.Gen.ReferenceIdeal.Run

noncomputable section

namespace Cert.KernelIdeal.Alg

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (zvTerm zeTerm zfTerm run_zv run_ze run_zf)

/-- At the exact values the kernel's program and the reference, run from memories that agree on the arguments, both
    terminate without a fault, leave the arguments as launched, and end with the same three result arrays: each is
    the reference's own term of the launch contents (the two small host products are the same terms on both sides). -/
theorem algebraic : Cert.algebraic_KernelIdeal_ReferenceIdeal := by
  intro m ρ m' ρ' _ hagree
  refine ⟨fun c => zvTerm (m ((c : Thread nD τ).loc main_arg3)) (X1 m c main_v0) (m ((c : Thread nD τ).loc main_arg4)) (X1 m c main_v1),
    fun c => zeTerm (m ((c : Thread nD τ).loc main_arg5)) (X1 m c main_v2) (m ((c : Thread nD τ).loc main_arg6)) (X1 m c main_v3),
    fun c => zfTerm (m ((c : Thread nD τ).loc main_arg7)) (X1 m c main_v4), ?_, ?_⟩
  · exact (θ_run Cert.KernelIdeal.defs _ _).mono
      (fun r h c => ⟨(h c).1.trans (res0 m c), (h c).2.1.trans (res1 m c), (h c).2.2.1.trans (res2 m c), (h c).2.2.2⟩)
      (Hand.run_values (F := Ideal) m ρ)
  · refine (θ_run Cert.ReferenceIdeal.defs _ _).mono
      (fun r h c => ⟨(h c).1.trans ((run_zv m' c).trans ?_), (h c).2.1.trans ((run_ze m' c).trans ?_),
        (h c).2.2.1.trans ((run_zf m' c).trans ?_), (h c).2.2.2⟩)
      (Cert.ReferenceIdeal.Value.run (F := Ideal) m' ρ')
    all_goals obtain ⟨h0, h1, h2, h3, h4, h5, h6, h7, h8, h9, h10, h11, h12⟩ := hagree c
    all_goals beta_reduce
    · rw [h3, h0, h8, h4, h1, h9, show X1 m c main_v0 = _ from HostPre.V1_main_v0 m c, show X1 m c main_v1 = _ from HostPre.V1_main_v1 m c]
      rfl
    · rw [h5, h1, h10, h6, h2, h11, show X1 m c main_v2 = _ from HostPre.V1_main_v2 m c, show X1 m c main_v3 = _ from HostPre.V1_main_v3 m c]
      rfl
    · rw [h7, h2, h12, show X1 m c main_v4 = _ from HostPre.V1_main_v4 m c]
      rfl

end Cert.KernelIdeal.Alg

end
-- ==== Proof.lean ====
/-
  The certificate of a three-level message-passing layer: with y = x W computed on the host,
      zv = relu(Gv2v yv_v + Ge2v ye_v),   ze = relu(Ge2e ye_e + Gf2e yf_e),   zf = relu(Gf2f yf_f).
  The kernel's program computes the five small products x W by host operations and then runs three kernels, one per
  result, each over a grid (row block, reduction step): an accumulator is zeroed at the first reduction step, every
  step adds the block products G[i,k] y[k] to it, and the last step stores max(accumulator, 0) into the row block of
  the result. The reference computes the same five products and then each result by whole matrix products, a sum and
  a maximum with zero.

  Frames: each kernel's body is run once per case of its two conditionals (first step, middle step, last step); the
  region's invariant carries the accumulator from point to point at the contents the point before left; the three
  regions follow one another, each changing only its own result array. So every weakly fair execution terminates
  without a fault and no argument array is written. This is proved once for any float instance and used at the
  word-level instance and at the exact one.

  Values, at the exact instance: the accumulator after step k of row block i holds, at (p, q), the sum over the
  blocks k' <= k of the block row sums; addition of extended reals is a commutative monoid, so after the last step
  this is the whole row sum, and the stored block is its maximum with zero: index by index the reference's term.
  No finiteness is needed. The idealization rewrote nothing, so that claim is trivial.
-/
import proofs.«176943_j19696720019794_2_alg».proof.Defs
import proofs.«176943_j19696720019794_2_alg».proof.Proof.Gen.Kernel
import proofs.«176943_j19696720019794_2_alg».proof.Proof.Gen.KernelIdeal
import proofs.«176943_j19696720019794_2_alg».proof.Proof.Gen.ReferenceIdeal
import proofs.«176943_j19696720019794_2_alg».proof.Proof.Gen.ReferenceIdeal.Run
import proofs.«176943_j19696720019794_2_alg».proof.Proof.Gen.Pre_finite_inputs
import proofs.«176943_j19696720019794_2_alg».proof.Proof.KbEnd
import proofs.«176943_j19696720019794_2_alg».proof.Proof.KiAlg
import Idealize.ShloMosaic.Adequacy
import Idealize.ShloMosaic.Init

noncomputable section

namespace Cert.Proof

open Idealize.ShloMosaic Idealize.SL.Sem

/-- The word-level program runs to the end, faults nowhere, and leaves its arguments as launched. -/
theorem frame_kernel : Cert.frame_Kernel := fun m ρ _ => Cert.Kernel.Hand.frame_all (F := Bits) m ρ

/-- So does its reading at the exact values. -/
theorem frame_kernelIdeal : Cert.frame_KernelIdeal := fun m ρ _ => Cert.KernelIdeal.Hand.frame_all (F := Ideal) m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.KernelIdeal.Alg.algebraic⟩

end Cert.Proof

end
